-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 86
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S128x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45_0 : Ref sig .tc := ⟨.hbm, 67, rfl⟩
abbrev main_v45_1 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v60) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S128, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | .hbm, ⟨115, _⟩ => ⟨S1x128, .f32⟩
  | .hbm, ⟨116, _⟩ => ⟨S100000x128, .f32⟩
  | .hbm, ⟨117, _⟩ => ⟨S100000x128, .f32⟩
  | .hbm, ⟨118, _⟩ => ⟨S128x128, .f32⟩
  | .hbm, ⟨119, _⟩ => ⟨S100000x128, .f32⟩
  | .hbm, ⟨120, _⟩ => ⟨S1x128, .f32⟩
  | .hbm, ⟨121, _⟩ => ⟨S100000x128, .f32⟩
  | .hbm, ⟨122, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KReg0.lean ====
import proofs.«171674_j35588099015580_1_alg».proof.Proof.Gen.Kernel.Launch
import proofs.«171674_j35588099015580_1_alg».proof.Proof.Gen.Kernel.Skeleton
import proofs.«171674_j35588099015580_1_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

/-! # Region 0: one call of the SAGE layer kernel, at the buffer contents `V` the region is entered with

At grid point `t` (20 points) the body reads five blocks — rows `5000·t … 5000·t+4999` of the two [100000,128]
operands, the two whole [128,128] weight matrices and the whole [1,128] bias row — and stores ONE [5000,128] block,
rows `5000·t …` of the output: `max(lhs₀·w₀ + lhs₁·w₁ + bias, 0)` entrywise, the matrix products taken over the
operands rounded to bf16. This module states what each window's staging buffer holds before and after the body and
proves the body's triple; the arithmetic stays folded in the payload `k0_pay1`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    (the weights and the bias after the first point) the block index has not moved, so the block is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    (the weights and the bias after the first point) the block index has not moved, so the block is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    (the weights and the bias after the first point) the block index has not moved, so the block is the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: where it is not fetched
    (the weights and the bias after the first point) the block index has not moved, so the block is the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: where it is not fetched
    (the weights and the bias after the first point) the block index has not moved, so the block is the same. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 5's staging buffer after the body, from the five input blocks: its one store, of the payload of the loads. -/
def out0_5 (x0 : Vec F S5000x128 .f32) (x1 : Vec F S5000x128 .f32) (x2 : Vec F S128x128 .f32) (x3 : Vec F S128x128 .f32) (x4 : Vec F S1x128 .f32) : Vec F S5000x128 .f32 :=
  View.canon [⟨r0_0, k0_pay1 (View.ld x0 r0_0) (View.ld x1 r0_0) (View.ld x2 r0_1) (View.ld x3 r0_1) (View.ld x4 r0_2)⟩]

/-- The one store is the whole buffer, so it covers it. -/
theorem cover0_5 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at contents `x0 … x4` and the output's at anything, runs to the
    continuation holding the inputs' as they were and the output's at `out0_5` of the inputs. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t` each
    input's buffer at its block and the output's at `out0_5` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
import proofs.«171674_j35588099015580_1_alg».proof.Proof.Gen.Kernel.Launch
import proofs.«171674_j35588099015580_1_alg».proof.Proof.Gen.Kernel.Skeleton
import proofs.«171674_j35588099015580_1_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

/-! # Region 1: one call of the SAGE layer kernel, at the buffer contents `V` the region is entered with

At grid point `t` (20 points) the body reads five blocks — rows `5000·t … 5000·t+4999` of the two [100000,128]
operands, the two whole [128,128] weight matrices and the whole [1,128] bias row — and stores ONE [5000,128] block,
rows `5000·t …` of the output: `max(lhs₀·w₀ + lhs₁·w₁ + bias, 0)` entrywise, the matrix products taken over the
operands rounded to bf16. This module states what each window's staging buffer holds before and after the body and
proves the body's triple; the arithmetic stays folded in the payload `k1_pay1`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    (the weights and the bias after the first point) the block index has not moved, so the block is the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched
    (the weights and the bias after the first point) the block index has not moved, so the block is the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched
    (the weights and the bias after the first point) the block index has not moved, so the block is the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched
    (the weights and the bias after the first point) the block index has not moved, so the block is the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched
    (the weights and the bias after the first point) the block index has not moved, so the block is the same. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 5's staging buffer after the body, from the five input blocks: its one store, of the payload of the loads. -/
def out1_5 (x0 : Vec F S5000x128 .f32) (x1 : Vec F S5000x128 .f32) (x2 : Vec F S128x128 .f32) (x3 : Vec F S128x128 .f32) (x4 : Vec F S1x128 .f32) : Vec F S5000x128 .f32 :=
  View.canon [⟨r1_0, k1_pay1 (View.ld x0 r1_0) (View.ld x1 r1_0) (View.ld x2 r1_1) (View.ld x3 r1_1) (View.ld x4 r1_2)⟩]

/-- The one store is the whole buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at contents `x0 … x4` and the output's at anything, runs to the
    continuation holding the inputs' as they were and the output's at `out1_5` of the inputs. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t` each
    input's buffer at its block and the output's at `out1_5` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2Runs.lean ====
import proofs.«171674_j35588099015580_1_alg».proof.Proof.Gen.Kernel.Launch
import proofs.«171674_j35588099015580_1_alg».proof.Proof.Gen.Kernel.Skeleton
import proofs.«171674_j35588099015580_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # The statistics region: its two branch conditions, where its outputs are idle, its memrefs

The grid has 20 points, one per block of 5000 rows. The body resets two [1,128] accumulators at the first
point, adds the block's column sums (and column sums of squares) to them at every point, and copies them
into the two outputs at the last point. -/

/-- The first branch (reset of the accumulators) is taken exactly where the grid coordinate is 0. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- The second branch (copy into the outputs) is taken exactly at the last point. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-- The input window is never idle. -/
theorem liveAt2_0 : ∀ t : Fin cfg2.N, cfg2.idle 0 (grid2.coords t) = false := by decide +kernel
/-- Off the last point the two outputs are idle and not written back. -/
theorem idleAt2_1 : ∀ t : Fin cfg2.N, ¬cond2_1 (grid2.coords t) → cfg2.idle 1 (grid2.coords t) = true := by decide +kernel
theorem idleAt2_2 : ∀ t : Fin cfg2.N, ¬cond2_1 (grid2.coords t) → cfg2.idle 2 (grid2.coords t) = true := by decide +kernel
theorem noFlush2_1 : ∀ t : Fin cfg2.N, ¬cond2_1 (grid2.coords t) → (cfg2.win 1).flush t = false := by decide +kernel
theorem noFlush2_2 : ∀ t : Fin cfg2.N, ¬cond2_1 (grid2.coords t) → (cfg2.win 2).flush t = false := by decide +kernel
/-- At the last point they are live. -/
theorem liveAt2_1 : ∀ t : Fin cfg2.N, cond2_1 (grid2.coords t) → cfg2.idle 1 (grid2.coords t) = false := by decide +kernel
theorem liveAt2_2 : ∀ t : Fin cfg2.N, cond2_1 (grid2.coords t) → cfg2.idle 2 (grid2.coords t) = false := by decide +kernel

/-- The windows' current staging memrefs at a point, as the pipeline passes them, and their wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
/-- The two accumulators: whole scoped buffers of the kernel's own. -/
abbrev scM2_0 : Memref sig .tc .vmem S1x128 .f32 := Memref.whole cc2_scratch0
abbrev scM2_1 : Memref sig .tc .vmem S1x128 .f32 := Memref.whole cc2_scratch1

/-- The region invariant with the two accumulators as memrefs owned at some contents, the other scoped buffers unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- The whole-shape rectangle of a [1,128] buffer and of a [5000,128] block, at zero offsets. -/
theorem hz2 : (![0, 0] : Fin S1x128.rank → Nat) = fun _ => 0 := by funext a; fin_cases a <;> rfl
theorem hz2b : (![0, 0] : Fin S5000x128.rank → Nat) = fun _ => 0 := by funext a; fin_cases a <;> rfl

/-- One whole store into a [1,128] buffer leaves its payload, whatever the buffer held. -/
theorem read_store2 {sp : Space} (v : View sig .tc sp S1x128 .f32) (f : v.ty.Contents (Elt F)) (w : S1x128.Idx → Elt F .f32) :
    v.read (Elt F) (v.writes (Elt F) f [⟨Rect.unit (s := S1x128) ![0, 0] S1x128.size inb_S1x128_S1x128_0_0, w⟩]) = w := by
  rw [View.read_writes_eq_canon _ _ _ (fun y => ⟨_, List.mem_singleton_self _, View.mem_set_unit_zero hz2 inb_S1x128_S1x128_0_0 y⟩), View.canon_unit_zero hz2]

/-- A whole store made last leaves its payload, whatever was stored before. -/
theorem read_store2_cons {sp : Space} (v : View sig .tc sp S1x128 .f32) (f : v.ty.Contents (Elt F)) (w : S1x128.Idx → Elt F .f32)
    (L : List (View.Piece (Elt F) S1x128 .f32)) :
    v.read (Elt F) (v.writes (Elt F) f (⟨Rect.unit (s := S1x128) ![0, 0] S1x128.size inb_S1x128_S1x128_0_0, w⟩ :: L)) = w := by
  rw [View.read_writes_eq_canon _ _ _ (fun y => ⟨_, List.mem_cons_self, View.mem_set_unit_zero hz2 inb_S1x128_S1x128_0_0 y⟩), View.canon_cons_unit_zero hz2]

/-! ## The body's triple, case by case -/

set_option maxHeartbeats 1000000 in
/-- The first point (first branch taken, second not): both accumulators are reset to zeros, then the block's column
    sums (of squares) are added; the outputs are handed back untouched. -/
theorem kernelRun2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S5000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 k2_pay1) ∗ owns (c : Thread nD τ) arg5 fullShare (k2_pay5 x0 k2_pay2)) -∗ K ⟨⟩))
      ⊢ wp frame (wpE (defs₀ (F := F)) Variants.none c none) E (cc2__stats_kernel i arg1 harg1 arg2 harg2 arg3 harg3 arg4 harg4 arg5 harg5) K := by
  simp only [cc2__stats_kernel_eq_skeleton]; unfold cc2__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  sl_unfold_words
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    rw [read_store2_cons, View.readCov_unit_zero _ hz2]; simp only [View.readAt_eq_ld, View.ld_unit_zero (S := S1x128) hz2, View.ld_unit_zero (S := S5000x128) hz2b]
  iexists _; isplitr
  swap; · iexact HS1
  ipureintro
  rw [read_store2_cons, View.readCov_unit_zero _ hz2]; simp only [View.readAt_eq_ld, View.ld_unit_zero (S := S1x128) hz2, View.ld_unit_zero (S := S5000x128) hz2b]

set_option maxHeartbeats 1000000 in
/-- A middle point (neither branch taken): the block is read, both accumulators are read and stored back with the
    block's column sums (of squares) added; the outputs are handed back untouched. -/
theorem kernelRun2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S5000x128 .f32) (xs0 xs1 : Vec F S1x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__stats_kernel i arg1 harg1 arg2 harg2 arg3 harg3 arg4 harg4 arg5 harg5) K := by
  simp only [cc2__stats_kernel_eq_skeleton]; unfold cc2__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    rw [read_store2]; simp only [View.readAt_eq_ld, View.ld_unit_zero (S := S1x128) hz2, View.ld_unit_zero (S := S5000x128) hz2b]
  iexists _; isplitr
  swap; · iexact HS1
  ipureintro
  rw [read_store2]; simp only [View.readAt_eq_ld, View.ld_unit_zero (S := S1x128) hz2, View.ld_unit_zero (S := S5000x128) hz2b]

set_option maxHeartbeats 1000000 in
/-- The last point (first branch not taken, second taken): the accumulators take the last block's sums and are
    copied into the two outputs. -/
theorem kernelRun2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S5000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k2_pay4 x0 xs0) ∗ owns (c : Thread nD τ) arg3 fullShare (k2_pay5 x0 xs1)
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__stats_kernel i arg1 harg1 arg2 harg2 arg3 harg3 arg4 harg4 arg5 harg5) K := by
  simp only [cc2__stats_kernel_eq_skeleton]; unfold cc2__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  subst hf0; subst hfs0; subst hfs1
  sl_exec (disch := first | exact hc0 | exact hc1)
  sl_step
  iapply Hk
  sl_unfold_words
  isplitl [H0]
  · iexists f0; isplitr; · ipureintro; rfl
    iexact H0
  isplitl [H1]
  · iexists _; isplitr
    swap; · iexact H1
    ipureintro
    rw [read_store2, View.readCov_unit_zero _ hz2]; simp only [View.readAt_eq_ld, View.ld_unit_zero (S := S1x128) hz2, View.ld_unit_zero (S := S5000x128) hz2b]
  isplitl [H2]
  · iexists _; isplitr
    swap; · iexact H2
    ipureintro
    rw [read_store2, View.readCov_unit_zero _ hz2]; simp only [View.readAt_eq_ld, View.ld_unit_zero (S := S1x128) hz2, View.ld_unit_zero (S := S5000x128) hz2b]
  isplitl [HS0]
  · iexists _; isplitr
    swap; · iexact HS0
    ipureintro
    rw [read_store2]; simp only [View.readAt_eq_ld, View.ld_unit_zero (S := S1x128) hz2, View.ld_unit_zero (S := S5000x128) hz2b]
  iexists _; isplitr
  swap; · iexact HS1
  ipureintro
  rw [read_store2]; simp only [View.readAt_eq_ld, View.ld_unit_zero (S := S1x128) hz2, View.ld_unit_zero (S := S5000x128) hz2b]

end Cert.Kernel.Hand

end
-- ==== Proof.KReg2.lean ====
import proofs.«171674_j35588099015580_1_alg».proof.Proof.KReg2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics region at the entry contents `V`: the running column sums, the proof data, the body obligation -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- THE RUNNING TOTALS. What the two accumulators hold after the body at point `n`: at the first point the block's column
    sums (of squares) added to zeros, afterwards added to what the point before left. -/
def acc2 (c : Dev nD) : (n : ℕ) → n < cfg2.N → Vec F S1x128 .f32 × Vec F S1x128 .f32
  | 0, hn => (k2_pay4 (iblk2 V c 0 ⟨0, hn⟩) k2_pay1, k2_pay5 (iblk2 V c 0 ⟨0, hn⟩) k2_pay2)
  | n + 1, hn => (k2_pay4 (iblk2 V c 0 ⟨n + 1, hn⟩) (acc2 c n (Nat.lt_of_succ_lt hn)).1,
      k2_pay5 (iblk2 V c 0 ⟨n + 1, hn⟩) (acc2 c n (Nat.lt_of_succ_lt hn)).2)

theorem acc2_zero (c : Dev nD) (t : Fin cfg2.N) (h : t.val = 0) :
    acc2 V c t.val t.isLt = (k2_pay4 (iblk2 V c 0 t) k2_pay1, k2_pay5 (iblk2 V c 0 t) k2_pay2) := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt = (k2_pay4 (iblk2 V c 0 t) (acc2 V c (t.val - 1) (Nat.lt_of_le_of_lt (Nat.sub_le _ _) t.isLt)).1,
      k2_pay5 (iblk2 V c 0 t) (acc2 V c (t.val - 1) (Nat.lt_of_le_of_lt (Nat.sub_le _ _) t.isLt)).2) := by
  obtain ⟨n, hn⟩ := t
  cases n with
  | zero => exact absurd rfl h
  | succ n => rfl

/-- The region invariant before position `n`: before the first point the class's (every scratch at anything); afterwards
    the two accumulators at the running totals the point before left, the other scoped buffers unopened, and the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((acc2 V c n hn).1) ∗ owns (c : Thread nD τ) scM2_1 fullShare ((acc2 V c n hn).2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((acc2 V c n hn).1) ∗ owns (c : Thread nD τ) scM2_1 fullShare ((acc2 V c n hn).2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((acc2 V c (n - 1) (by omega)).1) ∗ owns (c : Thread nD τ) scM2_1 fullShare ((acc2 V c (n - 1) (by omega)).2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of the region on core `c`: the arrays as the region finds them; after the body at point `t` the input's
    buffer at its block and the two outputs' at the running totals (read only at the last point, where they are copied
    in); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (acc2 V c t.val t.isLt).1
    | ⟨2, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = (acc2 V c t.val t.isLt).1 := by dsimp only [dat2]
theorem after2_2 (c : Dev nD) (t : Fin cfg2.N) : (dat2 V c).after 2 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The input's memref holds its block; the closed forms of the two conditions say which of the
    three cases the point is in; the invariant hands the body the accumulators at what the point before left (at anything at
    the first point) and takes them back at this point's running totals; off the last point the outputs are idle and come
    back as found; at the last point they come back at the totals. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  by_cases h1 : t.val % 20 = 19
  · -- the last point
    have hz : t.val ≠ 0 := by omega
    have hc0 : ¬cond2_0 (grid2.coords t) := fun h => by have := (hcond2_0 t).mp h; omega
    have hc1 : cond2_1 (grid2.coords t) := (hcond2_1 t).mpr h1
    rw [show (dat2 V c).leavesExact 1 t = owns (c : Thread nD τ) (ms2_1 t) fullShare ((dat2 V c).after 1 t) from by
      unfold Dat.leavesExact; rw [liveAt2_1 t hc1], after2_1]
    rw [show (dat2 V c).leavesExact 2 t = owns (c : Thread nD τ) (ms2_2 t) fullShare ((dat2 V c).after 2 t) from by
      unfold Dat.leavesExact; rw [liveAt2_2 t hc1], after2_2]
    rw [acc2_pos V c t hz]
    rw [PhiS2_castSucc V c t, PhiS2_pos V c _ _ hz]
    iintro ⟨⟨⟨⟨HS0, HS1⟩, Hr⟩, Hg⟩, Ho, ⟨%d0, H0⟩, ⟨%d1, H1⟩, ⟨%d2, H2⟩⟩
    iapply (kernelRun2_C c (grid2.coords t) _ _ _ _ _ _ _ _ _ _ hc0 hc1 (iblk2 V c 0 t) _ _ Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    iexact H2
  · have hc1 : ¬cond2_1 (grid2.coords t) := fun h => h1 ((hcond2_1 t).mp h)
    rw [Dat.leavesExact_idle (dat2 V c) 1 t (idleAt2_1 t hc1) (noFlush2_1 t hc1)]
    rw [Dat.leavesExact_idle (dat2 V c) 2 t (idleAt2_2 t hc1) (noFlush2_2 t hc1)]
    by_cases hz : t.val = 0
    · -- the first point
      have hc0 : cond2_0 (grid2.coords t) := (hcond2_0 t).mpr (by omega)
      rw [acc2_zero V c t hz]
      rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩⟩
      iapply (kernelRun2_A c (grid2.coords t) _ _ _ _ _ _ _ _ _ _ hc0 hc1 (iblk2 V c 0 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2
    · -- a middle point
      have hc0 : ¬cond2_0 (grid2.coords t) := fun h => by have := (hcond2_0 t).mp h; omega
      rw [acc2_pos V c t hz]
      rw [PhiS2_castSucc V c t, PhiS2_pos V c _ _ hz]
      iintro ⟨⟨⟨⟨HS0, HS1⟩, Hr⟩, Hg⟩, Ho, ⟨%d0, H0⟩, ⟨%d1, H1⟩, ⟨%d2, H2⟩⟩
      iapply (kernelRun2_B c (grid2.coords t) _ _ _ _ _ _ _ _ _ _ hc0 hc1 (iblk2 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.Kernel.Hand

end
-- ==== Proof.KReg3.lean ====
/- The frame of the last kernel region (layer normalisation of the row block, a matrix product, a bias row), at the
   contents `V` the region is entered with: what each of its eight windows holds at a grid point, what the body's one
   store leaves in the output window's buffer, the body's triple, and the pipeline's proof data with its obligation. -/
import proofs.«171674_j35588099015580_1_alg».proof.Proof.Gen.Kernel.Launch
import proofs.«171674_j35588099015580_1_alg».proof.Proof.Gen.Kernel.Skeleton
import proofs.«171674_j35588099015580_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not (when it is not fetched its
    block index has not moved), for any proof data over the arrays `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not (when it is not fetched its
    block index has not moved), for any proof data over the arrays `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not (when it is not fetched its
    block index has not moved), for any proof data over the arrays `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not (when it is not fetched its
    block index has not moved), for any proof data over the arrays `V` whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, fetched there or not (when it is not fetched its
    block index has not moved), for any proof data over the arrays `V` whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current buffer holds its block at every point, fetched there or not (when it is not fetched its
    block index has not moved), for any proof data over the arrays `V` whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current buffer holds its block at every point, fetched there or not (when it is not fetched its
    block index has not moved), for any proof data over the arrays `V` whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole buffer -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S128x128 := Rect.unit (s := S128x128) ![0, 0] S128x128.size inb_S128x128_S128x128_0_0

/-! ## What the body leaves in the output window's buffer -/

/-- Window 7's buffer after the body, from the seven input blocks: its one store, whose payload is the normalised
    rows times the weight matrix plus the bias row. -/
def out3_7 (x0 : Vec F S5000x128 .f32) (x1 x2 x3 x4 : Vec F S1x128 .f32) (x5 : Vec F S128x128 .f32) (x6 : Vec F S1x128 .f32) : Vec F S5000x128 .f32 :=
  View.canon [⟨r3_0, k3_pay1 (View.ld x0 r3_0) (View.ld x1 r3_1) (View.ld x2 r3_1) (View.ld x3 r3_1) (View.ld x4 r3_1) (View.ld x5 r3_2) (View.ld x6 r3_1)⟩]

/-- The one store covers the buffer. -/
theorem cover3_7 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 4000000 in
/-- The body on whole buffers, the inputs' at read contents `x0 … x6` and the output's at anything, runs to the
    continuation holding the inputs' as they were and the output's at `out3_7` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of this pipeline on core `c`: the arrays as the region finds them; after the body at point `t` each
    input's buffer at its block and the output's at `out3_7` of the input blocks; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/-
  The program's run as a whole. @main is seven items in a row: a stretch of host operations, the first layer's kernel region, a second
  stretch, the second layer's region, the region that accumulates the column sums, a third stretch, and the region that normalises and
  applies the last linear map. Between two items a core's unscoped buffers hold definite contents: the launch memory, then the pure
  result of each host stretch (a fold of its operations), then, after a region, the region's arrays at what its write-backs leave and
  every other buffer as it was. This module names those contents (W0 … W7), shows that no item changes an argument array, gives each
  region as a segment between two of these states (its arrays split out of the unscoped buffers on entry and put back on exit, the
  kernel body's obligation supplied by the region's own module), and launches the list: every weakly fair execution terminates,
  nothing faults, and the final memory holds every unscoped buffer at W7.
-/
import proofs.«171674_j35588099015580_1_alg».proof.Proof.Gen.Kernel.Launch
import proofs.«171674_j35588099015580_1_alg».proof.Proof.Gen.Kernel.Skeleton
import proofs.«171674_j35588099015580_1_alg».proof.Proof.Gen.Kernel.Points
import proofs.«171674_j35588099015580_1_alg».proof.Proof.Gen.Kernel.Regions
import proofs.«171674_j35588099015580_1_alg».proof.Proof.KReg0
import proofs.«171674_j35588099015580_1_alg».proof.Proof.KReg1
import proofs.«171674_j35588099015580_1_alg».proof.Proof.KReg2
import proofs.«171674_j35588099015580_1_alg».proof.Proof.KReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same, read at the TensorCore's references: what the next region is entered from. -/
abbrev En1 : (c : Dev nD) → (b : Ref sig .tc) → Buf (Elt F) ((c : Thread nD τ).loc b) := fun c b => W1 m ρ c b
/-- After region 0: its arrays at what the pipeline's write-backs leave, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev Ex2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = Ex2 m ρ c (Pipeline.arrRef spec0 w) :=
  (W2_arr m ρ c w).symm
theorem hrest0 (c : Dev nD) : ∀ b, b ∉ Finset.univ.image (Pipeline.arrRef spec0) → Ex2 m ρ c b = En1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- The same, read at the TensorCore's references: what the next region is entered from. -/
abbrev En3 : (c : Dev nD) → (b : Ref sig .tc) → Buf (Elt F) ((c : Thread nD τ).loc b) := fun c b => W3 m ρ c b
/-- After region 1: its arrays at what the pipeline's write-backs leave, every other buffer as entered. -/
def W4 (c : Dev nD) : Valuation τ sig (Elt F) :=
  Pipeline.withArrays spec1 c (W3 m ρ c) fun w => (dat1 (En3 m ρ) c).arrAt w cfg1.N
theorem W4_arr (c : Dev nD) (w : Fin cfg1.W) :
    W4 m ρ c (Proc.devRef .tc (Pipeline.arrRef spec1 w)) = (dat1 (En3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev Ex4 : (c : Dev nD) → (b : Ref sig .tc) → Buf (Elt F) ((c : Thread nD τ).loc b) := fun c b => W4 m ρ c b
theorem hF1 (c : Dev nD) (w : Fin cfg1.W) : (dat1 (En3 m ρ) c).arrAt w cfg1.N = Ex4 m ρ c (Pipeline.arrRef spec1 w) :=
  (W4_arr m ρ c w).symm
theorem hrest1 (c : Dev nD) : ∀ b, b ∉ Finset.univ.image (Pipeline.arrRef spec1) → Ex4 m ρ c b = En3 m ρ c b :=
  fun b hb => W4_of_ne m ρ c b fun w e => hb (Finset.mem_image.mpr ⟨w, Finset.mem_univ _, e⟩)
/-- Region 2 is entered from what region 1 leaves. -/
abbrev En4 : (c : Dev nD) → (b : Ref sig .tc) → Buf (Elt F) ((c : Thread nD τ).loc b) := fun c b => W4 m ρ c b
/-- After region 2: its arrays at what the pipeline's write-backs leave, every other buffer as entered. -/
def W5 (c : Dev nD) : Valuation τ sig (Elt F) :=
  Pipeline.withArrays spec2 c (W4 m ρ c) fun w => (dat2 (En4 m ρ) c).arrAt w cfg2.N
theorem W5_arr (c : Dev nD) (w : Fin cfg2.W) :
    W5 m ρ c (Proc.devRef .tc (Pipeline.arrRef spec2 w)) = (dat2 (En4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same, read at the TensorCore's references. -/
abbrev Ex5 : (c : Dev nD) → (b : Ref sig .tc) → Buf (Elt F) ((c : Thread nD τ).loc b) := fun c b => W5 m ρ c b
theorem hF2 (c : Dev nD) (w : Fin cfg2.W) : (dat2 (En4 m ρ) c).arrAt w cfg2.N = Ex5 m ρ c (Pipeline.arrRef spec2 w) :=
  (W5_arr m ρ c w).symm
theorem hrest2 (c : Dev nD) : ∀ b, b ∉ Finset.univ.image (Pipeline.arrRef spec2) → Ex5 m ρ c b = En4 m ρ c b :=
  fun b hb => W5_of_ne m ρ c b fun w e => hb (Finset.mem_image.mpr ⟨w, Finset.mem_univ _, e⟩)
/-- After `hostOps3`. -/
abbrev W6 : Dev nD → Valuation τ sig (Elt F) := fun c => StableHlo.after hostOps3 (W5 m ρ c)
/-- The same, read at the TensorCore's references: what the next region is entered from. -/
abbrev En6 : (c : Dev nD) → (b : Ref sig .tc) → Buf (Elt F) ((c : Thread nD τ).loc b) := fun c b => W6 m ρ c b
/-- After region 3: its arrays at what the pipeline's write-backs leave, every other buffer as entered. -/
def W7 (c : Dev nD) : Valuation τ sig (Elt F) :=
  Pipeline.withArrays spec3 c (W6 m ρ c) fun w => (dat3 (En6 m ρ) c).arrAt w cfg3.N
theorem W7_arr (c : Dev nD) (w : Fin cfg3.W) :
    W7 m ρ c (Proc.devRef .tc (Pipeline.arrRef spec3 w)) = (dat3 (En6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same, read at the TensorCore's references. -/
abbrev Ex7 : (c : Dev nD) → (b : Ref sig .tc) → Buf (Elt F) ((c : Thread nD τ).loc b) := fun c b => W7 m ρ c b
theorem hF3 (c : Dev nD) (w : Fin cfg3.W) : (dat3 (En6 m ρ) c).arrAt w cfg3.N = Ex7 m ρ c (Pipeline.arrRef spec3 w) :=
  (W7_arr m ρ c w).symm
theorem hrest3 (c : Dev nD) : ∀ b, b ∉ Finset.univ.image (Pipeline.arrRef spec3) → Ex7 m ρ c b = En6 m ρ c b :=
  fun b hb => W7_of_ne m ρ c b fun w e => hb (Finset.mem_image.mpr ⟨w, Finset.mem_univ _, e⟩)

/-! ## The arguments at every boundary: no host operation writes one and no region has one as an output -/
theorem W1_main_arg0 (c : Dev nD) : W1 m ρ c (Proc.devRef .tc main_arg0) = m ((c : Thread nD τ).loc main_arg0) :=
  (StableHlo.after_of_writes_sub hostOps0 _ hostOps0_writes (by decide)).trans rfl
theorem W2_main_arg0 (c : Dev nD) : W2 m ρ c (Proc.devRef .tc main_arg0) = m ((c : Thread nD τ).loc main_arg0) :=
  ((W2_arr m ρ c 1).trans (((dat0 (En1 m ρ) c).arrAt_in 1 rfl _).trans (A_eq0 (En1 m ρ) c 1))).trans (W1_main_arg0 m ρ c)
theorem W3_main_arg0 (c : Dev nD) : W3 m ρ c (Proc.devRef .tc main_arg0) = m ((c : Thread nD τ).loc main_arg0) :=
  (StableHlo.after_of_writes_sub hostOps1 _ hostOps1_writes (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
theorem W6_main_arg0 (c : Dev nD) : W6 m ρ c (Proc.devRef .tc main_arg0) = m ((c : Thread nD τ).loc main_arg0) :=
  (StableHlo.after_of_writes_sub hostOps3 _ hostOps3_writes (by decide)).trans (W5_main_arg0 m ρ c)
theorem W7_main_arg0 (c : Dev nD) : W7 m ρ c (Proc.devRef .tc main_arg0) = m ((c : Thread nD τ).loc main_arg0) :=
  (W7_of_ne m ρ c main_arg0 (by decide)).trans (W6_main_arg0 m ρ c)
theorem W1_main_arg1 (c : Dev nD) : W1 m ρ c (Proc.devRef .tc main_arg1) = m ((c : Thread nD τ).loc main_arg1) :=
  (StableHlo.after_of_writes_sub hostOps0 _ hostOps0_writes (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ hostOps1_writes (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W6_main_arg1 (c : Dev nD) : W6 m ρ c (Proc.devRef .tc main_arg1) = m ((c : Thread nD τ).loc main_arg1) :=
  (StableHlo.after_of_writes_sub hostOps3 _ hostOps3_writes (by decide)).trans (W5_main_arg1 m ρ c)
theorem W7_main_arg1 (c : Dev nD) : W7 m ρ c (Proc.devRef .tc main_arg1) = m ((c : Thread nD τ).loc main_arg1) :=
  (W7_of_ne m ρ c main_arg1 (by decide)).trans (W6_main_arg1 m ρ c)
theorem W1_main_arg2 (c : Dev nD) : W1 m ρ c (Proc.devRef .tc main_arg2) = m ((c : Thread nD τ).loc main_arg2) :=
  (StableHlo.after_of_writes_sub hostOps0 _ hostOps0_writes (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ hostOps1_writes (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of_ne m ρ c main_arg2 (by decide)).trans (W4_main_arg2 m ρ c)
theorem W6_main_arg2 (c : Dev nD) : W6 m ρ c (Proc.devRef .tc main_arg2) = m ((c : Thread nD τ).loc main_arg2) :=
  (StableHlo.after_of_writes_sub hostOps3 _ hostOps3_writes (by decide)).trans (W5_main_arg2 m ρ c)
theorem W7_main_arg2 (c : Dev nD) : W7 m ρ c (Proc.devRef .tc main_arg2) = m ((c : Thread nD τ).loc main_arg2) :=
  (W7_of_ne m ρ c main_arg2 (by decide)).trans (W6_main_arg2 m ρ c)
theorem W1_main_arg3 (c : Dev nD) : W1 m ρ c (Proc.devRef .tc main_arg3) = m ((c : Thread nD τ).loc main_arg3) :=
  (StableHlo.after_of_writes_sub hostOps0 _ hostOps0_writes (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_writes_sub hostOps1 _ hostOps1_writes (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)
theorem W6_main_arg3 (c : Dev nD) : W6 m ρ c (Proc.devRef .tc main_arg3) = m ((c : Thread nD τ).loc main_arg3) :=
  (StableHlo.after_of_writes_sub hostOps3 _ hostOps3_writes (by decide)).trans (W5_main_arg3 m ρ c)
theorem W7_main_arg3 (c : Dev nD) : W7 m ρ c (Proc.devRef .tc main_arg3) = m ((c : Thread nD τ).loc main_arg3) :=
  (W7_of_ne m ρ c main_arg3 (by decide)).trans (W6_main_arg3 m ρ c)
theorem W1_main_arg4 (c : Dev nD) : W1 m ρ c (Proc.devRef .tc main_arg4) = m ((c : Thread nD τ).loc main_arg4) :=
  (StableHlo.after_of_writes_sub hostOps0 _ hostOps0_writes (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ hostOps1_writes (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)
theorem W6_main_arg4 (c : Dev nD) : W6 m ρ c (Proc.devRef .tc main_arg4) = m ((c : Thread nD τ).loc main_arg4) :=
  (StableHlo.after_of_writes_sub hostOps3 _ hostOps3_writes (by decide)).trans (W5_main_arg4 m ρ c)
theorem W7_main_arg4 (c : Dev nD) : W7 m ρ c (Proc.devRef .tc main_arg4) = m ((c : Thread nD τ).loc main_arg4) :=
  (W7_of_ne m ρ c main_arg4 (by decide)).trans (W6_main_arg4 m ρ c)
theorem W1_main_arg5 (c : Dev nD) : W1 m ρ c (Proc.devRef .tc main_arg5) = m ((c : Thread nD τ).loc main_arg5) :=
  (StableHlo.after_of_writes_sub hostOps0 _ hostOps0_writes (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ hostOps1_writes (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)
theorem W6_main_arg5 (c : Dev nD) : W6 m ρ c (Proc.devRef .tc main_arg5) = m ((c : Thread nD τ).loc main_arg5) :=
  (StableHlo.after_of_writes_sub hostOps3 _ hostOps3_writes (by decide)).trans (W5_main_arg5 m ρ c)
theorem W7_main_arg5 (c : Dev nD) : W7 m ρ c (Proc.devRef .tc main_arg5) = m ((c : Thread nD τ).loc main_arg5) :=
  (W7_of_ne m ρ c main_arg5 (by decide)).trans (W6_main_arg5 m ρ c)
theorem W1_main_arg6 (c : Dev nD) : W1 m ρ c (Proc.devRef .tc main_arg6) = m ((c : Thread nD τ).loc main_arg6) :=
  (StableHlo.after_of_writes_sub hostOps0 _ hostOps0_writes (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_writes_sub hostOps1 _ hostOps1_writes (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of_ne m ρ c main_arg6 (by decide)).trans (W4_main_arg6 m ρ c)
theorem W6_main_arg6 (c : Dev nD) : W6 m ρ c (Proc.devRef .tc main_arg6) = m ((c : Thread nD τ).loc main_arg6) :=
  (StableHlo.after_of_writes_sub hostOps3 _ hostOps3_writes (by decide)).trans (W5_main_arg6 m ρ c)
theorem W7_main_arg6 (c : Dev nD) : W7 m ρ c (Proc.devRef .tc main_arg6) = m ((c : Thread nD τ).loc main_arg6) :=
  (W7_of_ne m ρ c main_arg6 (by decide)).trans (W6_main_arg6 m ρ c)
theorem W1_main_arg7 (c : Dev nD) : W1 m ρ c (Proc.devRef .tc main_arg7) = m ((c : Thread nD τ).loc main_arg7) :=
  (StableHlo.after_of_writes_sub hostOps0 _ hostOps0_writes (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_writes_sub hostOps1 _ hostOps1_writes (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (W5_of_ne m ρ c main_arg7 (by decide)).trans (W4_main_arg7 m ρ c)
theorem W6_main_arg7 (c : Dev nD) : W6 m ρ c (Proc.devRef .tc main_arg7) = m ((c : Thread nD τ).loc main_arg7) :=
  (StableHlo.after_of_writes_sub hostOps3 _ hostOps3_writes (by decide)).trans (W5_main_arg7 m ρ c)
theorem W7_main_arg7 (c : Dev nD) : W7 m ρ c (Proc.devRef .tc main_arg7) = m ((c : Thread nD τ).loc main_arg7) :=
  (W7_of_ne m ρ c main_arg7 (by decide)).trans (W6_main_arg7 m ρ c)
theorem W1_main_arg8 (c : Dev nD) : W1 m ρ c (Proc.devRef .tc main_arg8) = m ((c : Thread nD τ).loc main_arg8) :=
  (StableHlo.after_of_writes_sub hostOps0 _ hostOps0_writes (by decide)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_writes_sub hostOps1 _ hostOps1_writes (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (W5_of_ne m ρ c main_arg8 (by decide)).trans (W4_main_arg8 m ρ c)
theorem W6_main_arg8 (c : Dev nD) : W6 m ρ c (Proc.devRef .tc main_arg8) = m ((c : Thread nD τ).loc main_arg8) :=
  (StableHlo.after_of_writes_sub hostOps3 _ hostOps3_writes (by decide)).trans (W5_main_arg8 m ρ c)
theorem W7_main_arg8 (c : Dev nD) : W7 m ρ c (Proc.devRef .tc main_arg8) = m ((c : Thread nD τ).loc main_arg8) :=
  (W7_of_ne m ρ c main_arg8 (by decide)).trans (W6_main_arg8 m ρ c)
theorem W1_main_arg9 (c : Dev nD) : W1 m ρ c (Proc.devRef .tc main_arg9) = m ((c : Thread nD τ).loc main_arg9) :=
  (StableHlo.after_of_writes_sub hostOps0 _ hostOps0_writes (by decide)).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_writes_sub hostOps1 _ hostOps1_writes (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (W5_of_ne m ρ c main_arg9 (by decide)).trans (W4_main_arg9 m ρ c)
theorem W6_main_arg9 (c : Dev nD) : W6 m ρ c (Proc.devRef .tc main_arg9) = m ((c : Thread nD τ).loc main_arg9) :=
  (StableHlo.after_of_writes_sub hostOps3 _ hostOps3_writes (by decide)).trans (W5_main_arg9 m ρ c)
theorem W7_main_arg9 (c : Dev nD) : W7 m ρ c (Proc.devRef .tc main_arg9) = m ((c : Thread nD τ).loc main_arg9) :=
  (W7_of_ne m ρ c main_arg9 (by decide)).trans (W6_main_arg9 m ρ c)
theorem W1_main_arg10 (c : Dev nD) : W1 m ρ c (Proc.devRef .tc main_arg10) = m ((c : Thread nD τ).loc main_arg10) :=
  (StableHlo.after_of_writes_sub hostOps0 _ hostOps0_writes (by decide)).trans rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (StableHlo.after_of_writes_sub hostOps1 _ hostOps1_writes (by decide)).trans (W2_main_arg10 m ρ c)
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg10 (c : Dev nD) : W5 m ρ c (Proc.devRef .tc main_arg10) = m ((c : Thread nD τ).loc main_arg10) :=
  (W5_of_ne m ρ c main_arg10 (by decide)).trans (W4_main_arg10 m ρ c)
theorem W6_main_arg10 (c : Dev nD) : W6 m ρ c (Proc.devRef .tc main_arg10) = m ((c : Thread nD τ).loc main_arg10) :=
  (StableHlo.after_of_writes_sub hostOps3 _ hostOps3_writes (by decide)).trans (W5_main_arg10 m ρ c)
theorem W7_main_arg10 (c : Dev nD) : W7 m ρ c (Proc.devRef .tc main_arg10) = m ((c : Thread nD τ).loc main_arg10) :=
  (W7_of_ne m ρ c main_arg10 (by decide)).trans (W6_main_arg10 m ρ c)
theorem W1_main_arg11 (c : Dev nD) : W1 m ρ c (Proc.devRef .tc main_arg11) = m ((c : Thread nD τ).loc main_arg11) :=
  (StableHlo.after_of_writes_sub hostOps0 _ hostOps0_writes (by decide)).trans rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (StableHlo.after_of_writes_sub hostOps1 _ hostOps1_writes (by decide)).trans (W2_main_arg11 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W5_main_arg11 (c : Dev nD) : W5 m ρ c (Proc.devRef .tc main_arg11) = m ((c : Thread nD τ).loc main_arg11) :=
  (W5_of_ne m ρ c main_arg11 (by decide)).trans (W4_main_arg11 m ρ c)
theorem W6_main_arg11 (c : Dev nD) : W6 m ρ c (Proc.devRef .tc main_arg11) = m ((c : Thread nD τ).loc main_arg11) :=
  (StableHlo.after_of_writes_sub hostOps3 _ hostOps3_writes (by decide)).trans (W5_main_arg11 m ρ c)
theorem W7_main_arg11 (c : Dev nD) : W7 m ρ c (Proc.devRef .tc main_arg11) = m ((c : Thread nD τ).loc main_arg11) :=
  (W7_of_ne m ρ c main_arg11 (by decide)).trans (W6_main_arg11 m ρ c)

/-! ## The proof data family and the thread state -/

/-- No pipeline has a prefetched table. -/
abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (En1 m ρ) c
  | ⟨1, _⟩ => fun c => dat1 (En3 m ρ) c
  | ⟨2, _⟩ => fun c => dat2 (En4 m ρ) c
  | ⟨3, _⟩ => fun c => dat3 (En6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are split out of
    the unscoped buffers and put back at the exit contents; the generator register goes into the invariant and out; nothing owed. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register goes into the invariant and out; nothing owed. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are split out of
    the unscoped buffers and put back at the exit contents; the generator register goes into the invariant and out; nothing owed. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (En4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (En4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (En4 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (En4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (En4 m ρ c) (Ex5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split out of
    the unscoped buffers and put back at the exit contents; the generator register goes into the invariant and out; nothing owed. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En6 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (En6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (En6 m ρ c) (Ex7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ) ]
/-- @main is the run of the segments. -/
theorem main_run (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every final state holds each unscoped buffer at the last boundary's contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c)⟩) (run m ρ)

/-- THE RESULT: the result array ends holding what the last region's write-backs leave, and every argument as launched. -/
theorem result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v60 (by decide)), (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c)⟩) (run m ρ)

end Cert.Kernel.Hand

end
-- ==== Proof.KIReg0.lean ====
import proofs.«171674_j35588099015580_1_alg».proof.Proof.Gen.KernelIdeal.Launch
import proofs.«171674_j35588099015580_1_alg».proof.Proof.Gen.KernelIdeal.Skeleton
import proofs.«171674_j35588099015580_1_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

/-! # Region 0: one call of the SAGE layer kernel, at the buffer contents `V` the region is entered with

At grid point `t` (20 points) the body reads five blocks — rows `5000·t … 5000·t+4999` of the two [100000,128]
operands, the two whole [128,128] weight matrices and the whole [1,128] bias row — and stores ONE [5000,128] block,
rows `5000·t …` of the output: `max(lhs₀·w₀ + lhs₁·w₁ + bias, 0)` entrywise, the matrix products taken over the
operands rounded to bf16. This module states what each window's staging buffer holds before and after the body and
proves the body's triple; the arithmetic stays folded in the payload `k0_pay1`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    (the weights and the bias after the first point) the block index has not moved, so the block is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    (the weights and the bias after the first point) the block index has not moved, so the block is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    (the weights and the bias after the first point) the block index has not moved, so the block is the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: where it is not fetched
    (the weights and the bias after the first point) the block index has not moved, so the block is the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: where it is not fetched
    (the weights and the bias after the first point) the block index has not moved, so the block is the same. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 5's staging buffer after the body, from the five input blocks: its one store, of the payload of the loads. -/
def out0_5 (x0 : Vec F S5000x128 .f32) (x1 : Vec F S5000x128 .f32) (x2 : Vec F S128x128 .f32) (x3 : Vec F S128x128 .f32) (x4 : Vec F S1x128 .f32) : Vec F S5000x128 .f32 :=
  View.canon [⟨r0_0, k0_pay1 (View.ld x0 r0_0) (View.ld x1 r0_0) (View.ld x2 r0_1) (View.ld x3 r0_1) (View.ld x4 r0_2)⟩]

/-- The one store is the whole buffer, so it covers it. -/
theorem cover0_5 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at contents `x0 … x4` and the output's at anything, runs to the
    continuation holding the inputs' as they were and the output's at `out0_5` of the inputs. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t` each
    input's buffer at its block and the output's at `out0_5` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«171674_j35588099015580_1_alg».proof.Proof.Gen.KernelIdeal.Launch
import proofs.«171674_j35588099015580_1_alg».proof.Proof.Gen.KernelIdeal.Skeleton
import proofs.«171674_j35588099015580_1_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

/-! # Region 1: one call of the SAGE layer kernel, at the buffer contents `V` the region is entered with

At grid point `t` (20 points) the body reads five blocks — rows `5000·t … 5000·t+4999` of the two [100000,128]
operands, the two whole [128,128] weight matrices and the whole [1,128] bias row — and stores ONE [5000,128] block,
rows `5000·t …` of the output: `max(lhs₀·w₀ + lhs₁·w₁ + bias, 0)` entrywise, the matrix products taken over the
operands rounded to bf16. This module states what each window's staging buffer holds before and after the body and
proves the body's triple; the arithmetic stays folded in the payload `k1_pay1`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: where it is not fetched
    (the weights and the bias after the first point) the block index has not moved, so the block is the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: where it is not fetched
    (the weights and the bias after the first point) the block index has not moved, so the block is the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: where it is not fetched
    (the weights and the bias after the first point) the block index has not moved, so the block is the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: where it is not fetched
    (the weights and the bias after the first point) the block index has not moved, so the block is the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: where it is not fetched
    (the weights and the bias after the first point) the block index has not moved, so the block is the same. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 5's staging buffer after the body, from the five input blocks: its one store, of the payload of the loads. -/
def out1_5 (x0 : Vec F S5000x128 .f32) (x1 : Vec F S5000x128 .f32) (x2 : Vec F S128x128 .f32) (x3 : Vec F S128x128 .f32) (x4 : Vec F S1x128 .f32) : Vec F S5000x128 .f32 :=
  View.canon [⟨r1_0, k1_pay1 (View.ld x0 r1_0) (View.ld x1 r1_0) (View.ld x2 r1_1) (View.ld x3 r1_1) (View.ld x4 r1_2)⟩]

/-- The one store is the whole buffer, so it covers it. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at contents `x0 … x4` and the output's at anything, runs to the
    continuation holding the inputs' as they were and the output's at `out1_5` of the inputs. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t` each
    input's buffer at its block and the output's at `out1_5` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2Runs.lean ====
import proofs.«171674_j35588099015580_1_alg».proof.Proof.Gen.KernelIdeal.Launch
import proofs.«171674_j35588099015580_1_alg».proof.Proof.Gen.KernelIdeal.Skeleton
import proofs.«171674_j35588099015580_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
/-! # The statistics region: its two branch conditions, where its outputs are idle, its memrefs

The grid has 20 points, one per block of 5000 rows. The body resets two [1,128] accumulators at the first
point, adds the block's column sums (and column sums of squares) to them at every point, and copies them
into the two outputs at the last point. -/

/-- The first branch (reset of the accumulators) is taken exactly where the grid coordinate is 0. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- The second branch (copy into the outputs) is taken exactly at the last point. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-- The input window is never idle. -/
theorem liveAt2_0 : ∀ t : Fin cfg2.N, cfg2.idle 0 (grid2.coords t) = false := by decide +kernel
/-- Off the last point the two outputs are idle and not written back. -/
theorem idleAt2_1 : ∀ t : Fin cfg2.N, ¬cond2_1 (grid2.coords t) → cfg2.idle 1 (grid2.coords t) = true := by decide +kernel
theorem idleAt2_2 : ∀ t : Fin cfg2.N, ¬cond2_1 (grid2.coords t) → cfg2.idle 2 (grid2.coords t) = true := by decide +kernel
theorem noFlush2_1 : ∀ t : Fin cfg2.N, ¬cond2_1 (grid2.coords t) → (cfg2.win 1).flush t = false := by decide +kernel
theorem noFlush2_2 : ∀ t : Fin cfg2.N, ¬cond2_1 (grid2.coords t) → (cfg2.win 2).flush t = false := by decide +kernel
/-- At the last point they are live. -/
theorem liveAt2_1 : ∀ t : Fin cfg2.N, cond2_1 (grid2.coords t) → cfg2.idle 1 (grid2.coords t) = false := by decide +kernel
theorem liveAt2_2 : ∀ t : Fin cfg2.N, cond2_1 (grid2.coords t) → cfg2.idle 2 (grid2.coords t) = false := by decide +kernel

/-- The windows' current staging memrefs at a point, as the pipeline passes them, and their wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
/-- The two accumulators: whole scoped buffers of the kernel's own. -/
abbrev scM2_0 : Memref sig .tc .vmem S1x128 .f32 := Memref.whole cc2_scratch0
abbrev scM2_1 : Memref sig .tc .vmem S1x128 .f32 := Memref.whole cc2_scratch1

/-- The region invariant with the two accumulators as memrefs owned at some contents, the other scoped buffers unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- The whole-shape rectangle of a [1,128] buffer and of a [5000,128] block, at zero offsets. -/
theorem hz2 : (![0, 0] : Fin S1x128.rank → Nat) = fun _ => 0 := by funext a; fin_cases a <;> rfl
theorem hz2b : (![0, 0] : Fin S5000x128.rank → Nat) = fun _ => 0 := by funext a; fin_cases a <;> rfl

/-- One whole store into a [1,128] buffer leaves its payload, whatever the buffer held. -/
theorem read_store2 {sp : Space} (v : View sig .tc sp S1x128 .f32) (f : v.ty.Contents (Elt F)) (w : S1x128.Idx → Elt F .f32) :
    v.read (Elt F) (v.writes (Elt F) f [⟨Rect.unit (s := S1x128) ![0, 0] S1x128.size inb_S1x128_S1x128_0_0, w⟩]) = w := by
  rw [View.read_writes_eq_canon _ _ _ (fun y => ⟨_, List.mem_singleton_self _, View.mem_set_unit_zero hz2 inb_S1x128_S1x128_0_0 y⟩), View.canon_unit_zero hz2]

/-- A whole store made last leaves its payload, whatever was stored before. -/
theorem read_store2_cons {sp : Space} (v : View sig .tc sp S1x128 .f32) (f : v.ty.Contents (Elt F)) (w : S1x128.Idx → Elt F .f32)
    (L : List (View.Piece (Elt F) S1x128 .f32)) :
    v.read (Elt F) (v.writes (Elt F) f (⟨Rect.unit (s := S1x128) ![0, 0] S1x128.size inb_S1x128_S1x128_0_0, w⟩ :: L)) = w := by
  rw [View.read_writes_eq_canon _ _ _ (fun y => ⟨_, List.mem_cons_self, View.mem_set_unit_zero hz2 inb_S1x128_S1x128_0_0 y⟩), View.canon_cons_unit_zero hz2]

/-! ## The body's triple, case by case -/

set_option maxHeartbeats 1000000 in
/-- The first point (first branch taken, second not): both accumulators are reset to zeros, then the block's column
    sums (of squares) are added; the outputs are handed back untouched. -/
theorem kernelRun2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i)
    (x0 : Vec F S5000x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 k2_pay1) ∗ owns (c : Thread nD τ) arg5 fullShare (k2_pay5 x0 k2_pay2)) -∗ K ⟨⟩))
      ⊢ wp frame (wpE (defs₀ (F := F)) Variants.none c none) E (cc2__stats_kernel i arg1 harg1 arg2 harg2 arg3 harg3 arg4 harg4 arg5 harg5) K := by
  simp only [cc2__stats_kernel_eq_skeleton]; unfold cc2__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  sl_unfold_words
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    rw [read_store2_cons, View.readCov_unit_zero _ hz2]; simp only [View.readAt_eq_ld, View.ld_unit_zero (S := S1x128) hz2, View.ld_unit_zero (S := S5000x128) hz2b]
  iexists _; isplitr
  swap; · iexact HS1
  ipureintro
  rw [read_store2_cons, View.readCov_unit_zero _ hz2]; simp only [View.readAt_eq_ld, View.ld_unit_zero (S := S1x128) hz2, View.ld_unit_zero (S := S5000x128) hz2b]

set_option maxHeartbeats 1000000 in
/-- A middle point (neither branch taken): the block is read, both accumulators are read and stored back with the
    block's column sums (of squares) added; the outputs are handed back untouched. -/
theorem kernelRun2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : ¬cond2_1 i)
    (x0 : Vec F S5000x128 .f32) (xs0 xs1 : Vec F S1x128 .f32) (xi1 xi2 : Vec F S1x128 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__stats_kernel i arg1 harg1 arg2 harg2 arg3 harg3 arg4 harg4 arg5 harg5) K := by
  simp only [cc2__stats_kernel_eq_skeleton]; unfold cc2__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    rw [read_store2]; simp only [View.readAt_eq_ld, View.ld_unit_zero (S := S1x128) hz2, View.ld_unit_zero (S := S5000x128) hz2b]
  iexists _; isplitr
  swap; · iexact HS1
  ipureintro
  rw [read_store2]; simp only [View.readAt_eq_ld, View.ld_unit_zero (S := S1x128) hz2, View.ld_unit_zero (S := S5000x128) hz2b]

set_option maxHeartbeats 1000000 in
/-- The last point (first branch not taken, second taken): the accumulators take the last block's sums and are
    copied into the two outputs. -/
theorem kernelRun2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i)
    (x0 : Vec F S5000x128 .f32) (xs0 xs1 : Vec F S1x128 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k2_pay4 x0 xs0) ∗ owns (c : Thread nD τ) arg3 fullShare (k2_pay5 x0 xs1)
            ∗ owns (c : Thread nD τ) arg4 fullShare (k2_pay4 x0 xs0) ∗ owns (c : Thread nD τ) arg5 fullShare (k2_pay5 x0 xs1)) -∗ K ⟨⟩))
      ⊢ wp frame (wpE (defs₀ (F := F)) Variants.none c none) E (cc2__stats_kernel i arg1 harg1 arg2 harg2 arg3 harg3 arg4 harg4 arg5 harg5) K := by
  simp only [cc2__stats_kernel_eq_skeleton]; unfold cc2__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  subst hf0; subst hfs0; subst hfs1
  sl_exec (disch := first | exact hc0 | exact hc1)
  sl_step
  iapply Hk
  sl_unfold_words
  isplitl [H0]
  · iexists f0; isplitr; · ipureintro; rfl
    iexact H0
  isplitl [H1]
  · iexists _; isplitr
    swap; · iexact H1
    ipureintro
    rw [read_store2, View.readCov_unit_zero _ hz2]; simp only [View.readAt_eq_ld, View.ld_unit_zero (S := S1x128) hz2, View.ld_unit_zero (S := S5000x128) hz2b]
  isplitl [H2]
  · iexists _; isplitr
    swap; · iexact H2
    ipureintro
    rw [read_store2, View.readCov_unit_zero _ hz2]; simp only [View.readAt_eq_ld, View.ld_unit_zero (S := S1x128) hz2, View.ld_unit_zero (S := S5000x128) hz2b]
  isplitl [HS0]
  · iexists _; isplitr
    swap; · iexact HS0
    ipureintro
    rw [read_store2]; simp only [View.readAt_eq_ld, View.ld_unit_zero (S := S1x128) hz2, View.ld_unit_zero (S := S5000x128) hz2b]
  iexists _; isplitr
  swap; · iexact HS1
  ipureintro
  rw [read_store2]; simp only [View.readAt_eq_ld, View.ld_unit_zero (S := S1x128) hz2, View.ld_unit_zero (S := S5000x128) hz2b]

end Cert.KernelIdeal.Hand

end
-- ==== Proof.KIReg2.lean ====
import proofs.«171674_j35588099015580_1_alg».proof.Proof.KIReg2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The statistics region at the entry contents `V`: the running column sums, the proof data, the body obligation -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- THE RUNNING TOTALS. What the two accumulators hold after the body at point `n`: at the first point the block's column
    sums (of squares) added to zeros, afterwards added to what the point before left. -/
def acc2 (c : Dev nD) : (n : ℕ) → n < cfg2.N → Vec F S1x128 .f32 × Vec F S1x128 .f32
  | 0, hn => (k2_pay4 (iblk2 V c 0 ⟨0, hn⟩) k2_pay1, k2_pay5 (iblk2 V c 0 ⟨0, hn⟩) k2_pay2)
  | n + 1, hn => (k2_pay4 (iblk2 V c 0 ⟨n + 1, hn⟩) (acc2 c n (Nat.lt_of_succ_lt hn)).1,
      k2_pay5 (iblk2 V c 0 ⟨n + 1, hn⟩) (acc2 c n (Nat.lt_of_succ_lt hn)).2)

theorem acc2_zero (c : Dev nD) (t : Fin cfg2.N) (h : t.val = 0) :
    acc2 V c t.val t.isLt = (k2_pay4 (iblk2 V c 0 t) k2_pay1, k2_pay5 (iblk2 V c 0 t) k2_pay2) := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt = (k2_pay4 (iblk2 V c 0 t) (acc2 V c (t.val - 1) (Nat.lt_of_le_of_lt (Nat.sub_le _ _) t.isLt)).1,
      k2_pay5 (iblk2 V c 0 t) (acc2 V c (t.val - 1) (Nat.lt_of_le_of_lt (Nat.sub_le _ _) t.isLt)).2) := by
  obtain ⟨n, hn⟩ := t
  cases n with
  | zero => exact absurd rfl h
  | succ n => rfl

/-- The region invariant before position `n`: before the first point the class's (every scratch at anything); afterwards
    the two accumulators at the running totals the point before left, the other scoped buffers unopened, and the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((acc2 V c n hn).1) ∗ owns (c : Thread nD τ) scM2_1 fullShare ((acc2 V c n hn).2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((acc2 V c n hn).1) ∗ owns (c : Thread nD τ) scM2_1 fullShare ((acc2 V c n hn).2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((acc2 V c (n - 1) (by omega)).1) ∗ owns (c : Thread nD τ) scM2_1 fullShare ((acc2 V c (n - 1) (by omega)).2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of the region on core `c`: the arrays as the region finds them; after the body at point `t` the input's
    buffer at its block and the two outputs' at the running totals (read only at the last point, where they are copied
    in); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (acc2 V c t.val t.isLt).1
    | ⟨2, _⟩ => (acc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = (acc2 V c t.val t.isLt).1 := by dsimp only [dat2]
theorem after2_2 (c : Dev nD) (t : Fin cfg2.N) : (dat2 V c).after 2 t = (acc2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The input's memref holds its block; the closed forms of the two conditions say which of the
    three cases the point is in; the invariant hands the body the accumulators at what the point before left (at anything at
    the first point) and takes them back at this point's running totals; off the last point the outputs are idle and come
    back as found; at the last point they come back at the totals. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  by_cases h1 : t.val % 20 = 19
  · -- the last point
    have hz : t.val ≠ 0 := by omega
    have hc0 : ¬cond2_0 (grid2.coords t) := fun h => by have := (hcond2_0 t).mp h; omega
    have hc1 : cond2_1 (grid2.coords t) := (hcond2_1 t).mpr h1
    rw [show (dat2 V c).leavesExact 1 t = owns (c : Thread nD τ) (ms2_1 t) fullShare ((dat2 V c).after 1 t) from by
      unfold Dat.leavesExact; rw [liveAt2_1 t hc1], after2_1]
    rw [show (dat2 V c).leavesExact 2 t = owns (c : Thread nD τ) (ms2_2 t) fullShare ((dat2 V c).after 2 t) from by
      unfold Dat.leavesExact; rw [liveAt2_2 t hc1], after2_2]
    rw [acc2_pos V c t hz]
    rw [PhiS2_castSucc V c t, PhiS2_pos V c _ _ hz]
    iintro ⟨⟨⟨⟨HS0, HS1⟩, Hr⟩, Hg⟩, Ho, ⟨%d0, H0⟩, ⟨%d1, H1⟩, ⟨%d2, H2⟩⟩
    iapply (kernelRun2_C c (grid2.coords t) _ _ _ _ _ _ _ _ _ _ hc0 hc1 (iblk2 V c 0 t) _ _ Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    iexact H2
  · have hc1 : ¬cond2_1 (grid2.coords t) := fun h => h1 ((hcond2_1 t).mp h)
    rw [Dat.leavesExact_idle (dat2 V c) 1 t (idleAt2_1 t hc1) (noFlush2_1 t hc1)]
    rw [Dat.leavesExact_idle (dat2 V c) 2 t (idleAt2_2 t hc1) (noFlush2_2 t hc1)]
    by_cases hz : t.val = 0
    · -- the first point
      have hc0 : cond2_0 (grid2.coords t) := (hcond2_0 t).mpr (by omega)
      rw [acc2_zero V c t hz]
      rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩⟩
      iapply (kernelRun2_A c (grid2.coords t) _ _ _ _ _ _ _ _ _ _ hc0 hc1 (iblk2 V c 0 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2
    · -- a middle point
      have hc0 : ¬cond2_0 (grid2.coords t) := fun h => by have := (hcond2_0 t).mp h; omega
      rw [acc2_pos V c t hz]
      rw [PhiS2_castSucc V c t, PhiS2_pos V c _ _ hz]
      iintro ⟨⟨⟨⟨HS0, HS1⟩, Hr⟩, Hg⟩, Ho, ⟨%d0, H0⟩, ⟨%d1, H1⟩, ⟨%d2, H2⟩⟩
      iapply (kernelRun2_B c (grid2.coords t) _ _ _ _ _ _ _ _ _ _ hc0 hc1 (iblk2 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Hand

end
-- ==== Proof.KIReg3.lean ====
/- The frame of the last kernel region (layer normalisation of the row block, a matrix product, a bias row), at the
   contents `V` the region is entered with: what each of its eight windows holds at a grid point, what the body's one
   store leaves in the output window's buffer, the body's triple, and the pipeline's proof data with its obligation. -/
import proofs.«171674_j35588099015580_1_alg».proof.Proof.Gen.KernelIdeal.Launch
import proofs.«171674_j35588099015580_1_alg».proof.Proof.Gen.KernelIdeal.Skeleton
import proofs.«171674_j35588099015580_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not (when it is not fetched its
    block index has not moved), for any proof data over the arrays `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not (when it is not fetched its
    block index has not moved), for any proof data over the arrays `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not (when it is not fetched its
    block index has not moved), for any proof data over the arrays `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, fetched there or not (when it is not fetched its
    block index has not moved), for any proof data over the arrays `V` whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, fetched there or not (when it is not fetched its
    block index has not moved), for any proof data over the arrays `V` whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current buffer holds its block at every point, fetched there or not (when it is not fetched its
    block index has not moved), for any proof data over the arrays `V` whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current buffer holds its block at every point, fetched there or not (when it is not fetched its
    block index has not moved), for any proof data over the arrays `V` whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store take a whole buffer -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S128x128 := Rect.unit (s := S128x128) ![0, 0] S128x128.size inb_S128x128_S128x128_0_0

/-! ## What the body leaves in the output window's buffer -/

/-- Window 7's buffer after the body, from the seven input blocks: its one store, whose payload is the normalised
    rows times the weight matrix plus the bias row. -/
def out3_7 (x0 : Vec F S5000x128 .f32) (x1 x2 x3 x4 : Vec F S1x128 .f32) (x5 : Vec F S128x128 .f32) (x6 : Vec F S1x128 .f32) : Vec F S5000x128 .f32 :=
  View.canon [⟨r3_0, k3_pay1 (View.ld x0 r3_0) (View.ld x1 r3_1) (View.ld x2 r3_1) (View.ld x3 r3_1) (View.ld x4 r3_1) (View.ld x5 r3_2) (View.ld x6 r3_1)⟩]

/-- The one store covers the buffer. -/
theorem cover3_7 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 4000000 in
/-- The body on whole buffers, the inputs' at read contents `x0 … x6` and the output's at anything, runs to the
    continuation holding the inputs' as they were and the output's at `out3_7` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 x2 x3 x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__final_kernel i arg1 harg1 arg2 harg2 arg3 harg3 arg4 harg4 arg5 harg5 arg6 harg6 arg7 harg7 arg8 harg8) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of this pipeline on core `c`: the arrays as the region finds them; after the body at point `t` each
    input's buffer at its block and the output's at `out3_7` of the input blocks; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
/-
  The program's run as a whole. @main is seven items in a row: a stretch of host operations, the first layer's kernel region, a second
  stretch, the second layer's region, the region that accumulates the column sums, a third stretch, and the region that normalises and
  applies the last linear map. Between two items a core's unscoped buffers hold definite contents: the launch memory, then the pure
  result of each host stretch (a fold of its operations), then, after a region, the region's arrays at what its write-backs leave and
  every other buffer as it was. This module names those contents (W0 … W7), shows that no item changes an argument array, gives each
  region as a segment between two of these states (its arrays split out of the unscoped buffers on entry and put back on exit, the
  kernel body's obligation supplied by the region's own module), and launches the list: every weakly fair execution terminates,
  nothing faults, and the final memory holds every unscoped buffer at W7.
-/
import proofs.«171674_j35588099015580_1_alg».proof.Proof.Gen.KernelIdeal.Launch
import proofs.«171674_j35588099015580_1_alg».proof.Proof.Gen.KernelIdeal.Skeleton
import proofs.«171674_j35588099015580_1_alg».proof.Proof.Gen.KernelIdeal.Points
import proofs.«171674_j35588099015580_1_alg».proof.Proof.Gen.KernelIdeal.Regions
import proofs.«171674_j35588099015580_1_alg».proof.Proof.KIReg0
import proofs.«171674_j35588099015580_1_alg».proof.Proof.KIReg1
import proofs.«171674_j35588099015580_1_alg».proof.Proof.KIReg2
import proofs.«171674_j35588099015580_1_alg».proof.Proof.KIReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same, read at the TensorCore's references: what the next region is entered from. -/
abbrev En1 : (c : Dev nD) → (b : Ref sig .tc) → Buf (Elt F) ((c : Thread nD τ).loc b) := fun c b => W1 m ρ c b
/-- After region 0: its arrays at what the pipeline's write-backs leave, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev Ex2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = Ex2 m ρ c (Pipeline.arrRef spec0 w) :=
  (W2_arr m ρ c w).symm
theorem hrest0 (c : Dev nD) : ∀ b, b ∉ Finset.univ.image (Pipeline.arrRef spec0) → Ex2 m ρ c b = En1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- The same, read at the TensorCore's references: what the next region is entered from. -/
abbrev En3 : (c : Dev nD) → (b : Ref sig .tc) → Buf (Elt F) ((c : Thread nD τ).loc b) := fun c b => W3 m ρ c b
/-- After region 1: its arrays at what the pipeline's write-backs leave, every other buffer as entered. -/
def W4 (c : Dev nD) : Valuation τ sig (Elt F) :=
  Pipeline.withArrays spec1 c (W3 m ρ c) fun w => (dat1 (En3 m ρ) c).arrAt w cfg1.N
theorem W4_arr (c : Dev nD) (w : Fin cfg1.W) :
    W4 m ρ c (Proc.devRef .tc (Pipeline.arrRef spec1 w)) = (dat1 (En3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev Ex4 : (c : Dev nD) → (b : Ref sig .tc) → Buf (Elt F) ((c : Thread nD τ).loc b) := fun c b => W4 m ρ c b
theorem hF1 (c : Dev nD) (w : Fin cfg1.W) : (dat1 (En3 m ρ) c).arrAt w cfg1.N = Ex4 m ρ c (Pipeline.arrRef spec1 w) :=
  (W4_arr m ρ c w).symm
theorem hrest1 (c : Dev nD) : ∀ b, b ∉ Finset.univ.image (Pipeline.arrRef spec1) → Ex4 m ρ c b = En3 m ρ c b :=
  fun b hb => W4_of_ne m ρ c b fun w e => hb (Finset.mem_image.mpr ⟨w, Finset.mem_univ _, e⟩)
/-- Region 2 is entered from what region 1 leaves. -/
abbrev En4 : (c : Dev nD) → (b : Ref sig .tc) → Buf (Elt F) ((c : Thread nD τ).loc b) := fun c b => W4 m ρ c b
/-- After region 2: its arrays at what the pipeline's write-backs leave, every other buffer as entered. -/
def W5 (c : Dev nD) : Valuation τ sig (Elt F) :=
  Pipeline.withArrays spec2 c (W4 m ρ c) fun w => (dat2 (En4 m ρ) c).arrAt w cfg2.N
theorem W5_arr (c : Dev nD) (w : Fin cfg2.W) :
    W5 m ρ c (Proc.devRef .tc (Pipeline.arrRef spec2 w)) = (dat2 (En4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same, read at the TensorCore's references. -/
abbrev Ex5 : (c : Dev nD) → (b : Ref sig .tc) → Buf (Elt F) ((c : Thread nD τ).loc b) := fun c b => W5 m ρ c b
theorem hF2 (c : Dev nD) (w : Fin cfg2.W) : (dat2 (En4 m ρ) c).arrAt w cfg2.N = Ex5 m ρ c (Pipeline.arrRef spec2 w) :=
  (W5_arr m ρ c w).symm
theorem hrest2 (c : Dev nD) : ∀ b, b ∉ Finset.univ.image (Pipeline.arrRef spec2) → Ex5 m ρ c b = En4 m ρ c b :=
  fun b hb => W5_of_ne m ρ c b fun w e => hb (Finset.mem_image.mpr ⟨w, Finset.mem_univ _, e⟩)
/-- After `hostOps3`. -/
abbrev W6 : Dev nD → Valuation τ sig (Elt F) := fun c => StableHlo.after hostOps3 (W5 m ρ c)
/-- The same, read at the TensorCore's references: what the next region is entered from. -/
abbrev En6 : (c : Dev nD) → (b : Ref sig .tc) → Buf (Elt F) ((c : Thread nD τ).loc b) := fun c b => W6 m ρ c b
/-- After region 3: its arrays at what the pipeline's write-backs leave, every other buffer as entered. -/
def W7 (c : Dev nD) : Valuation τ sig (Elt F) :=
  Pipeline.withArrays spec3 c (W6 m ρ c) fun w => (dat3 (En6 m ρ) c).arrAt w cfg3.N
theorem W7_arr (c : Dev nD) (w : Fin cfg3.W) :
    W7 m ρ c (Proc.devRef .tc (Pipeline.arrRef spec3 w)) = (dat3 (En6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same, read at the TensorCore's references. -/
abbrev Ex7 : (c : Dev nD) → (b : Ref sig .tc) → Buf (Elt F) ((c : Thread nD τ).loc b) := fun c b => W7 m ρ c b
theorem hF3 (c : Dev nD) (w : Fin cfg3.W) : (dat3 (En6 m ρ) c).arrAt w cfg3.N = Ex7 m ρ c (Pipeline.arrRef spec3 w) :=
  (W7_arr m ρ c w).symm
theorem hrest3 (c : Dev nD) : ∀ b, b ∉ Finset.univ.image (Pipeline.arrRef spec3) → Ex7 m ρ c b = En6 m ρ c b :=
  fun b hb => W7_of_ne m ρ c b fun w e => hb (Finset.mem_image.mpr ⟨w, Finset.mem_univ _, e⟩)

/-! ## The arguments at every boundary: no host operation writes one and no region has one as an output -/
theorem W1_main_arg0 (c : Dev nD) : W1 m ρ c (Proc.devRef .tc main_arg0) = m ((c : Thread nD τ).loc main_arg0) :=
  (StableHlo.after_of_writes_sub hostOps0 _ hostOps0_writes (by decide)).trans rfl
theorem W2_main_arg0 (c : Dev nD) : W2 m ρ c (Proc.devRef .tc main_arg0) = m ((c : Thread nD τ).loc main_arg0) :=
  ((W2_arr m ρ c 1).trans (((dat0 (En1 m ρ) c).arrAt_in 1 rfl _).trans (A_eq0 (En1 m ρ) c 1))).trans (W1_main_arg0 m ρ c)
theorem W3_main_arg0 (c : Dev nD) : W3 m ρ c (Proc.devRef .tc main_arg0) = m ((c : Thread nD τ).loc main_arg0) :=
  (StableHlo.after_of_writes_sub hostOps1 _ hostOps1_writes (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
theorem W6_main_arg0 (c : Dev nD) : W6 m ρ c (Proc.devRef .tc main_arg0) = m ((c : Thread nD τ).loc main_arg0) :=
  (StableHlo.after_of_writes_sub hostOps3 _ hostOps3_writes (by decide)).trans (W5_main_arg0 m ρ c)
theorem W7_main_arg0 (c : Dev nD) : W7 m ρ c (Proc.devRef .tc main_arg0) = m ((c : Thread nD τ).loc main_arg0) :=
  (W7_of_ne m ρ c main_arg0 (by decide)).trans (W6_main_arg0 m ρ c)
theorem W1_main_arg1 (c : Dev nD) : W1 m ρ c (Proc.devRef .tc main_arg1) = m ((c : Thread nD τ).loc main_arg1) :=
  (StableHlo.after_of_writes_sub hostOps0 _ hostOps0_writes (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ hostOps1_writes (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W6_main_arg1 (c : Dev nD) : W6 m ρ c (Proc.devRef .tc main_arg1) = m ((c : Thread nD τ).loc main_arg1) :=
  (StableHlo.after_of_writes_sub hostOps3 _ hostOps3_writes (by decide)).trans (W5_main_arg1 m ρ c)
theorem W7_main_arg1 (c : Dev nD) : W7 m ρ c (Proc.devRef .tc main_arg1) = m ((c : Thread nD τ).loc main_arg1) :=
  (W7_of_ne m ρ c main_arg1 (by decide)).trans (W6_main_arg1 m ρ c)
theorem W1_main_arg2 (c : Dev nD) : W1 m ρ c (Proc.devRef .tc main_arg2) = m ((c : Thread nD τ).loc main_arg2) :=
  (StableHlo.after_of_writes_sub hostOps0 _ hostOps0_writes (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ hostOps1_writes (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of_ne m ρ c main_arg2 (by decide)).trans (W4_main_arg2 m ρ c)
theorem W6_main_arg2 (c : Dev nD) : W6 m ρ c (Proc.devRef .tc main_arg2) = m ((c : Thread nD τ).loc main_arg2) :=
  (StableHlo.after_of_writes_sub hostOps3 _ hostOps3_writes (by decide)).trans (W5_main_arg2 m ρ c)
theorem W7_main_arg2 (c : Dev nD) : W7 m ρ c (Proc.devRef .tc main_arg2) = m ((c : Thread nD τ).loc main_arg2) :=
  (W7_of_ne m ρ c main_arg2 (by decide)).trans (W6_main_arg2 m ρ c)
theorem W1_main_arg3 (c : Dev nD) : W1 m ρ c (Proc.devRef .tc main_arg3) = m ((c : Thread nD τ).loc main_arg3) :=
  (StableHlo.after_of_writes_sub hostOps0 _ hostOps0_writes (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (StableHlo.after_of_writes_sub hostOps1 _ hostOps1_writes (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)
theorem W6_main_arg3 (c : Dev nD) : W6 m ρ c (Proc.devRef .tc main_arg3) = m ((c : Thread nD τ).loc main_arg3) :=
  (StableHlo.after_of_writes_sub hostOps3 _ hostOps3_writes (by decide)).trans (W5_main_arg3 m ρ c)
theorem W7_main_arg3 (c : Dev nD) : W7 m ρ c (Proc.devRef .tc main_arg3) = m ((c : Thread nD τ).loc main_arg3) :=
  (W7_of_ne m ρ c main_arg3 (by decide)).trans (W6_main_arg3 m ρ c)
theorem W1_main_arg4 (c : Dev nD) : W1 m ρ c (Proc.devRef .tc main_arg4) = m ((c : Thread nD τ).loc main_arg4) :=
  (StableHlo.after_of_writes_sub hostOps0 _ hostOps0_writes (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ hostOps1_writes (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)
theorem W6_main_arg4 (c : Dev nD) : W6 m ρ c (Proc.devRef .tc main_arg4) = m ((c : Thread nD τ).loc main_arg4) :=
  (StableHlo.after_of_writes_sub hostOps3 _ hostOps3_writes (by decide)).trans (W5_main_arg4 m ρ c)
theorem W7_main_arg4 (c : Dev nD) : W7 m ρ c (Proc.devRef .tc main_arg4) = m ((c : Thread nD τ).loc main_arg4) :=
  (W7_of_ne m ρ c main_arg4 (by decide)).trans (W6_main_arg4 m ρ c)
theorem W1_main_arg5 (c : Dev nD) : W1 m ρ c (Proc.devRef .tc main_arg5) = m ((c : Thread nD τ).loc main_arg5) :=
  (StableHlo.after_of_writes_sub hostOps0 _ hostOps0_writes (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ hostOps1_writes (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)
theorem W6_main_arg5 (c : Dev nD) : W6 m ρ c (Proc.devRef .tc main_arg5) = m ((c : Thread nD τ).loc main_arg5) :=
  (StableHlo.after_of_writes_sub hostOps3 _ hostOps3_writes (by decide)).trans (W5_main_arg5 m ρ c)
theorem W7_main_arg5 (c : Dev nD) : W7 m ρ c (Proc.devRef .tc main_arg5) = m ((c : Thread nD τ).loc main_arg5) :=
  (W7_of_ne m ρ c main_arg5 (by decide)).trans (W6_main_arg5 m ρ c)
theorem W1_main_arg6 (c : Dev nD) : W1 m ρ c (Proc.devRef .tc main_arg6) = m ((c : Thread nD τ).loc main_arg6) :=
  (StableHlo.after_of_writes_sub hostOps0 _ hostOps0_writes (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_writes_sub hostOps1 _ hostOps1_writes (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of_ne m ρ c main_arg6 (by decide)).trans (W4_main_arg6 m ρ c)
theorem W6_main_arg6 (c : Dev nD) : W6 m ρ c (Proc.devRef .tc main_arg6) = m ((c : Thread nD τ).loc main_arg6) :=
  (StableHlo.after_of_writes_sub hostOps3 _ hostOps3_writes (by decide)).trans (W5_main_arg6 m ρ c)
theorem W7_main_arg6 (c : Dev nD) : W7 m ρ c (Proc.devRef .tc main_arg6) = m ((c : Thread nD τ).loc main_arg6) :=
  (W7_of_ne m ρ c main_arg6 (by decide)).trans (W6_main_arg6 m ρ c)
theorem W1_main_arg7 (c : Dev nD) : W1 m ρ c (Proc.devRef .tc main_arg7) = m ((c : Thread nD τ).loc main_arg7) :=
  (StableHlo.after_of_writes_sub hostOps0 _ hostOps0_writes (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_writes_sub hostOps1 _ hostOps1_writes (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (W5_of_ne m ρ c main_arg7 (by decide)).trans (W4_main_arg7 m ρ c)
theorem W6_main_arg7 (c : Dev nD) : W6 m ρ c (Proc.devRef .tc main_arg7) = m ((c : Thread nD τ).loc main_arg7) :=
  (StableHlo.after_of_writes_sub hostOps3 _ hostOps3_writes (by decide)).trans (W5_main_arg7 m ρ c)
theorem W7_main_arg7 (c : Dev nD) : W7 m ρ c (Proc.devRef .tc main_arg7) = m ((c : Thread nD τ).loc main_arg7) :=
  (W7_of_ne m ρ c main_arg7 (by decide)).trans (W6_main_arg7 m ρ c)
theorem W1_main_arg8 (c : Dev nD) : W1 m ρ c (Proc.devRef .tc main_arg8) = m ((c : Thread nD τ).loc main_arg8) :=
  (StableHlo.after_of_writes_sub hostOps0 _ hostOps0_writes (by decide)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_writes_sub hostOps1 _ hostOps1_writes (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (W5_of_ne m ρ c main_arg8 (by decide)).trans (W4_main_arg8 m ρ c)
theorem W6_main_arg8 (c : Dev nD) : W6 m ρ c (Proc.devRef .tc main_arg8) = m ((c : Thread nD τ).loc main_arg8) :=
  (StableHlo.after_of_writes_sub hostOps3 _ hostOps3_writes (by decide)).trans (W5_main_arg8 m ρ c)
theorem W7_main_arg8 (c : Dev nD) : W7 m ρ c (Proc.devRef .tc main_arg8) = m ((c : Thread nD τ).loc main_arg8) :=
  (W7_of_ne m ρ c main_arg8 (by decide)).trans (W6_main_arg8 m ρ c)
theorem W1_main_arg9 (c : Dev nD) : W1 m ρ c (Proc.devRef .tc main_arg9) = m ((c : Thread nD τ).loc main_arg9) :=
  (StableHlo.after_of_writes_sub hostOps0 _ hostOps0_writes (by decide)).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (StableHlo.after_of_writes_sub hostOps1 _ hostOps1_writes (by decide)).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (W5_of_ne m ρ c main_arg9 (by decide)).trans (W4_main_arg9 m ρ c)
theorem W6_main_arg9 (c : Dev nD) : W6 m ρ c (Proc.devRef .tc main_arg9) = m ((c : Thread nD τ).loc main_arg9) :=
  (StableHlo.after_of_writes_sub hostOps3 _ hostOps3_writes (by decide)).trans (W5_main_arg9 m ρ c)
theorem W7_main_arg9 (c : Dev nD) : W7 m ρ c (Proc.devRef .tc main_arg9) = m ((c : Thread nD τ).loc main_arg9) :=
  (W7_of_ne m ρ c main_arg9 (by decide)).trans (W6_main_arg9 m ρ c)
theorem W1_main_arg10 (c : Dev nD) : W1 m ρ c (Proc.devRef .tc main_arg10) = m ((c : Thread nD τ).loc main_arg10) :=
  (StableHlo.after_of_writes_sub hostOps0 _ hostOps0_writes (by decide)).trans rfl
theorem W2_main_arg10 (c : Dev nD) : W2 m ρ c (Proc.devRef .tc main_arg10) = m ((c : Thread nD τ).loc main_arg10) :=
  (W2_of_ne m ρ c main_arg10 (by decide)).trans (W1_main_arg10 m ρ c)
theorem W3_main_arg10 (c : Dev nD) : W3 m ρ c (Proc.devRef .tc main_arg10) = m ((c : Thread nD τ).loc main_arg10) :=
  (StableHlo.after_of_writes_sub hostOps1 _ hostOps1_writes (by decide)).trans (W2_main_arg10 m ρ c)
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg10 (c : Dev nD) : W5 m ρ c (Proc.devRef .tc main_arg10) = m ((c : Thread nD τ).loc main_arg10) :=
  (W5_of_ne m ρ c main_arg10 (by decide)).trans (W4_main_arg10 m ρ c)
theorem W6_main_arg10 (c : Dev nD) : W6 m ρ c (Proc.devRef .tc main_arg10) = m ((c : Thread nD τ).loc main_arg10) :=
  (StableHlo.after_of_writes_sub hostOps3 _ hostOps3_writes (by decide)).trans (W5_main_arg10 m ρ c)
theorem W7_main_arg10 (c : Dev nD) : W7 m ρ c (Proc.devRef .tc main_arg10) = m ((c : Thread nD τ).loc main_arg10) :=
  (W7_of_ne m ρ c main_arg10 (by decide)).trans (W6_main_arg10 m ρ c)
theorem W1_main_arg11 (c : Dev nD) : W1 m ρ c (Proc.devRef .tc main_arg11) = m ((c : Thread nD τ).loc main_arg11) :=
  (StableHlo.after_of_writes_sub hostOps0 _ hostOps0_writes (by decide)).trans rfl
theorem W2_main_arg11 (c : Dev nD) : W2 m ρ c (Proc.devRef .tc main_arg11) = m ((c : Thread nD τ).loc main_arg11) :=
  (W2_of_ne m ρ c main_arg11 (by decide)).trans (W1_main_arg11 m ρ c)
theorem W3_main_arg11 (c : Dev nD) : W3 m ρ c (Proc.devRef .tc main_arg11) = m ((c : Thread nD τ).loc main_arg11) :=
  (StableHlo.after_of_writes_sub hostOps1 _ hostOps1_writes (by decide)).trans (W2_main_arg11 m ρ c)
theorem W4_main_arg11 (c : Dev nD) : W4 m ρ c (Proc.devRef .tc main_arg11) = m ((c : Thread nD τ).loc main_arg11) :=
  (W4_of_ne m ρ c main_arg11 (by decide)).trans (W3_main_arg11 m ρ c)
theorem W5_main_arg11 (c : Dev nD) : W5 m ρ c (Proc.devRef .tc main_arg11) = m ((c : Thread nD τ).loc main_arg11) :=
  (W5_of_ne m ρ c main_arg11 (by decide)).trans (W4_main_arg11 m ρ c)
theorem W6_main_arg11 (c : Dev nD) : W6 m ρ c (Proc.devRef .tc main_arg11) = m ((c : Thread nD τ).loc main_arg11) :=
  (StableHlo.after_of_writes_sub hostOps3 _ hostOps3_writes (by decide)).trans (W5_main_arg11 m ρ c)
theorem W7_main_arg11 (c : Dev nD) : W7 m ρ c (Proc.devRef .tc main_arg11) = m ((c : Thread nD τ).loc main_arg11) :=
  (W7_of_ne m ρ c main_arg11 (by decide)).trans (W6_main_arg11 m ρ c)

/-! ## The proof data family and the thread state -/

/-- No pipeline has a prefetched table. -/
abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (En1 m ρ) c
  | ⟨1, _⟩ => fun c => dat1 (En3 m ρ) c
  | ⟨2, _⟩ => fun c => dat2 (En4 m ρ) c
  | ⟨3, _⟩ => fun c => dat3 (En6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are split out of
    the unscoped buffers and put back at the exit contents; the generator register goes into the invariant and out; nothing owed. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register goes into the invariant and out; nothing owed. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are split out of
    the unscoped buffers and put back at the exit contents; the generator register goes into the invariant and out; nothing owed. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (En4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (En4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (En4 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (En4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (En4 m ρ c) (Ex5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. Its arrays are split out of
    the unscoped buffers and put back at the exit contents; the generator register goes into the invariant and out; nothing owed. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En6 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (En6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (En6 m ρ c) (Ex7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segsH : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ) ]
/-- @main is the run of the segments. -/
theorem main_run (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every final state holds each unscoped buffer at the last boundary's contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c)⟩) (run m ρ)

/-- THE RESULT: the result array ends holding what the last region's write-backs leave, and every argument as launched. -/
theorem result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v60 (by decide)), (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c)⟩) (run m ρ)

end Cert.KernelIdeal.Hand

end
-- ==== Proof.SpecSage.lean ====
/- The shapes the specifications are stated over: the node features [100000,128], a weight matrix [128,128], a row [1,128]. -/
import Idealize.ShloMosaic.PureOps.Ideal
import Idealize.ShloMosaic.Lib.ValueIdx

noncomputable section

namespace Cert.Spec

open Idealize.ShloMosaic

abbrev SN : Shape := ⟨2, ![100000, 128]⟩
abbrev SW : Shape := ⟨2, ![128, 128]⟩
abbrev SR : Shape := ⟨2, ![1, 128]⟩

/-- One SAGE layer followed by ReLU, at row `r` and column `c`: the aggregated features' row times the first weight
    matrix's column, plus the node's own features' row times the second weight matrix's column, plus the bias at that
    column, and then the maximum with the zero word (kept as the word `0x00000000` of f32, never evaluated). -/
def sageAt (agg h : SN.Idx → EReal) (wl wr : SW.Idx → EReal) (b : SR.Idx → EReal) (r : Fin 100000) (c : Fin 128) : EReal :=
  max ((∑ k : Fin 128, agg (ValueIdx.ix2 r k) * wl (ValueIdx.ix2 k c)) + (∑ k : Fin 128, h (ValueIdx.ix2 r k) * wr (ValueIdx.ix2 k c))
      + b (ValueIdx.ix2 (0 : Fin 1) c))
    (Ideal.ofBits .f32 0x00000000#32)

/-- The layer as a function of its five arrays: entry `(r, c)` is `sageAt … r c`. -/
def sage (agg h : SN.Idx → EReal) (wl wr : SW.Idx → EReal) (b : SR.Idx → EReal) : SN.Idx → EReal :=
  fun i => sageAt agg h wl wr b (i 0) (i 1)

theorem sage_ix2 (agg h : SN.Idx → EReal) (wl wr : SW.Idx → EReal) (b : SR.Idx → EReal) (r : Fin 100000) (c : Fin 128) :
    sage agg h wl wr b (ValueIdx.ix2 r c) = sageAt agg h wl wr b r c := rfl

end Cert.Spec

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.KIVal0.lean ====
import proofs.«171674_j35588099015580_1_alg».proof.Proof.KIReg0
import proofs.«171674_j35588099015580_1_alg».proof.Proof.SpecSage
import proofs.«171674_j35588099015580_1_alg».proof.Proof.LibPlainMatmul
import Idealize.ShloMosaic.PureOps.Ideal.Laws
import Idealize.ShloMosaic.Lib.ValueIdx
import Idealize.ShloMosaic.Lib.Pipeline.Value

/-! # Region 0's output array, at the ideal values, is one SAGE layer of its five input arrays

The body's payload at entry `(p, q)` of a block is `max(Σ_k x0(p,k)·x2(k,q) + Σ_k x1(p,k)·x3(k,q) + x4(0,q), 0)`: at the
ideal values rounding to bf16 is the identity, a matrix product into the zero accumulator is the plain sum over the
contracted axis, and the bias row is repeated down the rows. Block `t` of a [100000,128] operand is its rows
`5000·t … 5000·t+4999`; the weights' and the bias' blocks are the whole arrays. So what point `t` writes back is block
`t` of the layer applied to the whole arrays, and since row `r` lies in block `r / 5000` the twenty blocks cover the
output array. -/

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The payload at an entry -/

/-- The stored value at row `p`, column `q` of a block, from the five loaded blocks. -/
theorem pay0_at (x0 x1 : Vec Ideal S5000x128 .f32) (x2 x3 : Vec Ideal S128x128 .f32) (x4 : Vec Ideal S1x128 .f32) (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q))
          (Ideal.ofBits .f32 0x00000000#32) := by
  unfold k0_pay1
  simp only [shapeCast_self]
  refine congrArg₂ max (congrArg₂ (· + ·) (congrArg₂ (· + ·) ?_ ?_) ?_) rfl
  · exact PlainMatmul.apply_zero (M := 5000) (K := 128) (N := 128) (truncf .bf16 x0 bitsLt_bf16_f32) (truncf .bf16 x2 bitsLt_bf16_f32) p q
  · exact PlainMatmul.apply_zero (M := 5000) (K := 128) (N := 128) (truncf .bf16 x1 bitsLt_bf16_f32) (truncf .bf16 x3 bitsLt_bf16_f32) p q
  · exact broadcastTo_apply x4 broadcasts_S1x128_S5000x128 (ix2 p q) (ix2 (0 : Fin 1) q)
      (fun a => by match a with | ⟨0, _⟩ => rfl | ⟨1, _⟩ => rfl)

/-! ## Which entries of its array a block holds -/

theorem hz0 : (![0, 0] : Fin 2 → Nat) = fun _ => 0 := funext fun a => by fin_cases a <;> rfl

/-- The block indices over the grid: the two [100000,128] operands and the output move down one row block per point; the
    weights and the bias stay at block (0,0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt0 (t : Fin cfg0.N) (p : Fin 5000) : t.val * 5000 + p.val < 100000 := by
  have h : cfg0.N = 20 := N_0
  have := t.isLt; have := p.isLt; omega

/-- Row `p` of block `t` of a [100000,128] window is row `5000·t + p` of its array. -/
theorem emb0_0 (t : Fin cfg0.N) (p : Fin 5000) (k : Fin 128) :
    ((cfg0.win 0).blk t).view.emb (ix2 p k) = ix2 (⟨t.val * 5000 + p.val, row_lt0 t p⟩ : Fin 100000) k := by
  obtain ⟨e0, e1, -⟩ := idx0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb0_1 (t : Fin cfg0.N) (p : Fin 5000) (k : Fin 128) :
    ((cfg0.win 1).blk t).view.emb (ix2 p k) = ix2 (⟨t.val * 5000 + p.val, row_lt0 t p⟩ : Fin 100000) k := by
  obtain ⟨-, -, e0, e1, -⟩ := idx0 t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- A weight matrix's block is the whole matrix. -/
theorem emb0_2 (t : Fin cfg0.N) (k : Fin 128) (q : Fin 128) :
    ((cfg0.win 2).blk t).view.emb (ix2 k q) = ix2 k q := by
  obtain ⟨-, -, -, -, e0, e1, -⟩ := idx0 t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem emb0_3 (t : Fin cfg0.N) (k : Fin 128) (q : Fin 128) :
    ((cfg0.win 3).blk t).view.emb (ix2 k q) = ix2 k q := by
  obtain ⟨-, -, -, -, -, -, e0, e1, -⟩ := idx0 t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The bias row's block is the whole row. -/
theorem emb0_4 (t : Fin cfg0.N) (q : Fin 128) :
    ((cfg0.win 4).blk t).view.emb (ix2 (0 : Fin 1) q) = ix2 (0 : Fin 1) q := by
  obtain ⟨-, -, -, -, -, -, -, -, e0, e1, -⟩ := idx0 t
  funext a; apply Fin.ext
  match a with
  | ⟨0, _⟩ => show win0_4.index t (0 : Fin 2) * 1 + 1 * 0 = 0; omega
  | ⟨1, _⟩ => show win0_4.index t (1 : Fin 2) * 128 + 1 * q.val = q.val; omega

theorem emb0_5 (t : Fin cfg0.N) (p : Fin 5000) (q : Fin 128) :
    ((cfg0.win 5).blk t).view.emb (ix2 p q) = ix2 (⟨t.val * 5000 + p.val, row_lt0 t p⟩ : Fin 100000) q := by
  obtain ⟨-, -, -, -, -, -, -, -, -, -, e0, e1⟩ := idx0 t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## What a point writes back -/

/-- What point `t` writes back is block `t` of the layer applied to the whole input arrays as the region finds them. -/
theorem flushed0_eq (c : Dev nD) (t : Fin cfg0.N) :
    (dat0 (F := Ideal) V c).flushed 5 t = ((cfg0.win 5).blk t).view.read (Elt Ideal) (Cert.Spec.sage (V c main_v24) (V c main_arg0) (V c main_v25) (V c main_v26) (V c main_v27)) := by
  show (cfg0.win 5).cut (grid0.coords t) ((dat0 (F := Ideal) V c).after 5 t) = _
  rw [after0_5]
  unfold out0_5
  rw [View.canon_unit_zero hz0]
  simp only [View.ld_unit_zero (S := S5000x128) hz0, View.ld_unit_zero (S := S128x128) hz0, View.ld_unit_zero (S := S1x128) hz0]
  funext j
  obtain ⟨p, q, rfl⟩ : ∃ (p : Fin 5000) (q : Fin 128), j = ix2 p q := ⟨j 0, j 1, eq_ix2 j⟩
  refine (pay0_at (iblk0 V c 0 t) (iblk0 V c 1 t) (iblk0 V c 2 t) (iblk0 V c 3 t) (iblk0 V c 4 t) p q).trans ?_
  show _ = Cert.Spec.sage (V c main_v24) (V c main_arg0) (V c main_v25) (V c main_v26) (V c main_v27) (((cfg0.win 5).blk t).view.emb (ix2 p q))
  rw [emb0_5 t p q, Cert.Spec.sage_ix2]
  unfold Cert.Spec.sageAt
  refine congrArg₂ max (congrArg₂ (· + ·) (congrArg₂ (· + ·)
      (Finset.sum_congr rfl fun k _ => congrArg₂ (· * ·) ?_ ?_)
      (Finset.sum_congr rfl fun k _ => congrArg₂ (· * ·) ?_ ?_)) ?_) rfl
  · show V c main_v24 (((cfg0.win 0).blk t).view.emb (ix2 p k)) = _
    rw [emb0_0 t p k]
  · show V c main_v25 (((cfg0.win 2).blk t).view.emb (ix2 k q)) = _
    rw [emb0_2 t k q]
  · show V c main_arg0 (((cfg0.win 1).blk t).view.emb (ix2 p k)) = _
    rw [emb0_1 t p k]
  · show V c main_v26 (((cfg0.win 3).blk t).view.emb (ix2 k q)) = _
    rw [emb0_3 t k q]
  · show V c main_v27 (((cfg0.win 4).blk t).view.emb (ix2 (0 : Fin 1) q)) = _
    rw [emb0_4 t q]

/-! ## The blocks cover the output array -/

/-- An index of the output array is in point `t`'s block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Row `r` lies in the block of point `r / 5000`, and every point writes its block back. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by omega⟩, flush0_5 _, ?_⟩
  rw [mem_blk0_5]
  obtain ⟨-, -, -, -, -, -, -, -, -, -, e0, e1⟩ := idx0 ⟨(i 0).val / 5000, by omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-! ## The output array after the region -/

/-- The output array after the region is the SAGE layer of the five input arrays as the region finds them. -/
theorem final0 (c : Dev nD) :
    (dat0 (F := Ideal) V c).arrAt 5 cfg0.N = Cert.Spec.sage (V c main_v24) (V c main_arg0) (V c main_v25) (V c main_v26) (V c main_v27) :=
  (dat0 (F := Ideal) V c).arrAt_eq_of_cover 5 (Cert.Spec.sage (V c main_v24) (V c main_arg0) (V c main_v25) (V c main_v26) (V c main_v27)) (fun t _ => flushed0_eq V c t) cover0

end Cert.KernelIdeal.HandValue

end
-- ==== Proof.KIVal1.lean ====
import proofs.«171674_j35588099015580_1_alg».proof.Proof.KIReg1
import proofs.«171674_j35588099015580_1_alg».proof.Proof.SpecSage
import proofs.«171674_j35588099015580_1_alg».proof.Proof.LibPlainMatmul
import Idealize.ShloMosaic.PureOps.Ideal.Laws
import Idealize.ShloMosaic.Lib.ValueIdx
import Idealize.ShloMosaic.Lib.Pipeline.Value

/-! # Region 1's output array, at the ideal values, is one SAGE layer of its five input arrays

The body's payload at entry `(p, q)` of a block is `max(Σ_k x0(p,k)·x2(k,q) + Σ_k x1(p,k)·x3(k,q) + x4(0,q), 0)`: at the
ideal values rounding to bf16 is the identity, a matrix product into the zero accumulator is the plain sum over the
contracted axis, and the bias row is repeated down the rows. Block `t` of a [100000,128] operand is its rows
`5000·t … 5000·t+4999`; the weights' and the bias' blocks are the whole arrays. So what point `t` writes back is block
`t` of the layer applied to the whole arrays, and since row `r` lies in block `r / 5000` the twenty blocks cover the
output array. -/

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The payload at an entry -/

/-- The stored value at row `p`, column `q` of a block, from the five loaded blocks. -/
theorem pay1_at (x0 x1 : Vec Ideal S5000x128 .f32) (x2 x3 : Vec Ideal S128x128 .f32) (x4 : Vec Ideal S1x128 .f32) (p : Fin 5000) (q : Fin 128) :
    k1_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q))
          (Ideal.ofBits .f32 0x00000000#32) := by
  unfold k1_pay1
  simp only [shapeCast_self]
  refine congrArg₂ max (congrArg₂ (· + ·) (congrArg₂ (· + ·) ?_ ?_) ?_) rfl
  · exact PlainMatmul.apply_zero (M := 5000) (K := 128) (N := 128) (truncf .bf16 x0 bitsLt_bf16_f32) (truncf .bf16 x2 bitsLt_bf16_f32) p q
  · exact PlainMatmul.apply_zero (M := 5000) (K := 128) (N := 128) (truncf .bf16 x1 bitsLt_bf16_f32) (truncf .bf16 x3 bitsLt_bf16_f32) p q
  · exact broadcastTo_apply x4 broadcasts_S1x128_S5000x128 (ix2 p q) (ix2 (0 : Fin 1) q)
      (fun a => by match a with | ⟨0, _⟩ => rfl | ⟨1, _⟩ => rfl)

/-! ## Which entries of its array a block holds -/

theorem hz1 : (![0, 0] : Fin 2 → Nat) = fun _ => 0 := funext fun a => by fin_cases a <;> rfl

/-- The block indices over the grid: the two [100000,128] operands and the output move down one row block per point; the
    weights and the bias stay at block (0,0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt1 (t : Fin cfg1.N) (p : Fin 5000) : t.val * 5000 + p.val < 100000 := by
  have h : cfg1.N = 20 := N_1
  have := t.isLt; have := p.isLt; omega

/-- Row `p` of block `t` of a [100000,128] window is row `5000·t + p` of its array. -/
theorem emb1_0 (t : Fin cfg1.N) (p : Fin 5000) (k : Fin 128) :
    ((cfg1.win 0).blk t).view.emb (ix2 p k) = ix2 (⟨t.val * 5000 + p.val, row_lt1 t p⟩ : Fin 100000) k := by
  obtain ⟨e0, e1, -⟩ := idx1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb1_1 (t : Fin cfg1.N) (p : Fin 5000) (k : Fin 128) :
    ((cfg1.win 1).blk t).view.emb (ix2 p k) = ix2 (⟨t.val * 5000 + p.val, row_lt1 t p⟩ : Fin 100000) k := by
  obtain ⟨-, -, e0, e1, -⟩ := idx1 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- A weight matrix's block is the whole matrix. -/
theorem emb1_2 (t : Fin cfg1.N) (k : Fin 128) (q : Fin 128) :
    ((cfg1.win 2).blk t).view.emb (ix2 k q) = ix2 k q := by
  obtain ⟨-, -, -, -, e0, e1, -⟩ := idx1 t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb1_3 (t : Fin cfg1.N) (k : Fin 128) (q : Fin 128) :
    ((cfg1.win 3).blk t).view.emb (ix2 k q) = ix2 k q := by
  obtain ⟨-, -, -, -, -, -, e0, e1, -⟩ := idx1 t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias row's block is the whole row. -/
theorem emb1_4 (t : Fin cfg1.N) (q : Fin 128) :
    ((cfg1.win 4).blk t).view.emb (ix2 (0 : Fin 1) q) = ix2 (0 : Fin 1) q := by
  obtain ⟨-, -, -, -, -, -, -, -, e0, e1, -⟩ := idx1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem emb1_5 (t : Fin cfg1.N) (p : Fin 5000) (q : Fin 128) :
    ((cfg1.win 5).blk t).view.emb (ix2 p q) = ix2 (⟨t.val * 5000 + p.val, row_lt1 t p⟩ : Fin 100000) q := by
  obtain ⟨-, -, -, -, -, -, -, -, -, -, e0, e1⟩ := idx1 t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-! ## What a point writes back -/

/-- What point `t` writes back is block `t` of the layer applied to the whole input arrays as the region finds them. -/
theorem flushed1_eq (c : Dev nD) (t : Fin cfg1.N) :
    (dat1 (F := Ideal) V c).flushed 5 t = ((cfg1.win 5).blk t).view.read (Elt Ideal) (Cert.Spec.sage (V c main_v40) (V c main_v28) (V c main_v41) (V c main_v42) (V c main_v43)) := by
  show (cfg1.win 5).cut (grid1.coords t) ((dat1 (F := Ideal) V c).after 5 t) = _
  rw [after1_5]
  unfold out1_5
  rw [View.canon_unit_zero hz1]
  simp only [View.ld_unit_zero (S := S5000x128) hz1, View.ld_unit_zero (S := S128x128) hz1, View.ld_unit_zero (S := S1x128) hz1]
  funext j
  obtain ⟨p, q, rfl⟩ : ∃ (p : Fin 5000) (q : Fin 128), j = ix2 p q := ⟨j 0, j 1, eq_ix2 j⟩
  refine (pay1_at (iblk1 V c 0 t) (iblk1 V c 1 t) (iblk1 V c 2 t) (iblk1 V c 3 t) (iblk1 V c 4 t) p q).trans ?_
  show _ = Cert.Spec.sage (V c main_v40) (V c main_v28) (V c main_v41) (V c main_v42) (V c main_v43) (((cfg1.win 5).blk t).view.emb (ix2 p q))
  rw [emb1_5 t p q, Cert.Spec.sage_ix2]
  unfold Cert.Spec.sageAt
  refine congrArg₂ max (congrArg₂ (· + ·) (congrArg₂ (· + ·)
      (Finset.sum_congr rfl fun k _ => congrArg₂ (· * ·) ?_ ?_)
      (Finset.sum_congr rfl fun k _ => congrArg₂ (· * ·) ?_ ?_)) ?_) rfl
  · show V c main_v40 (((cfg1.win 0).blk t).view.emb (ix2 p k)) = _
    rw [emb1_0 t p k]
  · show V c main_v41 (((cfg1.win 2).blk t).view.emb (ix2 k q)) = _
    rw [emb1_2 t k q]
  · show V c main_v28 (((cfg1.win 1).blk t).view.emb (ix2 p k)) = _
    rw [emb1_1 t p k]
  · show V c main_v42 (((cfg1.win 3).blk t).view.emb (ix2 k q)) = _
    rw [emb1_3 t k q]
  · show V c main_v43 (((cfg1.win 4).blk t).view.emb (ix2 (0 : Fin 1) q)) = _
    rw [emb1_4 t q]

/-! ## The blocks cover the output array -/

/-- An index of the output array is in point `t`'s block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Row `r` lies in the block of point `r / 5000`, and every point writes its block back. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by omega⟩, flush1_5 _, ?_⟩
  rw [mem_blk1_5]
  obtain ⟨-, -, -, -, -, -, -, -, -, -, e0, e1⟩ := idx1 ⟨(i 0).val / 5000, by omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-! ## The output array after the region -/

/-- The output array after the region is the SAGE layer of the five input arrays as the region finds them. -/
theorem final1 (c : Dev nD) :
    (dat1 (F := Ideal) V c).arrAt 5 cfg1.N = Cert.Spec.sage (V c main_v40) (V c main_v28) (V c main_v41) (V c main_v42) (V c main_v43) :=
  (dat1 (F := Ideal) V c).arrAt_eq_of_cover 5 (Cert.Spec.sage (V c main_v40) (V c main_v28) (V c main_v41) (V c main_v42) (V c main_v43)) (fun t _ => flushed1_eq V c t) cover1

end Cert.KernelIdeal.HandValue

end
-- ==== Proof.SpecStats.lean ====
import Idealize.ShloMosaic.PureOps.Ideal
import Idealize.ShloMosaic.Lib.ValueIdx
import proofs.«171674_j35588099015580_1_alg».proof.Proof.SpecSage

noncomputable section

open scoped BigOperators

namespace Cert.Spec

open Idealize.ShloMosaic Idealize.ShloMosaic.ValueIdx

/-- Column sums of a [100000,128] array: entry (0,c) is the sum over all rows r of h(r,c). -/
def colSum (h : SN.Idx → EReal) : SR.Idx → EReal :=
  fun j => ∑ r : Fin 100000, h (ix2 r (j 1))

/-- Column sums of squares: entry (0,c) is the sum over all rows r of h(r,c)·h(r,c). -/
def colSumSq (h : SN.Idx → EReal) : SR.Idx → EReal :=
  fun j => ∑ r : Fin 100000, h (ix2 r (j 1)) * h (ix2 r (j 1))

end Cert.Spec

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib.Algebra.BigOperators.Fin
import Mathlib.Logic.Equiv.Fin.Basic

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.KIVal2.lean ====
import proofs.«171674_j35588099015580_1_alg».proof.Proof.KIReg2
import proofs.«171674_j35588099015580_1_alg».proof.Proof.SpecStats
import proofs.«171674_j35588099015580_1_alg».proof.Proof.LibBlockSums
import Idealize.ShloMosaic.PureOps.Ideal.Laws
import Idealize.ShloMosaic.Lib.ValueIdx
import Idealize.ShloMosaic.Lib.ValueLayout
import Idealize.ShloMosaic.Lib.Pipeline.Value

/-! # The statistics region's two output arrays, at the ideal values, are the column sums and the column sums of squares

At the ideal values a reduction over the row axis of a [5000,128] block is, at column `q`, the sum over the block's 5000
rows, and the zero word is 0. So after point `n` the first accumulator holds, at column `q`, the sum over the blocks
`0 … n` of the sums over each block's rows — the sum of the array's entries in rows `0 … 5000·(n+1) − 1` of that column —
and the second the same with each entry squared. Block `s` of the [100000,128] input is its rows `5000·s … 5000·s+4999`,
so after the last point (n = 19) the twenty block sums regroup into the one sum over all 100000 rows. The outputs are
written back once, at the last point, where they hold the accumulators; their one block is the whole [1,128] array. -/

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The payloads at a column -/

/-- The reset value of an accumulator is 0 at every column. -/
theorem reset2_0_at (q : Fin 128) : k2_pay1 (F := Ideal) (ix2 (0 : Fin 1) q) = 0 := by
  unfold k2_pay1
  simp only [shapeCast_self]
  exact Ideal.ofBits_zero_f32

theorem reset2_1_at (q : Fin 128) : k2_pay2 (F := Ideal) (ix2 (0 : Fin 1) q) = 0 := by
  unfold k2_pay2
  simp only [shapeCast_self]
  exact Ideal.ofBits_zero_f32

/-- The row index the reduction inserts: column `q` of the result with row `p` put back is entry `(p, q)`. -/
theorem lift2 (q : Fin 128) (p : Fin 5000) :
    (reduces_S5000x128_S128).lift (ix1 q) p = ix2 p q :=
  funext fun a => by match a with | ⟨0, _⟩ => rfl | ⟨1, _⟩ => rfl

/-- The first accumulator's new value at column `q`: its old value plus the sum of the block's column `q`. -/
theorem add2_0_at (x : Vec Ideal S5000x128 .f32) (xs : Vec Ideal S1x128 .f32) (q : Fin 128) :
    k2_pay4 (F := Ideal) x xs (ix2 (0 : Fin 1) q) = xs (ix2 (0 : Fin 1) q) + ∑ p : Fin 5000, x (ix2 p q) := by
  unfold k2_pay4 k2_pay3
  simp only [shapeCast_self]
  refine congrArg₂ (· + ·) rfl ?_
  refine (shapeCast_a_1a_apply _ shapeCasts_S128_S1x128 (0 : Fin 1) q).trans ?_
  refine (Ideal.multiReduction_add_single (s := S5000x128) (t := S128) (a := 0) x _ reduces_S5000x128_S128 (.inl rfl) rfl (ix1 q)).trans ?_
  exact Finset.sum_congr rfl fun p _ => congrArg x (lift2 q p)

/-- The second accumulator's new value at column `q`: its old value plus the sum of the squares of the block's column `q`. -/
theorem add2_1_at (x : Vec Ideal S5000x128 .f32) (xs : Vec Ideal S1x128 .f32) (q : Fin 128) :
    k2_pay5 (F := Ideal) x xs (ix2 (0 : Fin 1) q) = xs (ix2 (0 : Fin 1) q) + ∑ p : Fin 5000, x (ix2 p q) * x (ix2 p q) := by
  unfold k2_pay5 k2_pay3
  simp only [shapeCast_self]
  refine congrArg₂ (· + ·) rfl ?_
  refine (shapeCast_a_1a_apply _ shapeCasts_S128_S1x128 (0 : Fin 1) q).trans ?_
  refine (Ideal.multiReduction_add_single (s := S5000x128) (t := S128) (a := 0) (mulf x x) _ reduces_S5000x128_S128 (.inl rfl) rfl (ix1 q)).trans ?_
  exact Finset.sum_congr rfl fun p _ => congrArg (fun i => x i * x i) (lift2 q p)

/-! ## Which entries of its array a block holds -/

theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem row_lt2 (t : Fin cfg2.N) (p : Fin 5000) : t.val * 5000 + p.val < 100000 := by
  have h : cfg2.N = 20 := N_2
  have := t.isLt; have := p.isLt; omega

/-- Row `p` of block `t` of the input is row `5000·t + p` of its array. -/
theorem emb2_0 (t : Fin cfg2.N) (p : Fin 5000) (q : Fin 128) :
    ((cfg2.win 0).blk t).view.emb (ix2 p q) = ix2 (⟨t.val * 5000 + p.val, row_lt2 t p⟩ : Fin 100000) q := by
  obtain ⟨e0, e1, -⟩ := idx2 t
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

/-- An output's block is its whole [1,128] array. -/
theorem emb2_1 (t : Fin cfg2.N) (u : Fin 1) (q : Fin 128) :
    ((cfg2.win 1).blk t).view.emb (ix2 u q) = ix2 u q := by
  obtain ⟨-, -, e0, e1, -⟩ := idx2 t
  funext a; apply Fin.ext
  match a with
  | ⟨0, _⟩ => show win2_1.index t (0 : Fin 2) * 1 + 1 * u.val = u.val; omega
  | ⟨1, _⟩ => show win2_1.index t (1 : Fin 2) * 128 + 1 * q.val = q.val; omega

theorem emb2_2 (t : Fin cfg2.N) (u : Fin 1) (q : Fin 128) :
    ((cfg2.win 2).blk t).view.emb (ix2 u q) = ix2 u q := by
  obtain ⟨-, -, -, -, e0, e1⟩ := idx2 t
  funext a; apply Fin.ext
  match a with
  | ⟨0, _⟩ => show win2_2.index t (0 : Fin 2) * 1 + 1 * u.val = u.val; omega
  | ⟨1, _⟩ => show win2_2.index t (1 : Fin 2) * 128 + 1 * q.val = q.val; omega

/-- Entry `(r, q)` of a [100000,128] array by the row's number, 0 past the last row (never read there). -/
def rowAt (h : Cert.Spec.SN.Idx → EReal) (r : ℕ) (q : Fin 128) : EReal :=
  if hr : r < 100000 then h (ix2 (⟨r, hr⟩ : Fin 100000) q) else 0

theorem iblk2_at (c : Dev nD) (t : Fin cfg2.N) (p : Fin 5000) (q : Fin 128) :
    iblk2 V c 0 t (ix2 p q) = rowAt (V c main_v44) (t.val * 5000 + p.val) q := by
  unfold rowAt; rw [dif_pos (row_lt2 t p)]
  show V c main_v44 (((cfg2.win 0).blk t).view.emb (ix2 p q)) = _
  rw [emb2_0 t p q]

/-! ## The running totals -/

/-- After point `n` the first accumulator holds, at column `q`, the sum over blocks `0 … n` of each block's column sum. -/
theorem acc2_sum (c : Dev nD) (q : Fin 128) : ∀ (n : ℕ) (hn : n < cfg2.N),
    (acc2 (F := Ideal) V c n hn).1 (ix2 (0 : Fin 1) q)
      = ∑ s : Fin (n + 1), ∑ p : Fin 5000, rowAt (V c main_v44) (s.val * 5000 + p.val) q
  | 0, hn => by
    refine (add2_0_at (iblk2 V c 0 ⟨0, hn⟩) (k2_pay1 (F := Ideal)) q).trans ?_
    rw [reset2_0_at, zero_add]
    refine Eq.trans ?_ (Fin.sum_univ_one (fun s : Fin 1 => ∑ p : Fin 5000, rowAt (V c main_v44) (s.val * 5000 + p.val) q)).symm
    exact Finset.sum_congr rfl fun p _ => iblk2_at V c ⟨0, hn⟩ p q
  | n + 1, hn => by
    refine (add2_0_at (iblk2 V c 0 ⟨n + 1, hn⟩) (acc2 (F := Ideal) V c n (Nat.lt_of_succ_lt hn)).1 q).trans ?_
    rw [Fin.sum_univ_castSucc (n := n + 1)]
    exact congrArg₂ (· + ·) (acc2_sum c q n (Nat.lt_of_succ_lt hn)) (Finset.sum_congr rfl fun p _ => iblk2_at V c ⟨n + 1, hn⟩ p q)

/-- The second likewise, with each entry squared. -/
theorem acc2_sq (c : Dev nD) (q : Fin 128) : ∀ (n : ℕ) (hn : n < cfg2.N),
    (acc2 (F := Ideal) V c n hn).2 (ix2 (0 : Fin 1) q)
      = ∑ s : Fin (n + 1), ∑ p : Fin 5000, rowAt (V c main_v44) (s.val * 5000 + p.val) q * rowAt (V c main_v44) (s.val * 5000 + p.val) q
  | 0, hn => by
    refine (add2_1_at (iblk2 V c 0 ⟨0, hn⟩) (k2_pay2 (F := Ideal)) q).trans ?_
    rw [reset2_1_at, zero_add]
    refine Eq.trans ?_ (Fin.sum_univ_one (fun s : Fin 1 => ∑ p : Fin 5000, rowAt (V c main_v44) (s.val * 5000 + p.val) q * rowAt (V c main_v44) (s.val * 5000 + p.val) q)).symm
    exact Finset.sum_congr rfl fun p _ => congrArg (fun z => z * z) (iblk2_at V c ⟨0, hn⟩ p q)
  | n + 1, hn => by
    refine (add2_1_at (iblk2 V c 0 ⟨n + 1, hn⟩) (acc2 (F := Ideal) V c n (Nat.lt_of_succ_lt hn)).2 q).trans ?_
    rw [Fin.sum_univ_castSucc (n := n + 1)]
    exact congrArg₂ (· + ·) (acc2_sq c q n (Nat.lt_of_succ_lt hn)) (Finset.sum_congr rfl fun p _ => congrArg (fun z => z * z) (iblk2_at V c ⟨n + 1, hn⟩ p q))

/-- Twenty blocks of 5000 rows are the 100000 rows: the block sums regroup into the one sum over all rows. -/
theorem total2 (f : ℕ → EReal) : ∑ s : Fin 20, ∑ p : Fin 5000, f (s.val * 5000 + p.val) = ∑ r : Fin 100000, f r.val :=
  (BlockSums.sum_blocks (m := 20) (n := 5000) (N := 100000) rfl
    (fun i j => (⟨i.val * 5000 + j.val, by have := i.isLt; have := j.isLt; omega⟩ : Fin 100000)) (fun _ _ => rfl) (fun r => f r.val)).symm

theorem rowAt_val (h : Cert.Spec.SN.Idx → EReal) (r : Fin 100000) (q : Fin 128) : rowAt h r.val q = h (ix2 r q) := by
  unfold rowAt; rw [dif_pos r.isLt]

/-- The specification at a column. -/
theorem colSum_at (h : Cert.Spec.SN.Idx → EReal) (q : Fin 128) :
    Cert.Spec.colSum h (ix2 (0 : Fin 1) q) = ∑ r : Fin 100000, h (ix2 r q) := rfl
theorem colSumSq_at (h : Cert.Spec.SN.Idx → EReal) (q : Fin 128) :
    Cert.Spec.colSumSq h (ix2 (0 : Fin 1) q) = ∑ r : Fin 100000, h (ix2 r q) * h (ix2 r q) := rfl

/-- An output's one block read off any [1,128] array is that array. -/
theorem read_blk2_1 (t : Fin cfg2.N) (G : S1x128.Idx → EReal) (q : Fin 128) :
    ((cfg2.win 1).blk t).view.read (Elt Ideal) G (ix2 (0 : Fin 1) q) = G (ix2 (0 : Fin 1) q) := by
  show G (((cfg2.win 1).blk t).view.emb (ix2 (0 : Fin 1) q)) = _
  rw [emb2_1 t 0 q]
theorem read_blk2_2 (t : Fin cfg2.N) (G : S1x128.Idx → EReal) (q : Fin 128) :
    ((cfg2.win 2).blk t).view.read (Elt Ideal) G (ix2 (0 : Fin 1) q) = G (ix2 (0 : Fin 1) q) := by
  show G (((cfg2.win 2).blk t).view.emb (ix2 (0 : Fin 1) q)) = _
  rw [emb2_2 t 0 q]

/-- The whole staging block is written back. -/
theorem cut2_1 (t : Fin cfg2.N) (X : Vec Ideal S1x128 .f32) : (cfg2.win 1).cut (grid2.coords t) X = X := rfl
theorem cut2_2 (t : Fin cfg2.N) (X : Vec Ideal S1x128 .f32) : (cfg2.win 2).cut (grid2.coords t) X = X := rfl

attribute [local irreducible] Cert.Spec.colSum Cert.Spec.colSumSq

/-! ## What the last point writes back -/

theorem last2 (t : Fin cfg2.N) (h : t.val % 20 = 19) : t.val = 19 := by
  have hN : cfg2.N = 20 := N_2
  have := t.isLt; omega

/-- The last point writes back the column sums of the whole input array. -/
theorem flushed2_1_eq (c : Dev nD) (t : Fin cfg2.N) (hf : (cfg2.win 1).flush t = true) :
    (dat2 (F := Ideal) V c).flushed 1 t = ((cfg2.win 1).blk t).view.read (Elt Ideal) (Cert.Spec.colSum (V c main_v44)) := by
  have ht : t.val = 19 := last2 t ((flush2_1 t).mp hf)
  show (cfg2.win 1).cut (grid2.coords t) ((dat2 (F := Ideal) V c).after 1 t) = _
  rw [after2_1, cut2_1]
  funext j
  obtain ⟨u, q, rfl⟩ : ∃ (u : Fin 1) (q : Fin 128), j = ix2 u q := ⟨j 0, j 1, eq_ix2 j⟩
  obtain rfl : u = 0 := Subsingleton.elim _ _
  refine Eq.trans ?_ (read_blk2_1 t (Cert.Spec.colSum (V c main_v44)) q).symm
  refine Eq.trans ?_ (colSum_at (V c main_v44) q).symm
  rw [acc2_sum V c q t.val t.isLt]
  obtain ⟨n, hn⟩ := t
  dsimp only at ht; subst ht
  refine (total2 (fun r => rowAt (V c main_v44) r q)).trans ?_
  exact Finset.sum_congr rfl fun r _ => rowAt_val (V c main_v44) r q

/-- The last point writes back the column sums of squares of the whole input array. -/
theorem flushed2_2_eq (c : Dev nD) (t : Fin cfg2.N) (hf : (cfg2.win 2).flush t = true) :
    (dat2 (F := Ideal) V c).flushed 2 t = ((cfg2.win 2).blk t).view.read (Elt Ideal) (Cert.Spec.colSumSq (V c main_v44)) := by
  have ht : t.val = 19 := last2 t ((flush2_2 t).mp hf)
  show (cfg2.win 2).cut (grid2.coords t) ((dat2 (F := Ideal) V c).after 2 t) = _
  rw [after2_2, cut2_2]
  funext j
  obtain ⟨u, q, rfl⟩ : ∃ (u : Fin 1) (q : Fin 128), j = ix2 u q := ⟨j 0, j 1, eq_ix2 j⟩
  obtain rfl : u = 0 := Subsingleton.elim _ _
  refine Eq.trans ?_ (read_blk2_2 t (Cert.Spec.colSumSq (V c main_v44)) q).symm
  refine Eq.trans ?_ (colSumSq_at (V c main_v44) q).symm
  rw [acc2_sq V c q t.val t.isLt]
  obtain ⟨n, hn⟩ := t
  dsimp only at ht; subst ht
  refine (total2 (fun r => rowAt (V c main_v44) r q * rowAt (V c main_v44) r q)).trans ?_
  exact Finset.sum_congr rfl fun r _ => congrArg (fun z => z * z) (rowAt_val (V c main_v44) r q)

/-! ## The last point's block is the whole output array -/

theorem mem_blk2_1 (t : Fin cfg2.N) (i : S1x128.Idx) :
    i ∈ ((cfg2.win 1).blk t).view.set ↔ ∀ a : Fin 2, win2_1.index t a * S1x128.size a ≤ (i a).val ∧ (i a).val < win2_1.index t a * S1x128.size a + S1x128.size a := by
  show i ∈ ((View.whole main_v45_0).slice (win2_1.rect t)).set ↔ _
  rw [View.set_slice_whole, Rect.mem_set_unit]
  exact Iff.rfl

theorem mem_blk2_2 (t : Fin cfg2.N) (i : S1x128.Idx) :
    i ∈ ((cfg2.win 2).blk t).view.set ↔ ∀ a : Fin 2, win2_2.index t a * S1x128.size a ≤ (i a).val ∧ (i a).val < win2_2.index t a * S1x128.size a + S1x128.size a := by
  show i ∈ ((View.whole main_v45_1).slice (win2_2.rect t)).set ↔ _
  rw [View.set_slice_whole, Rect.mem_set_unit]
  exact Iff.rfl

theorem pt19 : (19 : ℕ) < cfg2.N := by have : cfg2.N = 20 := N_2; omega

theorem cover2_1 (i : S1x128.Idx) : ∃ t : Fin cfg2.N, (cfg2.win 1).flush t = true ∧ i ∈ ((cfg2.win 1).blk t).view.set := by
  have hi0 : (i 0).val < 1 := (i 0).isLt
  have hi1 : (i 1).val < 128 := (i 1).isLt
  refine ⟨⟨19, pt19⟩, (flush2_1 _).mpr rfl, ?_⟩
  rw [mem_blk2_1]
  obtain ⟨-, -, e0, e1, -⟩ := idx2 ⟨19, pt19⟩
  intro a
  match a with
  | ⟨0, _⟩ =>
    show win2_1.index _ (0 : Fin 2) * 1 ≤ (i 0).val ∧ (i 0).val < win2_1.index _ (0 : Fin 2) * 1 + 1
    rw [e0]; omega
  | ⟨1, _⟩ =>
    show win2_1.index _ (1 : Fin 2) * 128 ≤ (i 1).val ∧ (i 1).val < win2_1.index _ (1 : Fin 2) * 128 + 128
    rw [e1]; omega

theorem cover2_2 (i : S1x128.Idx) : ∃ t : Fin cfg2.N, (cfg2.win 2).flush t = true ∧ i ∈ ((cfg2.win 2).blk t).view.set := by
  have hi0 : (i 0).val < 1 := (i 0).isLt
  have hi1 : (i 1).val < 128 := (i 1).isLt
  refine ⟨⟨19, pt19⟩, (flush2_2 _).mpr rfl, ?_⟩
  rw [mem_blk2_2]
  obtain ⟨-, -, -, -, e0, e1⟩ := idx2 ⟨19, pt19⟩
  intro a
  match a with
  | ⟨0, _⟩ =>
    show win2_2.index _ (0 : Fin 2) * 1 ≤ (i 0).val ∧ (i 0).val < win2_2.index _ (0 : Fin 2) * 1 + 1
    rw [e0]; omega
  | ⟨1, _⟩ =>
    show win2_2.index _ (1 : Fin 2) * 128 ≤ (i 1).val ∧ (i 1).val < win2_2.index _ (1 : Fin 2) * 128 + 128
    rw [e1]; omega

/-! ## The output arrays after the region -/

/-- The first output array after the region is the column sums of the input array as the region finds it. -/
theorem final2_sum (c : Dev nD) :
    (dat2 (F := Ideal) V c).arrAt 1 cfg2.N = Cert.Spec.colSum (V c main_v44) :=
  (dat2 (F := Ideal) V c).arrAt_eq_of_cover 1 (Cert.Spec.colSum (V c main_v44)) (fun t hf => flushed2_1_eq V c t hf) cover2_1

/-- The second is its column sums of squares. -/
theorem final2_sq (c : Dev nD) :
    (dat2 (F := Ideal) V c).arrAt 2 cfg2.N = Cert.Spec.colSumSq (V c main_v44) :=
  (dat2 (F := Ideal) V c).arrAt_eq_of_cover 2 (Cert.Spec.colSumSq (V c main_v44)) (fun t hf => flushed2_2_eq V c t hf) cover2_2

end Cert.KernelIdeal.HandValue

end
-- ==== Proof.SpecFinal.lean ====
/- The last region's result as one function of its seven input arrays: layer normalisation of a row with the column
   statistics mu and var and the affine pair gamma, beta; then the product with the weight matrix and the bias row. -/
import proofs.«171674_j35588099015580_1_alg».proof.Proof.SpecSage

noncomputable section

namespace Cert.Spec

open Idealize.ShloMosaic Idealize.ShloMosaic.ValueIdx

/-- Entry (r, c) of the last region's result:
    Σ_k ((h(r,k) − mu(0,k)) · rsqrt(var(0,k) + ε) · gamma(0,k) + beta(0,k)) · w(k,c) + fb(0,c),
    ε the single-precision word 0x3727C5AC (about 1e-5), the operations the extended reals'. -/
def final (h : SN.Idx → EReal) (mu var gamma beta : SR.Idx → EReal) (w : SW.Idx → EReal) (fb : SR.Idx → EReal) : SN.Idx → EReal :=
  fun i => (∑ k : Fin 128,
      ((h (ix2 (i 0) k) - mu (ix2 0 k)) * Ideal.rsqrt (var (ix2 0 k) + Ideal.ofBits .f32 0x3727C5AC#32) * gamma (ix2 0 k) + beta (ix2 0 k))
        * w (ix2 k (i 1)))
    + fb (ix2 0 (i 1))

/-- The same entry at explicit coordinates. -/
theorem final_apply (h : SN.Idx → EReal) (mu var gamma beta : SR.Idx → EReal) (w : SW.Idx → EReal) (fb : SR.Idx → EReal)
    (r : Fin 100000) (c : Fin 128) :
    final h mu var gamma beta w fb (ix2 r c) = (∑ k : Fin 128,
      ((h (ix2 r k) - mu (ix2 0 k)) * Ideal.rsqrt (var (ix2 0 k) + Ideal.ofBits .f32 0x3727C5AC#32) * gamma (ix2 0 k) + beta (ix2 0 k))
        * w (ix2 k c))
    + fb (ix2 0 c) := rfl

end Cert.Spec

end
-- ==== Proof.KIVal3.lean ====
/- The value of the last region at the extended reals: the output array after its twenty grid points is the
   specification's function of the seven input arrays. The stored block at a point is read entry by entry (the row
   centred, scaled by rsqrt(var + ε) and gamma, shifted by beta, multiplied into the weight matrix, the bias added);
   the input row block at point t is rows 5000·t … 5000·t + 4999 of its array and each small operand's block is its
   whole array; row r of the output is written by point r / 5000, so the blocks cover the array. -/
import proofs.«171674_j35588099015580_1_alg».proof.Proof.KIReg3
import proofs.«171674_j35588099015580_1_alg».proof.Proof.SpecFinal
import proofs.«171674_j35588099015580_1_alg».proof.Proof.LibPlainMatmul
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The body's stored value at row r, column c of the block: the row is centred by mu, scaled by rsqrt(var + ε) and gamma,
    shifted by beta; the change of format before the product is the identity on extended reals; the product into the
    zero accumulator is the sum over the 128 columns; the bias row is added last. -/
theorem pay3_apply (v0 : Vec Ideal S5000x128 .f32) (v2 v4 v6 v8 : Vec Ideal S1x128 .f32) (v22 : Vec Ideal S128x128 .f32)
    (v26 : Vec Ideal S1x128 .f32) (r : Fin 5000) (c : Fin 128) :
    k3_pay1 (F := Ideal) v0 v2 v4 v6 v8 v22 v26 (ix2 r c)
      = (∑ k : Fin 128,
          ((v0 (ix2 r k) - v2 (ix2 0 k)) * Ideal.rsqrt (v4 (ix2 0 k) + Ideal.ofBits .f32 0x3727C5AC#32) * v6 (ix2 0 k) + v8 (ix2 0 k))
            * v22 (ix2 k c))
        + v26 (ix2 0 c) := by
  unfold k3_pay1
  simp only [shapeCast_self]
  refine (addf_apply _ _ _).trans ?_
  refine congrArg₂ (· + ·) ?_ (broadcastTo_1b_ab_apply v26 _ r c)
  refine (PlainMatmul.apply_zero (M := 5000) (K := 128) (N := 128) _ _ r c).trans ?_
  refine Finset.sum_congr rfl fun k _ => ?_
  refine congrArg₂ (· * ·) ?_ rfl
  refine (truncf_apply (φ := .f32) (ψ := .bf16) _ _ _).trans ?_
  refine (addf_apply _ _ _).trans ?_
  refine congrArg₂ (· + ·) ?_ (broadcastTo_1b_ab_apply v8 _ r k)
  refine (mulf_apply _ _ _).trans ?_
  refine congrArg₂ (· * ·) ?_ (broadcastTo_1b_ab_apply v6 _ r k)
  refine (mulf_apply _ _ _).trans ?_
  refine congrArg₂ (· * ·) ?_ ((broadcastTo_1b_ab_apply _ _ r k).trans rfl)
  refine (subf_apply _ _ _).trans ?_
  exact congrArg₂ (· - ·) rfl (broadcastTo_1b_ab_apply v2 _ r k)

/-- The block index maps over the grid: the row block of the input and of the output at point t is block t of the rows,
    all columns; every small operand sits at block (0, 0). -/
theorem idx_facts3 : ∀ t : Fin cfg3.N, win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row p, column k of the input's block at point t is row 5000·t + p of the array. -/
theorem iblk3_0_apply (c : Dev nD) (t : Fin cfg3.N) (p : Fin 5000) (k : Fin 128) (i : S100000x128.Idx)
    (h0 : (i 0).val = t.val * 5000 + p.val) (h1 : (i 1).val = k.val) :
    (iblk3 V c 0 t : Vec Ideal S5000x128 .f32) (ix2 p k) = (V c main_v44 : S100000x128.Idx → EReal) i := by
  obtain ⟨e0, e1, -⟩ := idx_facts3 t
  unfold iblk3
  rw [View.read_apply]
  show V c main_v44 _ = V c main_v44 _
  refine congrArg _ (funext fun a => Fin.ext ?_)
  match a with
  | ⟨0, _⟩ => show win3_0.index t (0 : Fin 2) * 5000 + 1 * p.val = (i 0).val; rw [e0, h0]; omega
  | ⟨1, _⟩ => show win3_0.index t (1 : Fin 2) * 128 + 1 * k.val = (i 1).val; rw [e1, h1]; omega

/-- Window 1's block is its whole array at every point. -/
theorem iblk3_1_eq (c : Dev nD) (t : Fin cfg3.N) :
    (iblk3 V c 1 t : Vec Ideal S1x128 .f32) = (V c main_v55 : S1x128.Idx → EReal) := by
  obtain ⟨-, -, -, -, ea, eb, -⟩ := idx_facts3 t
  funext y
  unfold iblk3
  rw [View.read_apply]
  show V c main_v55 _ = V c main_v55 _
  refine congrArg _ (funext fun a => Fin.ext ?_)
  match a with
  | ⟨0, _⟩ => show win3_1.index t (0 : Fin 2) * 1 + 1 * (y 0).val = (y 0).val; rw [ea]; omega
  | ⟨1, _⟩ => show win3_1.index t (1 : Fin 2) * 128 + 1 * (y 1).val = (y 1).val; rw [eb]; omega

/-- Window 2's block is its whole array at every point. -/
theorem iblk3_2_eq (c : Dev nD) (t : Fin cfg3.N) :
    (iblk3 V c 2 t : Vec Ideal S1x128 .f32) = (V c main_v56 : S1x128.Idx → EReal) := by
  obtain ⟨-, -, -, -, -, -, ea, eb, -⟩ := idx_facts3 t
  funext y
  unfold iblk3
  rw [View.read_apply]
  show V c main_v56 _ = V c main_v56 _
  refine congrArg _ (funext fun a => Fin.ext ?_)
  match a with
  | ⟨0, _⟩ => show win3_2.index t (0 : Fin 2) * 1 + 1 * (y 0).val = (y 0).val; rw [ea]; omega
  | ⟨1, _⟩ => show win3_2.index t (1 : Fin 2) * 128 + 1 * (y 1).val = (y 1).val; rw [eb]; omega

/-- Window 3's block is its whole array at every point. -/
theorem iblk3_3_eq (c : Dev nD) (t : Fin cfg3.N) :
    (iblk3 V c 3 t : Vec Ideal S1x128 .f32) = (V c main_v57 : S1x128.Idx → EReal) := by
  obtain ⟨-, -, -, -, -, -, -, -, ea, eb, -⟩ := idx_facts3 t
  funext y
  unfold iblk3
  rw [View.read_apply]
  show V c main_v57 _ = V c main_v57 _
  refine congrArg _ (funext fun a => Fin.ext ?_)
  match a with
  | ⟨0, _⟩ => show win3_3.index t (0 : Fin 2) * 1 + 1 * (y 0).val = (y 0).val; rw [ea]; omega
  | ⟨1, _⟩ => show win3_3.index t (1 : Fin 2) * 128 + 1 * (y 1).val = (y 1).val; rw [eb]; omega

/-- Window 4's block is its whole array at every point. -/
theorem iblk3_4_eq (c : Dev nD) (t : Fin cfg3.N) :
    (iblk3 V c 4 t : Vec Ideal S1x128 .f32) = (V c main_v58 : S1x128.Idx → EReal) := by
  obtain ⟨-, -, -, -, -, -, -, -, -, -, ea, eb, -⟩ := idx_facts3 t
  funext y
  unfold iblk3
  rw [View.read_apply]
  show V c main_v58 _ = V c main_v58 _
  refine congrArg _ (funext fun a => Fin.ext ?_)
  match a with
  | ⟨0, _⟩ => show win3_4.index t (0 : Fin 2) * 1 + 1 * (y 0).val = (y 0).val; rw [ea]; omega
  | ⟨1, _⟩ => show win3_4.index t (1 : Fin 2) * 128 + 1 * (y 1).val = (y 1).val; rw [eb]; omega

/-- Window 5's block is its whole array at every point. -/
theorem iblk3_5_eq (c : Dev nD) (t : Fin cfg3.N) :
    (iblk3 V c 5 t : Vec Ideal S128x128 .f32) = (V c main_v54 : S128x128.Idx → EReal) := by
  obtain ⟨-, -, -, -, -, -, -, -, -, -, -, -, ea, eb, -⟩ := idx_facts3 t
  funext y
  unfold iblk3
  rw [View.read_apply]
  show V c main_v54 _ = V c main_v54 _
  refine congrArg _ (funext fun a => Fin.ext ?_)
  match a with
  | ⟨0, _⟩ => show win3_5.index t (0 : Fin 2) * 128 + 1 * (y 0).val = (y 0).val; rw [ea]; omega
  | ⟨1, _⟩ => show win3_5.index t (1 : Fin 2) * 128 + 1 * (y 1).val = (y 1).val; rw [eb]; omega

/-- Window 6's block is its whole array at every point. -/
theorem iblk3_6_eq (c : Dev nD) (t : Fin cfg3.N) :
    (iblk3 V c 6 t : Vec Ideal S1x128 .f32) = (V c main_v59 : S1x128.Idx → EReal) := by
  obtain ⟨-, -, -, -, -, -, -, -, -, -, -, -, -, -, ea, eb⟩ := idx_facts3 t
  funext y
  unfold iblk3
  rw [View.read_apply]
  show V c main_v59 _ = V c main_v59 _
  refine congrArg _ (funext fun a => Fin.ext ?_)
  match a with
  | ⟨0, _⟩ => show win3_6.index t (0 : Fin 2) * 1 + 1 * (y 0).val = (y 0).val; rw [ea]; omega
  | ⟨1, _⟩ => show win3_6.index t (1 : Fin 2) * 128 + 1 * (y 1).val = (y 1).val; rw [eb]; omega

/-- The whole output array as the specification's function of the seven input arrays as the region finds them. -/
abbrev G3 (c : Dev nD) : S100000x128.Idx → EReal :=
  Cert.Spec.final (V c main_v44) (V c main_v55) (V c main_v56) (V c main_v57) (V c main_v58) (V c main_v54) (V c main_v59)

/-- What point t writes back is block t of that function: rows 5000·t … 5000·t + 4999. -/
theorem flushed3_eq (c : Dev nD) (t : Fin cfg3.N) :
    (dat3 (F := Ideal) V c).flushed 7 t = ((cfg3.win 7).blk t).view.read (Elt Ideal) (G3 V c) := by
  show (cfg3.win 7).cut (grid3.coords t) ((dat3 (F := Ideal) V c).after 7 t) = _
  rw [after3_7]
  unfold out3_7
  rw [View.canon_unit_zero hz3]
  simp only [View.ld_unit_zero (S := S5000x128) hz3, View.ld_unit_zero (S := S1x128) hz3, View.ld_unit_zero (S := S128x128) hz3]
  rw [iblk3_1_eq V c t, iblk3_2_eq V c t, iblk3_3_eq V c t, iblk3_4_eq V c t, iblk3_5_eq V c t, iblk3_6_eq V c t]
  funext j
  obtain ⟨p, q, rfl⟩ : ∃ (p : Fin 5000) (q : Fin 128), j = ix2 p q := ⟨j 0, j 1, eq_ix2 j⟩
  refine (pay3_apply (iblk3 V c 0 t) (V c main_v55) (V c main_v56) (V c main_v57) (V c main_v58) (V c main_v54) (V c main_v59) p q).trans ?_
  obtain ⟨-, -, e70, e71, -⟩ := idx_facts3 t
  have hN : cfg3.N = 20 := N_3
  have hp : t.val * 5000 + p.val < 100000 := by have := t.isLt; have := p.isLt; omega
  have hemb : ((cfg3.win 7).blk t).view.emb (ix2 p q) = (ix2 (⟨t.val * 5000 + p.val, hp⟩ : Fin 100000) q : S100000x128.Idx) :=
    funext fun a => Fin.ext (by
      match a with
      | ⟨0, _⟩ => show win3_7.index t (0 : Fin 2) * 5000 + 1 * p.val = t.val * 5000 + p.val; rw [e70]; omega
      | ⟨1, _⟩ => show win3_7.index t (1 : Fin 2) * 128 + 1 * q.val = q.val; rw [e71]; omega)
  rw [View.read_apply]
  show _ = G3 V c (((cfg3.win 7).blk t).view.emb (ix2 p q))
  rw [hemb]
  show _ = (∑ k : Fin 128, _) + _
  refine congrArg₂ (· + ·) (Finset.sum_congr rfl fun k _ => ?_) rfl
  rw [iblk3_0_apply V c t p k (ix2 (⟨t.val * 5000 + p.val, hp⟩ : Fin 100000) k) rfl rfl]

/-- An index of the array is in point t's block iff each coordinate is in the block's range on its axis. -/
theorem mem_blk3 (t : Fin cfg3.N) (i : S100000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v60).slice (win3_7.rect t)).set ↔ _
  rw [View.set_slice_whole, Rect.mem_set_unit]
  exact Iff.rfl

/-- The output array after the region: row r is written by point r / 5000, so the twenty row blocks cover it, and it is
    the specification's function of the seven input arrays. -/
theorem final3 (c : Dev nD) : (dat3 (F := Ideal) V c).arrAt 7 cfg3.N
    = Cert.Spec.final (V c main_v44) (V c main_v55) (V c main_v56) (V c main_v57) (V c main_v58) (V c main_v54) (V c main_v59) :=
  (dat3 (F := Ideal) V c).arrAt_eq_of_cover 7 (G3 V c) (fun t _ => flushed3_eq V c t) fun (i : S100000x128.Idx) => by
    have hi0 : (i 0).val < 100000 := (i 0).isLt
    have hi1 : (i 1).val < 128 := (i 1).isLt
    have hN : cfg3.N = 20 := N_3
    have ht : (i 0).val / 5000 < cfg3.N := by omega
    obtain ⟨-, -, e70, e71, -⟩ := idx_facts3 ⟨(i 0).val / 5000, ht⟩
    refine ⟨⟨(i 0).val / 5000, ht⟩, flush3_7 _, ?_⟩
    rw [mem_blk3]
    intro a
    match a with
    | ⟨0, _⟩ =>
      show win3_7.index ⟨(i 0).val / 5000, ht⟩ (0 : Fin 2) * 5000 ≤ (i 0).val ∧ (i 0).val < win3_7.index ⟨(i 0).val / 5000, ht⟩ (0 : Fin 2) * 5000 + 5000
      rw [e70]; show (i 0).val / 5000 * 5000 ≤ (i 0).val ∧ (i 0).val < (i 0).val / 5000 * 5000 + 5000; omega
    | ⟨1, _⟩ =>
      show win3_7.index ⟨(i 0).val / 5000, ht⟩ (1 : Fin 2) * 128 ≤ (i 1).val ∧ (i 1).val < win3_7.index ⟨(i 0).val / 5000, ht⟩ (1 : Fin 2) * 128 + 128
      rw [e71]; omega

end Cert.KernelIdeal.HandValue

end
-- ==== Proof.KIChain.lean ====
import proofs.«171674_j35588099015580_1_alg».proof.Proof.KIRun
import proofs.«171674_j35588099015580_1_alg».proof.Proof.KIVal0
import proofs.«171674_j35588099015580_1_alg».proof.Proof.KIVal1
import proofs.«171674_j35588099015580_1_alg».proof.Proof.KIVal2
import proofs.«171674_j35588099015580_1_alg».proof.Proof.KIVal3

/-! # The four regions' results read along @main

Between the eight boundaries of @main the buffers change in two ways: a host stretch rewrites only its own result
buffers, and a region rewrites only its output arrays. So each region's output after it is the region's specification
applied to the buffers as the region was entered — the two SAGE layers, the column sums and sums of squares, the
normalised output layer — and a buffer that an item neither computes nor has as an output is carried across it
unchanged. -/

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe
open Idealize.ShloMosaic.Pipeline (Dat)

attribute [local irreducible] Cert.Spec.colSum Cert.Spec.colSumSq Cert.Spec.sage Cert.Spec.final

variable (m : (ℓ : Loc nD τ sig) → Buf (Elt Ideal) ℓ) (ρ : Dev nD → PrngReg) (c : Dev nD)

/-! ## What each region leaves in its output -/

/-- After region 0 its output is the first SAGE layer of the buffers it was entered from. -/
theorem L1 : W2 m ρ c (Proc.devRef .tc main_v28) = Cert.Spec.sage (W1 m ρ c (Proc.devRef .tc main_v24)) (W1 m ρ c (Proc.devRef .tc main_arg0)) (W1 m ρ c (Proc.devRef .tc main_v25)) (W1 m ρ c (Proc.devRef .tc main_v26)) (W1 m ρ c (Proc.devRef .tc main_v27)) :=
  (W2_arr m ρ c 5).trans (final0 (En1 m ρ) c)

/-- After region 1 its output is the second SAGE layer of the buffers it was entered from. -/
theorem L2 : W4 m ρ c (Proc.devRef .tc main_v44) = Cert.Spec.sage (W3 m ρ c (Proc.devRef .tc main_v40)) (W3 m ρ c (Proc.devRef .tc main_v28)) (W3 m ρ c (Proc.devRef .tc main_v41)) (W3 m ρ c (Proc.devRef .tc main_v42)) (W3 m ρ c (Proc.devRef .tc main_v43)) :=
  (W4_arr m ρ c 5).trans (final1 (En3 m ρ) c)

/-- After region 2 its two outputs are the column sums and the column sums of squares of its input. -/
theorem L3a : W5 m ρ c (Proc.devRef .tc main_v45_0) = Cert.Spec.colSum (W4 m ρ c (Proc.devRef .tc main_v44)) :=
  (W5_arr m ρ c 1).trans (final2_sum (En4 m ρ) c)
theorem L3b : W5 m ρ c (Proc.devRef .tc main_v45_1) = Cert.Spec.colSumSq (W4 m ρ c (Proc.devRef .tc main_v44)) :=
  (W5_arr m ρ c 2).trans (final2_sq (En4 m ρ) c)

/-- After region 3 its output is the normalised output layer of the buffers it was entered from. -/
theorem L4 : W7 m ρ c (Proc.devRef .tc main_v60) = Cert.Spec.final (W6 m ρ c (Proc.devRef .tc main_v44)) (W6 m ρ c (Proc.devRef .tc main_v55)) (W6 m ρ c (Proc.devRef .tc main_v56)) (W6 m ρ c (Proc.devRef .tc main_v57)) (W6 m ρ c (Proc.devRef .tc main_v58)) (W6 m ρ c (Proc.devRef .tc main_v54)) (W6 m ρ c (Proc.devRef .tc main_v59)) :=
  (W7_arr m ρ c 7).trans (final3 (En6 m ρ) c)

/-! ## The buffers carried unchanged across an item -/

/-- Region 0 has none of these three among its windows. -/
theorem W2_main_v1 : W2 m ρ c (Proc.devRef .tc main_v1) = W1 m ρ c (Proc.devRef .tc main_v1) := W2_of_ne m ρ c main_v1 (by decide)
theorem W2_main_v3 : W2 m ρ c (Proc.devRef .tc main_v3) = W1 m ρ c (Proc.devRef .tc main_v3) := W2_of_ne m ρ c main_v3 (by decide)
theorem W2_main_v12 : W2 m ρ c (Proc.devRef .tc main_v12) = W1 m ρ c (Proc.devRef .tc main_v12) := W2_of_ne m ρ c main_v12 (by decide)

/-- The host stretch after region 0 does not write region 0's output. -/
theorem W3_main_v28 : W3 m ρ c (Proc.devRef .tc main_v28) = W2 m ρ c (Proc.devRef .tc main_v28) :=
  StableHlo.after_of_writes_sub hostOps1 _ hostOps1_writes (by decide)

/-- Region 2 only reads its input: an input window's array is as the region found it. -/
theorem W5_main_v44 : W5 m ρ c (Proc.devRef .tc main_v44) = W4 m ρ c (Proc.devRef .tc main_v44) :=
  (W5_arr m ρ c 0).trans (((dat2 (En4 m ρ) c).arrAt_in 0 rfl _).trans (A_eq2 (En4 m ρ) c 0))

/-- The host stretch after region 2 does not write it either. -/
theorem W6_main_v44 : W6 m ρ c (Proc.devRef .tc main_v44) = W5 m ρ c (Proc.devRef .tc main_v44) :=
  StableHlo.after_of_writes_sub hostOps3 _ hostOps3_writes (by decide)

end Cert.KernelIdeal.HandValue

end
-- ==== Proof.KerHost.lean ====
import proofs.«171674_j35588099015580_1_alg».proof.Proof.Gen.KernelIdeal
import proofs.«171674_j35588099015580_1_alg».proof.Proof.SpecSage
import proofs.«171674_j35588099015580_1_alg».proof.Proof.SpecFinal
import proofs.«171674_j35588099015580_1_alg».proof.Proof.SpecStats
import Idealize.ShloMosaic.Lib.ValueLayout
import Idealize.ShloMosaic.Lib.Pipeline.Value
import Idealize.ShloMosaic.Lib.ValueIdx
import Idealize.ShloMosaic.PureOps.Ideal.Laws

/-!
  The host operations of the program between its four regions, as named functions of what they read.

  Before the first region: the two columns of the edge list; the reciprocal of every row's in-degree raised to at
  least one (computed once, as a [100000,1] column); the summed messages times that reciprocal; the transposes of the
  two weight matrices; the bias as a row. Before the second region the same with the first layer's output in place of
  the features (the edge columns and the reciprocal column are read back, not recomputed). Before the last region:
  the two column sums divided by the count word, the mean and the mean of squares less the squared mean, each as a row.
  Each function is spelt as the operations compose, so that a stretch's result is the function of the stretch's inputs
  by unfolding alone.
-/

noncomputable section

namespace Cert.KerHost

open Cert.KernelIdeal Cert.KernelIdeal.Gen Idealize.ShloMosaic Idealize.ShloMosaic.TcCoe Idealize.SL.Sem Idealize.ShloMosaic.StableHlo

section Stretches

variable {F : FTy → Type} [FloatOps F]

/-- The source column of the edge list. -/
def kSrc (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The destination column of the edge list. -/
def kDst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The in-degree raised to at least one: ones scatter-added along the destination column into zeros, and the
    maximum with one. Carried whole. -/
def kDegMax (dst : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- One over the in-degree raised to at least one, as a [100000,1] column: the word of one divided by it. -/
def kDegInv (dst : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32)) (kDegMax dst))

/-- The summed messages: the rows gathered along the (wrapped) source column, scatter-added along the destination
    column into zeros. Carried whole. -/
def kMsg (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The mean aggregation from the features, the two edge columns and the reciprocal column: the summed messages
    times the reciprocal column spread over the 128 features. -/
def kAggOf (h : (⟨S100000x128, .f32⟩ : BufTy).Contents (Elt F)) (src dst : (⟨S1600000, .i32⟩ : BufTy).Contents (Elt F)) (dinv : (⟨S100000x1, .f32⟩ : BufTy).Contents (Elt F)) : (⟨S100000x128, .f32⟩ : BufTy).Contents (Elt F) :=
  mulf (kMsg h src dst) (broadcastInDim S100000x128 ![0, 1] bcast_S100000x1_S100000x128_0_1 dinv)

/-- The mean aggregation from the features and the edge list. -/
def kAgg (h : (⟨S100000x128, .f32⟩ : BufTy).Contents (Elt F)) (ei : (⟨S2x1600000, .i32⟩ : BufTy).Contents (Elt F)) : (⟨S100000x128, .f32⟩ : BufTy).Contents (Elt F) :=
  kAggOf h (kSrc ei) (kDst ei) (kDegInv (kDst ei))

/-- The transpose of a weight matrix. -/
def kT (w : (⟨S128x128, .f32⟩ : BufTy).Contents (Elt F)) : (⟨S128x128, .f32⟩ : BufTy).Contents (Elt F) :=
  transpose S128x128 [1, 0] w transposes_S128x128_S128x128_1_0

/-- A vector of 128 entries as a [1,128] row. -/
def kRow (b : (⟨S128, .f32⟩ : BufTy).Contents (Elt F)) : (⟨S1x128, .f32⟩ : BufTy).Contents (Elt F) :=
  shapeCast S1x128 b shapeCasts_S128_S1x128

/-- The column mean from the [1,128] row of column sums: divided by the count word. -/
def kMu (s : (⟨S1x128, .f32⟩ : BufTy).Contents (Elt F)) : (⟨S128, .f32⟩ : BufTy).Contents (Elt F) :=
  Host.divf (shapeCast S128 s shapeCasts_S1x128_S128) (broadcastInDim S128 ![] bcast_S_S128 (constant S_ .f32 0x47C35000#32))

/-- The column variance from the rows of column sums and of column sums of squares: the mean of squares less the
    square of the mean. -/
def kVar (s sq : (⟨S1x128, .f32⟩ : BufTy).Contents (Elt F)) : (⟨S128, .f32⟩ : BufTy).Contents (Elt F) :=
  subf (Host.divf (shapeCast S128 sq shapeCasts_S1x128_S128) (broadcastInDim S128 ![] bcast_S_S128 (constant S_ .f32 0x47C35000#32)))
    (mulf (kMu s) (kMu s))

end Stretches

/-! ## The stretches read at an index, on the extended reals -/

section AtIdeal

open Idealize.ShloMosaic.ValueIdx

/-- The transpose at (k, c) is the matrix at (c, k). -/
theorem kT_apply (w : (⟨S128x128, .f32⟩ : BufTy).Contents (Elt Ideal)) (k c : Fin 128) : kT (F := Ideal) w (ix2 k c) = w (ix2 c k) := by
  unfold kT
  exact transpose_apply [1, 0] w transposes_S128x128_S128x128_1_0 (ix2 k c) (ix2 c k) (fun b => match b with
    | ⟨0, _⟩ => rfl
    | ⟨1, _⟩ => rfl)

/-- The row at (0, c) is the vector at c. -/
theorem kRow_apply (b : (⟨S128, .f32⟩ : BufTy).Contents (Elt Ideal)) (u : Fin 1) (c : Fin 128) : kRow (F := Ideal) b (ix2 u c) = b (ix1 c) := by
  unfold kRow
  exact shapeCast_a_1a_apply b shapeCasts_S128_S1x128 u c

/-- The mean at c: the sum at (0, c) divided by the count word. -/
theorem kMu_apply (s : (⟨S1x128, .f32⟩ : BufTy).Contents (Elt Ideal)) (c : Fin 128) :
    kMu (F := Ideal) s (ix1 c) = Ideal.div (s (ix2 (0 : Fin 1) c)) (Ideal.ofBits .f32 0x47C35000#32) := by
  unfold kMu
  show Ideal.div (shapeCast S128 s shapeCasts_S1x128_S128 (ix1 c)) _ = _
  rw [shapeCast_1a_a_apply]
  rfl

/-- The variance at c: the sum of squares at (0, c) divided by the count word, less the square of the mean. -/
theorem kVar_apply (s sq : (⟨S1x128, .f32⟩ : BufTy).Contents (Elt Ideal)) (c : Fin 128) :
    kVar (F := Ideal) s sq (ix1 c) = Ideal.div (sq (ix2 (0 : Fin 1) c)) (Ideal.ofBits .f32 0x47C35000#32)
      - Ideal.div (s (ix2 (0 : Fin 1) c)) (Ideal.ofBits .f32 0x47C35000#32) * Ideal.div (s (ix2 (0 : Fin 1) c)) (Ideal.ofBits .f32 0x47C35000#32) := by
  unfold kVar
  show Ideal.div (shapeCast S128 sq shapeCasts_S1x128_S128 (ix1 c)) _ - kMu (F := Ideal) s (ix1 c) * kMu (F := Ideal) s (ix1 c) = _
  rw [shapeCast_1a_a_apply, kMu_apply]
  rfl

/-- A [100000] column as a [100000,1] array, at (r, 0): the column at r. -/
theorem bcastCol_apply (y : (⟨S100000, .f32⟩ : BufTy).Contents (Elt Ideal)) (r : Fin 100000) (u : Fin 1) :
    broadcastInDim S100000x1 ![0] bcast_S100000_S100000x1_0 y (ix2 r u) = y (ix1 r) :=
  broadcastInDim_apply _ bcast_S100000_S100000x1_0 y (ix2 r u) (ix1 r) (fun a => match a with
    | ⟨0, _⟩ => by show r.val = if (100000 : Nat) = 1 then 0 else r.val; rw [if_neg (by decide)])

/-- A [100000,1] array spread over 128 columns, at (r, c): the array at (r, 0). -/
theorem bcastRows_apply (y : (⟨S100000x1, .f32⟩ : BufTy).Contents (Elt Ideal)) (r : Fin 100000) (c : Fin 128) :
    broadcastInDim S100000x128 ![0, 1] bcast_S100000x1_S100000x128_0_1 y (ix2 r c) = y (ix2 r (0 : Fin 1)) :=
  broadcastInDim_apply _ bcast_S100000x1_S100000x128_0_1 y (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

end AtIdeal

/-! ## The whole program's result -/

section Total

open Cert.Spec

/-- The first layer's output: the first region's result from the first stretch's values. -/
def h1 (x : (⟨S100000x128, .f32⟩ : BufTy).Contents (Elt Ideal)) (ei : (⟨S2x1600000, .i32⟩ : BufTy).Contents (Elt Ideal)) (wl1 : (⟨S128x128, .f32⟩ : BufTy).Contents (Elt Ideal)) (bl1 : (⟨S128, .f32⟩ : BufTy).Contents (Elt Ideal))
    (wr1 : (⟨S128x128, .f32⟩ : BufTy).Contents (Elt Ideal)) : SN.Idx → EReal :=
  sage (kAgg (F := Ideal) x ei) x (kT (F := Ideal) wl1) (kT (F := Ideal) wr1) (kRow (F := Ideal) bl1)

/-- The second layer's output. -/
def h2 (x : (⟨S100000x128, .f32⟩ : BufTy).Contents (Elt Ideal)) (ei : (⟨S2x1600000, .i32⟩ : BufTy).Contents (Elt Ideal)) (wl1 : (⟨S128x128, .f32⟩ : BufTy).Contents (Elt Ideal)) (bl1 : (⟨S128, .f32⟩ : BufTy).Contents (Elt Ideal))
    (wr1 wl2 : (⟨S128x128, .f32⟩ : BufTy).Contents (Elt Ideal)) (bl2 : (⟨S128, .f32⟩ : BufTy).Contents (Elt Ideal)) (wr2 : (⟨S128x128, .f32⟩ : BufTy).Contents (Elt Ideal)) : SN.Idx → EReal :=
  sage (kAgg (F := Ideal) (h1 x ei wl1 bl1 wr1) ei) (h1 x ei wl1 bl1 wr1) (kT (F := Ideal) wl2) (kT (F := Ideal) wr2) (kRow (F := Ideal) bl2)

/-- The last region's result from a second-layer output h: normalised with the mean and variance the two column sums
    give, scaled, shifted, and mapped by the last linear layer. -/
def finalOf (h : SN.Idx → EReal) (gamma beta : (⟨S128, .f32⟩ : BufTy).Contents (Elt Ideal)) (fcW : (⟨S128x128, .f32⟩ : BufTy).Contents (Elt Ideal)) (fcb : (⟨S128, .f32⟩ : BufTy).Contents (Elt Ideal)) : SN.Idx → EReal :=
  final h (kRow (F := Ideal) (kMu (F := Ideal) (colSum h))) (kRow (F := Ideal) (kVar (F := Ideal) (colSum h) (colSumSq h)))
    (kRow (F := Ideal) gamma) (kRow (F := Ideal) beta) (kT (F := Ideal) fcW) (kRow (F := Ideal) fcb)

/-- The program's result as one function of the twelve arguments. -/
def total (x : (⟨S100000x128, .f32⟩ : BufTy).Contents (Elt Ideal)) (ei : (⟨S2x1600000, .i32⟩ : BufTy).Contents (Elt Ideal)) (wl1 : (⟨S128x128, .f32⟩ : BufTy).Contents (Elt Ideal)) (bl1 : (⟨S128, .f32⟩ : BufTy).Contents (Elt Ideal))
    (wr1 wl2 : (⟨S128x128, .f32⟩ : BufTy).Contents (Elt Ideal)) (bl2 : (⟨S128, .f32⟩ : BufTy).Contents (Elt Ideal)) (wr2 : (⟨S128x128, .f32⟩ : BufTy).Contents (Elt Ideal)) (gamma beta : (⟨S128, .f32⟩ : BufTy).Contents (Elt Ideal))
    (fcW : (⟨S128x128, .f32⟩ : BufTy).Contents (Elt Ideal)) (fcb : (⟨S128, .f32⟩ : BufTy).Contents (Elt Ideal)) : SN.Idx → EReal :=
  finalOf (h2 x ei wl1 bl1 wr1 wl2 bl2 wr2) gamma beta fcW fcb

end Total

end Cert.KerHost

end
-- ==== Proof.KerHost0.lean ====
import proofs.«171674_j35588099015580_1_alg».proof.Proof.KerHost
import proofs.«171674_j35588099015580_1_alg».proof.Proof.Gen.KernelIdeal.Launch
import Idealize.ShloMosaic.Lib.StableHlo.Run
import Idealize.ShloMosaic.Lib.Tactic

/-! # The host operations before the first layer, read at the arrays the kernels take

From any contents `W` of the buffers, after the 35 operations: the aggregated features are the mean aggregation of
the node features along the edge list; the two weight operands are the transposes of the layer's weight matrices; the
bias operand is the bias as a [1,128] row; and the three arrays the second layer's aggregation reuses are the source
column, the destination column and the reciprocal in-degree column. Each is the chain of operations that writes it,
folded into the named functions. -/

set_option maxRecDepth 16384

noncomputable section

namespace Cert.KerHost

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F] (W : Valuation τ sig (Elt F))

/-- The first weight operand is the transpose of the first weight matrix. -/
theorem h0_v25 : StableHlo.after hostOps0 W (Proc.devRef .tc main_v25) = kT (W (Proc.devRef .tc main_arg2)) := by
  after_results; rfl

/-- The second weight operand is the transpose of the second weight matrix. -/
theorem h0_v26 : StableHlo.after hostOps0 W (Proc.devRef .tc main_v26) = kT (W (Proc.devRef .tc main_arg4)) := by
  after_results; rfl

/-- The bias operand is the bias vector as a row. -/
theorem h0_v27 : StableHlo.after hostOps0 W (Proc.devRef .tc main_v27) = kRow (W (Proc.devRef .tc main_arg3)) := by
  after_results; rfl

/-- The source column of the edge list. -/
theorem h0_v1 : StableHlo.after hostOps0 W (Proc.devRef .tc main_v1) = kSrc (W (Proc.devRef .tc main_arg1)) := by
  after_results; rfl

/-- The destination column of the edge list. -/
theorem h0_v3 : StableHlo.after hostOps0 W (Proc.devRef .tc main_v3) = kDst (W (Proc.devRef .tc main_arg1)) := by
  after_results; rfl

/-- The reciprocal in-degree column, from the destination column. -/
theorem h0_v12 : StableHlo.after hostOps0 W (Proc.devRef .tc main_v12) = kDegInv (kDst (W (Proc.devRef .tc main_arg1))) := by
  after_results_simp <;> rfl

/-- The first layer's aggregated features: the mean aggregation of the node features along the edge list. -/
theorem h0_v24 : StableHlo.after hostOps0 W (Proc.devRef .tc main_v24)
    = kAgg (W (Proc.devRef .tc main_arg0)) (W (Proc.devRef .tc main_arg1)) := by
  after_results_simp <;> rfl

end Cert.KerHost

end
-- ==== Proof.KerHost1.lean ====
import proofs.«171674_j35588099015580_1_alg».proof.Proof.KerHost
import proofs.«171674_j35588099015580_1_alg».proof.Proof.Gen.KernelIdeal.Launch
import Idealize.ShloMosaic.Lib.StableHlo.Run
import Idealize.ShloMosaic.Lib.Tactic

/-! # The host operations between the two layers, read at the arrays the second kernel call takes

From any contents `W` of the buffers, after the 18 operations: the aggregated features are the mean aggregation of
the first layer's output along the two edge columns with the reciprocal in-degree column already computed; the two
weight operands are transposes of the second layer's weight matrices; the bias operand is its bias as a row. -/

set_option maxRecDepth 16384

noncomputable section

namespace Cert.KerHost

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F] (W : Valuation τ sig (Elt F))

/-- The second layer's aggregated features, from the first layer's output and the three arrays kept from before it. -/
theorem h1_v40 : StableHlo.after hostOps1 W (Proc.devRef .tc main_v40)
    = kAggOf (W (Proc.devRef .tc main_v28)) (W (Proc.devRef .tc main_v1)) (W (Proc.devRef .tc main_v3)) (W (Proc.devRef .tc main_v12)) := by
  after_results_simp <;> rfl

/-- The first weight operand is the transpose of the layer's first weight matrix. -/
theorem h1_v41 : StableHlo.after hostOps1 W (Proc.devRef .tc main_v41) = kT (W (Proc.devRef .tc main_arg5)) := by
  after_results; rfl

/-- The second weight operand is the transpose of the layer's second weight matrix. -/
theorem h1_v42 : StableHlo.after hostOps1 W (Proc.devRef .tc main_v42) = kT (W (Proc.devRef .tc main_arg7)) := by
  after_results; rfl

/-- The bias operand is the bias vector as a row. -/
theorem h1_v43 : StableHlo.after hostOps1 W (Proc.devRef .tc main_v43) = kRow (W (Proc.devRef .tc main_arg6)) := by
  after_results; rfl

end Cert.KerHost

end
-- ==== Proof.KerHost3.lean ====
import proofs.«171674_j35588099015580_1_alg».proof.Proof.KerHost
import proofs.«171674_j35588099015580_1_alg».proof.Proof.Gen.KernelIdeal.Launch
import Idealize.ShloMosaic.Lib.StableHlo.Run
import Idealize.ShloMosaic.Lib.Tactic

/-! # The host operations before the last kernel call, read at the arrays it takes

From any contents `W` of the buffers, after the 16 operations: the mean row is the column sums divided by the count;
the variance row is the mean of squares less the square of the mean; the weight operand is the transpose of the final
weight matrix; and the scale, shift and final bias operands are those vectors as rows. -/

set_option maxRecDepth 16384

noncomputable section

namespace Cert.KerHost

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F] (W : Valuation τ sig (Elt F))

/-- The mean, as a row, from the row of column sums. -/
theorem h3_v55 : StableHlo.after hostOps3 W (Proc.devRef .tc main_v55) = kRow (kMu (W (Proc.devRef .tc main_v45_0))) := by
  after_results; rfl

/-- The variance, as a row, from the rows of column sums and of column sums of squares. -/
theorem h3_v56 : StableHlo.after hostOps3 W (Proc.devRef .tc main_v56)
    = kRow (kVar (W (Proc.devRef .tc main_v45_0)) (W (Proc.devRef .tc main_v45_1))) := by
  after_results; rfl

/-- The weight operand is the transpose of the final weight matrix. -/
theorem h3_v54 : StableHlo.after hostOps3 W (Proc.devRef .tc main_v54) = kT (W (Proc.devRef .tc main_arg10)) := by
  after_results; rfl

/-- The scale vector as a row. -/
theorem h3_v57 : StableHlo.after hostOps3 W (Proc.devRef .tc main_v57) = kRow (W (Proc.devRef .tc main_arg8)) := by
  after_results; rfl

/-- The shift vector as a row. -/
theorem h3_v58 : StableHlo.after hostOps3 W (Proc.devRef .tc main_v58) = kRow (W (Proc.devRef .tc main_arg9)) := by
  after_results; rfl

/-- The final bias vector as a row. -/
theorem h3_v59 : StableHlo.after hostOps3 W (Proc.devRef .tc main_v59) = kRow (W (Proc.devRef .tc main_arg11)) := by
  after_results; rfl

end Cert.KerHost

end
-- ==== Proof.KIChain2.lean ====
import proofs.«171674_j35588099015580_1_alg».proof.Proof.KIChain
import proofs.«171674_j35588099015580_1_alg».proof.Proof.KerHost
import proofs.«171674_j35588099015580_1_alg».proof.Proof.KerHost0
import proofs.«171674_j35588099015580_1_alg».proof.Proof.KerHost1
import proofs.«171674_j35588099015580_1_alg».proof.Proof.KerHost3

/-! # The program's result as one function of its twelve arguments

Reading the regions' results along @main (each region's output is its specification of the buffers it was entered from)
and the host stretches between them (each result buffer is a named function of the buffers before the stretch), the
last region's output is the normalised output layer of the second SAGE layer's output, whose inputs are in turn the
first layer's output and the mean aggregation of it, down to the twelve arguments. -/

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe
open Idealize.ShloMosaic.Pipeline (Dat)
open Cert.KerHost

attribute [local irreducible] Cert.Spec.colSum Cert.Spec.colSumSq Cert.Spec.sage Cert.Spec.final

variable (m : (ℓ : Loc nD τ sig) → Buf (Elt Ideal) ℓ) (ρ : Dev nD → PrngReg) (c : Dev nD)

/-- After region 0 its output is the first layer's output as a function of the arguments. -/
theorem chain_h1 : W2 m ρ c (Proc.devRef .tc main_v28) = Cert.KerHost.h1 (m ((c : Thread nD τ).loc main_arg0)) (m ((c : Thread nD τ).loc main_arg1)) (m ((c : Thread nD τ).loc main_arg2)) (m ((c : Thread nD τ).loc main_arg3)) (m ((c : Thread nD τ).loc main_arg4)) := by
  have a24 : W1 m ρ c (Proc.devRef .tc main_v24) = kAgg (F := Ideal) (m ((c : Thread nD τ).loc main_arg0)) (m ((c : Thread nD τ).loc main_arg1)) := h0_v24 (W0 m ρ c)
  have a25 : W1 m ρ c (Proc.devRef .tc main_v25) = kT (F := Ideal) (m ((c : Thread nD τ).loc main_arg2)) := h0_v25 (W0 m ρ c)
  have a26 : W1 m ρ c (Proc.devRef .tc main_v26) = kT (F := Ideal) (m ((c : Thread nD τ).loc main_arg4)) := h0_v26 (W0 m ρ c)
  have a27 : W1 m ρ c (Proc.devRef .tc main_v27) = kRow (F := Ideal) (m ((c : Thread nD τ).loc main_arg3)) := h0_v27 (W0 m ρ c)
  rw [L1 m ρ c, a24, W1_main_arg0 m ρ c, a25, a26, a27]
  rfl

/-- After region 1 its output is the second layer's output as a function of the arguments. -/
theorem chain_h2 : W4 m ρ c (Proc.devRef .tc main_v44) = Cert.KerHost.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have a1 : W1 m ρ c (Proc.devRef .tc main_v1) = kSrc (F := Ideal) (m ((c : Thread nD τ).loc main_arg1)) := h0_v1 (W0 m ρ c)
  have a3 : W1 m ρ c (Proc.devRef .tc main_v3) = kDst (F := Ideal) (m ((c : Thread nD τ).loc main_arg1)) := h0_v3 (W0 m ρ c)
  have a12 : W1 m ρ c (Proc.devRef .tc main_v12) = kDegInv (F := Ideal) (kDst (F := Ideal) (m ((c : Thread nD τ).loc main_arg1))) := h0_v12 (W0 m ρ c)
  have b40 : W3 m ρ c (Proc.devRef .tc main_v40) = kAggOf (F := Ideal) (W2 m ρ c (Proc.devRef .tc main_v28)) (W2 m ρ c (Proc.devRef .tc main_v1)) (W2 m ρ c (Proc.devRef .tc main_v3)) (W2 m ρ c (Proc.devRef .tc main_v12)) := h1_v40 (W2 m ρ c)
  have b41 : W3 m ρ c (Proc.devRef .tc main_v41) = kT (F := Ideal) (W2 m ρ c (Proc.devRef .tc main_arg5)) := h1_v41 (W2 m ρ c)
  have b42 : W3 m ρ c (Proc.devRef .tc main_v42) = kT (F := Ideal) (W2 m ρ c (Proc.devRef .tc main_arg7)) := h1_v42 (W2 m ρ c)
  have b43 : W3 m ρ c (Proc.devRef .tc main_v43) = kRow (F := Ideal) (W2 m ρ c (Proc.devRef .tc main_arg6)) := h1_v43 (W2 m ρ c)
  rw [L2 m ρ c, b40, W3_main_v28 m ρ c, chain_h1 m ρ c, W2_main_v1 m ρ c, a1, W2_main_v3 m ρ c, a3, W2_main_v12 m ρ c, a12,
    b41, W2_main_arg5 m ρ c, b42, W2_main_arg7 m ρ c, b43, W2_main_arg6 m ρ c]
  rfl

/-- THE RESULT: the last region's output is the program's result as one function of the twelve arguments. -/
theorem chain : W7 m ρ c (Proc.devRef .tc main_v60) = Cert.KerHost.total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have c55 : W6 m ρ c (Proc.devRef .tc main_v55) = kRow (F := Ideal) (kMu (F := Ideal) (W5 m ρ c (Proc.devRef .tc main_v45_0))) := h3_v55 (W5 m ρ c)
  have c56 : W6 m ρ c (Proc.devRef .tc main_v56) = kRow (F := Ideal) (kVar (F := Ideal) (W5 m ρ c (Proc.devRef .tc main_v45_0)) (W5 m ρ c (Proc.devRef .tc main_v45_1))) := h3_v56 (W5 m ρ c)
  have c54 : W6 m ρ c (Proc.devRef .tc main_v54) = kT (F := Ideal) (W5 m ρ c (Proc.devRef .tc main_arg10)) := h3_v54 (W5 m ρ c)
  have c57 : W6 m ρ c (Proc.devRef .tc main_v57) = kRow (F := Ideal) (W5 m ρ c (Proc.devRef .tc main_arg8)) := h3_v57 (W5 m ρ c)
  have c58 : W6 m ρ c (Proc.devRef .tc main_v58) = kRow (F := Ideal) (W5 m ρ c (Proc.devRef .tc main_arg9)) := h3_v58 (W5 m ρ c)
  have c59 : W6 m ρ c (Proc.devRef .tc main_v59) = kRow (F := Ideal) (W5 m ρ c (Proc.devRef .tc main_arg11)) := h3_v59 (W5 m ρ c)
  rw [L4 m ρ c, W6_main_v44 m ρ c, W5_main_v44 m ρ c, c55, c56, L3a m ρ c, L3b m ρ c, chain_h2 m ρ c,
    c57, W5_main_arg8 m ρ c, c58, W5_main_arg9 m ρ c, c54, W5_main_arg10 m ρ c, c59, W5_main_arg11 m ρ c]
  rfl

end Cert.KernelIdeal.HandValue

end
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.Finite.lean ====
/- From the precondition to real entries. The precondition says that, of each of the eleven float argument arrays, every
   entry x has |x| = max(x, −x) below the single-precision word of +∞, all these tests joined by "and" into one bit that
   is 1. An "and" that is 1 has both operands 1; a reduction by "and" over all axes that is 1 met a 1 at every index;
   and an extended real whose absolute value is below +∞ is a real number. -/
import proofs.«171674_j35588099015580_1_alg».proof.Defs
import proofs.«171674_j35588099015580_1_alg».proof.Proof.LibStraightThrough
import Idealize.ShloMosaic.Lib.ReduceAll
import Idealize.ShloMosaic.Lib.ValueIdx

noncomputable section

namespace Cert.Finite

open Idealize.ShloMosaic Idealize.ShloMosaic.TcCoe

/-- The shape with no axis has one index. -/
theorem subsingleton_scalar : Subsingleton Cert.Pre_finite_inputs.S_.Idx := ⟨fun a b => funext fun d => d.elim0⟩

/-- One entry's test: if |X i| compares below the word of +∞ broadcast over the shape, then X i is a real number. -/
theorem real_of_test {S : Shape} (X : FVec Ideal S .f32) (bc : Cert.Pre_finite_inputs.S_.BroadcastsInDim S (![] : Fin 0 → Fin S.rank)) (i : S.Idx)
    (h : cmpf .olt (Host.absf X) (broadcastInDim S ![] bc (constant (F := Ideal) Cert.Pre_finite_inputs.S_ .f32 0x7F800000#32)) i = 1#1) :
    ∃ r : ℝ, X i = (r : EReal) :=
  Cert.LibStraightThrough.real_of_abs_lt_inf (X i) h

/-- One array's test: the "and" of its entries' tests over all axes is 1, so every entry is a real number. -/
theorem real_of_all [hP : Cert.Pre_finite_inputs.Facts] {S : Shape} {axes : List (Fin S.rank)} (X : FVec Ideal S .f32)
    (bc : Cert.Pre_finite_inputs.S_.BroadcastsInDim S (![] : Fin 0 → Fin S.rank)) (hr : S.ReducesTo axes Cert.Pre_finite_inputs.S_)
    (e : Host.reduce IntOp.andi (cmpf .olt (Host.absf X) (broadcastInDim S ![] bc (constant (F := Ideal) Cert.Pre_finite_inputs.S_ .f32 0x7F800000#32)))
        (constantI Cert.Pre_finite_inputs.S_ 1 1#1) hr Cert.Pre_finite_inputs.Facts.h_S_ ValueIdx.ix0 = 1#1) (i : S.Idx) :
    ∃ r : ℝ, X i = (r : EReal) :=
  haveI := subsingleton_scalar
  real_of_test X bc i (Host.reduce_andi_all _ _ hr _ ValueIdx.ix0 e i)

/-- Under the precondition every entry of each of the eleven float arguments is a real number (the integer argument,
    the edge list, has no test). -/
theorem of_pre [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg4) i = (x : EReal))
    ∧ (∀ i, ∃ x : ℝ, m ((c.tc : Thread Cert.KernelIdeal.nD Cert.KernelIdeal.τ).loc Cert.KernelIdeal.main_arg5) i = (x : EReal))
    ∧ (∀ i, ∃ x : ℝ, m ((c.tc : Thread Cert.KernelIdeal.nD Cert.KernelIdeal.τ).loc Cert.KernelIdeal.main_arg6) i = (x : EReal))
    ∧ (∀ i, ∃ x : ℝ, m ((c.tc : Thread Cert.KernelIdeal.nD Cert.KernelIdeal.τ).loc Cert.KernelIdeal.main_arg7) i = (x : EReal))
    ∧ (∀ i, ∃ x : ℝ, m ((c.tc : Thread Cert.KernelIdeal.nD Cert.KernelIdeal.τ).loc Cert.KernelIdeal.main_arg8) i = (x : EReal))
    ∧ (∀ i, ∃ x : ℝ, m ((c.tc : Thread Cert.KernelIdeal.nD Cert.KernelIdeal.τ).loc Cert.KernelIdeal.main_arg9) i = (x : EReal))
    ∧ (∀ i, ∃ x : ℝ, m ((c.tc : Thread Cert.KernelIdeal.nD Cert.KernelIdeal.τ).loc Cert.KernelIdeal.main_arg10) i = (x : EReal))
    ∧ (∀ i, ∃ x : ℝ, m ((c.tc : Thread Cert.KernelIdeal.nD Cert.KernelIdeal.τ).loc Cert.KernelIdeal.main_arg11) i = (x : EReal)) := by
  have h0 := congrFun (h c) ValueIdx.ix0
  dsimp only [Cert.Pre_finite_inputs.fn, Cert.Pre_finite_inputs.fn_part1, Cert.Pre_finite_inputs.fn_part2, Cert.Pre_finite_inputs.fn_part3] at h0
  simp only [andi, IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨fun i => real_of_all _ _ _ e0 i,
    fun i => real_of_all _ _ _ e2 i,
    fun i => real_of_all _ _ _ e3 i,
    fun i => real_of_all _ _ _ e4 i,
    fun i => real_of_all _ _ _ e5 i,
    fun i => real_of_all _ _ _ e6 i,
    fun i => real_of_all _ _ _ e7 i,
    fun i => real_of_all _ _ _ e8 i,
    fun i => real_of_all _ _ _ e9 i,
    fun i => real_of_all _ _ _ e10 i,
    fun i => real_of_all _ _ _ e11 i⟩

end Cert.Finite

end
-- ==== Proof.RefSpec.lean ====
import proofs.«171674_j35588099015580_1_alg».proof.Proof.Gen.ReferenceIdeal.Run
import proofs.«171674_j35588099015580_1_alg».proof.Proof.Gen.ReferenceIdeal.Read

/-!
  The reference program's result as one function of its twelve argument arrays: the definitions.

  Two pieces of the program are carried as opaque functions of their inputs, never opened: the messages summed at
  their destination rows (a gather along the source column of the edge list followed by a scatter-add along the
  destination column) and the in-degree of every row raised to at least one. Everything else is read index by index:
  a graph layer is  max((Σ_k agg(r,k)·Wl(c,k) + bl(c)) + Σ_k h(r,k)·Wr(c,k), 0)  with agg the summed messages
  DIVIDED by the raised degree; the column mean and the column mean of squared deviations divide a sum over the
  100000 rows by the count word; the result normalises, scales, shifts and applies the last linear map.
-/

noncomputable section

namespace Cert.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- A [100000,128] array of extended reals. -/
abbrev Arr : Type := (⟨S100000x128, .f32⟩ : BufTy).Contents (Elt Ideal)
/-- A [128,128] matrix. -/
abbrev Mat : Type := (⟨S128x128, .f32⟩ : BufTy).Contents (Elt Ideal)
/-- A vector of 128 entries. -/
abbrev Vec : Type := (⟨S128, .f32⟩ : BufTy).Contents (Elt Ideal)
/-- The edge list: two rows of 1600000 integers (sources, destinations). -/
abbrev Edges : Type := (⟨S2x1600000, .i32⟩ : BufTy).Contents (Elt Ideal)

/-! ## The two opaque pieces -/

/-- The messages summed at their destination rows: row d of the result is the sum of the rows h[src(e)] over the
    edges e with dst(e) = d. Carried whole. -/
def msg (h : Arr) (ei : Edges) : Arr :=
  Host.scatterAdd (F := Ideal) (φ := .f32) scatter_S100000x128_S1600000x1_S1600000x128_1_0_0_1 (val_main_v11 (F := Ideal)) (val_main_v12 (F := Ideal) ei)
    (Host.gather gather_S100000x128_S1600000x1_S1600000x128_1_0_n_n_0_1_1128 h (val_main_v9 (F := Ideal) ei))

/-- The in-degree of every row, raised to at least one. Carried whole. -/
def degMax (ei : Edges) : (⟨S100000, .f32⟩ : BufTy).Contents (Elt Ideal) := val_main_v19 (F := Ideal) ei

/-! ## The result, index by index -/

/-- The mean aggregation as the reference computes it: the summed messages divided by the raised degree of the row. -/
def agg (h : Arr) (ei : Edges) : Arr := fun i => Ideal.div (msg h ei i) (degMax ei (ix1 (i 0)))

/-- A graph layer at row r, column c. -/
def layerAt (a h : Arr) (wl : Mat) (bl : Vec) (wr : Mat) (r : Fin 100000) (c : Fin 128) : EReal :=
  max ((∑ k : Fin 128, a (ix2 r k) * wl (ix2 c k)) + bl (ix1 c) + ∑ k : Fin 128, h (ix2 r k) * wr (ix2 c k))
    (Ideal.ofBits .f32 0x00000000#32)

/-- A graph layer. -/
def layer (a h : Arr) (wl : Mat) (bl : Vec) (wr : Mat) : Arr := fun i => layerAt a h wl bl wr (i 0) (i 1)

/-- The mean of column c: the sum over the rows, started at the zero word, divided by the count word. -/
def colMean (h : Arr) (c : Fin 128) : EReal :=
  Ideal.div (Ideal.ofBits .f32 0x00000000#32 + ∑ r : Fin 100000, h (ix2 r c)) (Ideal.ofBits .f32 0x47C35000#32)

/-- The mean of the squared deviations of column c from its mean. -/
def colVar (h : Arr) (c : Fin 128) : EReal :=
  Ideal.div (Ideal.ofBits .f32 0x00000000#32 + ∑ r : Fin 100000, (h (ix2 r c) - colMean h c) * (h (ix2 r c) - colMean h c))
    (Ideal.ofBits .f32 0x47C35000#32)

/-- The result at row r, column c from the second layer's output, a mean and a variance per column. -/
def outAt (h : Arr) (mu var : Fin 128 → EReal) (gamma beta : Vec) (fcW : Mat) (fcb : Vec) (r : Fin 100000) (c : Fin 128) : EReal :=
  (∑ k : Fin 128, ((h (ix2 r k) - mu k) * Ideal.rsqrt (var k + Ideal.ofBits .f32 0x3727C5AC#32) * gamma (ix1 k) + beta (ix1 k))
      * fcW (ix2 c k)) + fcb (ix1 c)

/-- The result from the second layer's output. -/
def out (h : Arr) (gamma beta : Vec) (fcW : Mat) (fcb : Vec) : Arr :=
  fun i => outAt h (colMean h) (colVar h) gamma beta fcW fcb (i 0) (i 1)

/-- The reference's result as one function of the twelve arguments. -/
def G (x : Arr) (ei : Edges) (wl1 : Mat) (bl1 : Vec) (wr1 wl2 : Mat) (bl2 : Vec) (wr2 : Mat) (gamma beta : Vec) (fcW : Mat) (fcb : Vec) : Arr :=
  out (layer (agg (layer (agg x ei) x wl1 bl1 wr1) ei) (layer (agg x ei) x wl1 bl1 wr1) wl2 bl2 wr2) gamma beta fcW fcb

end Cert.Ref

end
-- ==== Proof.Ref.lean ====
import proofs.«171674_j35588099015580_1_alg».proof.Proof.RefSpec

/-!
  The reference program's run ends with its result buffer at G of the twelve argument arrays.

  Every stage of the program is first read over arbitrary arrays (a product with a transposed matrix, a vector spread
  over the rows, a column sum started at the zero word, a quotient by the count word, …); the program's own composition
  of the stages is then the composition of these by unfolding alone, and the index formulas of the definitions follow
  stage by stage. The two opaque pieces (the summed messages, the raised in-degree) are never opened.
-/

noncomputable section

namespace Cert.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The stages over arbitrary arrays -/

/-- The program's quotient of two arrays, at an index: the extended reals' division of the entries. -/
theorem divf_at (A B : Arr) (i : S100000x128.Idx) : Host.divf (F := Ideal) (φ := .f32) A B i = Ideal.div (A i) (B i) := rfl

/-- Every row of M divided by the raised degree of the row, as the program does it. -/
def aggOf (M : Arr) (ei : Edges) : Arr := Host.divf (F := Ideal) (φ := .f32) M (val_main_v21 (F := Ideal) ei)

/-- The row coordinate of an index of the [100000,128] array, as the raised degree is read. -/
theorem row_idx (p : Fin 100000) (q : Fin 128) : idx_main_v20 (idx_main_v21 (ix2 p q)) = ix1 p :=
  funext fun a => Fin.ext (by match a with | ⟨0, _⟩ => rfl)

theorem aggOf_apply (M : Arr) (ei : Edges) (p : Fin 100000) (q : Fin 128) :
    aggOf M ei (ix2 p q) = Ideal.div (M (ix2 p q)) (degMax ei (ix1 p)) := by
  have h1 : val_main_v21 (F := Ideal) ei (ix2 p q) = val_main_v19 (F := Ideal) ei (ix1 p) :=
    (val_main_v21_apply ei (ix2 p q)).trans ((val_main_v20_apply ei _).trans
      (congrArg (val_main_v19 (F := Ideal) ei) (row_idx p q)))
  unfold aggOf degMax
  rw [← h1]
  generalize val_main_v21 (F := Ideal) ei = V
  exact divf_at M V (ix2 p q)

theorem aggOf_msg (h : Arr) (ei : Edges) : aggOf (msg h ei) ei = agg h ei := by
  funext i
  obtain ⟨p, q, rfl⟩ : ∃ (p : Fin 100000) (q : Fin 128), i = ix2 p q := ⟨i 0, i 1, eq_ix2 i⟩
  rw [aggOf_apply]
  unfold agg
  generalize msg h ei = M
  generalize degMax ei = D
  exact rfl

/-- The product of an array with the transpose of a matrix, at (p, q): Σ_k A(p,k)·W(q,k). -/
theorem dot_apply (A : Arr) (W : Mat) (p : Fin 100000) (q : Fin 128) :
    val_main_v29 (F := Ideal) A W (ix2 p q) = ∑ k : Fin 128, A (ix2 p k) * W (ix2 q k) := by
  rw [val_main_v29_apply]
  refine Finset.sum_congr rfl fun k _ => ?_
  rw [val_main_v28_apply]
  exact congrArg₂ (· * ·) (congrArg A (funext fun a => by match a with | ⟨0, _⟩ => rfl | ⟨1, _⟩ => rfl))
    (congrArg W (funext fun a => by match a with | ⟨0, _⟩ => rfl | ⟨1, _⟩ => rfl))

/-- A vector spread over the rows, at (p, q): the vector at q. -/
theorem rows_apply (b : Vec) (p : Fin 100000) (q : Fin 128) : val_main_v26 (F := Ideal) b (ix2 p q) = b (ix1 q) := by
  rw [val_main_v26_apply, val_main_v25_apply]
  exact congrArg b (funext fun a => by match a with | ⟨0, _⟩ => rfl)

/-- The array of zero words. -/
theorem zeros_apply (i : S100000x128.Idx) : val_main_call0_v0 (F := Ideal) i = Ideal.ofBits .f32 0x00000000#32 := by
  rw [val_main_call0_v0_apply, val_main_call0_cst_apply]
  rfl

/-- A graph layer as the program composes it. -/
def layerOf (A H : Arr) (Wl : Mat) (b : Vec) (Wr : Mat) : Arr :=
  maximumf (F := Ideal) (φ := .f32)
    (addf (addf (val_main_v29 (F := Ideal) A Wl) (val_main_v26 (F := Ideal) b)) (val_main_v29 (F := Ideal) H Wr))
    (val_main_call0_v0 (F := Ideal))

theorem layerOf_eq (A H : Arr) (Wl : Mat) (b : Vec) (Wr : Mat) : layerOf A H Wl b Wr = layer A H Wl b Wr := by
  funext i
  obtain ⟨p, q, rfl⟩ : ∃ (p : Fin 100000) (q : Fin 128), i = ix2 p q := ⟨i 0, i 1, eq_ix2 i⟩
  show max ((val_main_v29 (F := Ideal) A Wl (ix2 p q) + val_main_v26 (F := Ideal) b (ix2 p q)) + val_main_v29 (F := Ideal) H Wr (ix2 p q))
      (val_main_call0_v0 (F := Ideal) (ix2 p q)) = layerAt A H Wl b Wr p q
  rw [dot_apply, dot_apply, rows_apply, zeros_apply]
  rfl

/-- The column sums of an array, started at the zero word. -/
def sumOf (H : Arr) : Vec :=
  Host.reduceAdd (F := Ideal) (φ := .f32) H (val_main_cst_10 (F := Ideal)) reducesTo_S100000x128_S128_d0 h_S_

theorem sumOf_apply (H : Arr) (c : Fin 128) :
    sumOf H (ix1 c) = Ideal.ofBits .f32 0x00000000#32 + ∑ r : Fin 100000, H (ix2 r c) := by
  unfold sumOf
  simp only [Host.reduceAdd, Ideal.hostReduceAdd_def]
  rw [Ideal.hostReduceAdd_single reducesTo_S100000x128_S128_d0 (by decide)]
  refine congrArg (_ + ·) (Finset.sum_congr rfl fun k _ => ?_)
  exact congrArg H (funext fun a => Fin.ext (by match a with | ⟨0, _⟩ => rfl | ⟨1, _⟩ => rfl))

/-- A vector of sums divided by the count word. -/
def meanOf (S : Vec) : Vec := Host.divf (F := Ideal) (φ := .f32) S (val_main_v61 (F := Ideal))

theorem meanOf_apply (S : Vec) (c : Fin 128) :
    meanOf S (ix1 c) = Ideal.div (S (ix1 c)) (Ideal.ofBits .f32 0x47C35000#32) := by
  unfold meanOf
  show Ideal.div (S (ix1 c)) (val_main_v61 (F := Ideal) (ix1 c)) = _
  rw [val_main_v61_apply, val_main_cst_11_apply]
  rfl

/-- The squared deviations of an array from a vector spread over the rows. -/
def devSq (H : Arr) (mu : Vec) : Arr :=
  mulf (F := Ideal) (φ := .f32) (subf H (val_main_v26 (F := Ideal) mu)) (subf H (val_main_v26 (F := Ideal) mu))

theorem devSq_apply (H : Arr) (mu : Vec) (p : Fin 100000) (q : Fin 128) :
    devSq H mu (ix2 p q) = (H (ix2 p q) - mu (ix1 q)) * (H (ix2 p q) - mu (ix1 q)) := by
  show (H (ix2 p q) - val_main_v26 (F := Ideal) mu (ix2 p q)) * (H (ix2 p q) - val_main_v26 (F := Ideal) mu (ix2 p q)) = _
  rw [rows_apply]

/-- The normalised, scaled and shifted array as the program composes it. -/
def normOf (H : Arr) (mu var gamma beta : Vec) : Arr :=
  addf (F := Ideal) (φ := .f32)
    (mulf (mulf (subf H (val_main_v26 (F := Ideal) mu)) (val_main_v26 (F := Ideal) (Host.rsqrt (F := Ideal) (φ := .f32) (addf var (val_main_v73 (F := Ideal))))))
      (val_main_v26 (F := Ideal) gamma))
    (val_main_v26 (F := Ideal) beta)

theorem normOf_apply (H : Arr) (mu var gamma beta : Vec) (p : Fin 100000) (k : Fin 128) :
    normOf H mu var gamma beta (ix2 p k)
      = (H (ix2 p k) - mu (ix1 k)) * Ideal.rsqrt (var (ix1 k) + Ideal.ofBits .f32 0x3727C5AC#32) * gamma (ix1 k) + beta (ix1 k) := by
  show (H (ix2 p k) - val_main_v26 (F := Ideal) mu (ix2 p k))
      * val_main_v26 (F := Ideal) (Host.rsqrt (F := Ideal) (φ := .f32) (addf var (val_main_v73 (F := Ideal)))) (ix2 p k)
      * val_main_v26 (F := Ideal) gamma (ix2 p k) + val_main_v26 (F := Ideal) beta (ix2 p k) = _
  rw [rows_apply, rows_apply, rows_apply, rows_apply]
  show _ * Ideal.rsqrt (var (ix1 k) + val_main_v73 (F := Ideal) (ix1 k)) * _ + _ = _
  rw [val_main_v73_apply, val_main_cst_14_apply]
  rfl

/-- The last linear map as the program composes it. -/
def outOf (H : Arr) (mu var gamma beta : Vec) (W : Mat) (fb : Vec) : Arr :=
  addf (F := Ideal) (φ := .f32) (val_main_v29 (F := Ideal) (normOf H mu var gamma beta) W) (val_main_v26 (F := Ideal) fb)

theorem outOf_apply (H : Arr) (mu var gamma beta : Vec) (W : Mat) (fb : Vec) (p : Fin 100000) (q : Fin 128) :
    outOf H mu var gamma beta W fb (ix2 p q)
      = outAt H (fun k => mu (ix1 k)) (fun k => var (ix1 k)) gamma beta W fb p q := by
  show val_main_v29 (F := Ideal) (normOf H mu var gamma beta) W (ix2 p q) + val_main_v26 (F := Ideal) fb (ix2 p q) = _
  rw [dot_apply, rows_apply]
  simp only [normOf_apply]
  rfl

/-! ## The program's own composition of the stages -/

/-- The column variance as the program composes it: the mean of the squared deviations from the mean. -/
def varOf (H : Arr) : Vec := meanOf (sumOf (devSq H (meanOf (sumOf H))))

theorem first_struct (x0 : Arr) (x1 : Edges) (x2 : Mat) (x3 : Vec) (x4 : Mat) :
    val_main_v31 (F := Ideal) x0 x1 x2 x3 x4 = layerOf (aggOf (msg x0 x1) x1) x0 x2 x3 x4 := rfl

theorem second_struct (x0 : Arr) (x1 : Edges) (x2 : Mat) (x3 : Vec) (x4 x5 : Mat) (x6 : Vec) (x7 : Mat) :
    val_main_v59 (F := Ideal) x0 x1 x2 x3 x4 x5 x6 x7
      = layerOf (aggOf (msg (val_main_v31 (F := Ideal) x0 x1 x2 x3 x4) x1) x1) (val_main_v31 (F := Ideal) x0 x1 x2 x3 x4) x5 x6 x7 := rfl

theorem out_struct (x0 : Arr) (x1 : Edges) (x2 : Mat) (x3 : Vec) (x4 x5 : Mat) (x6 : Vec) (x7 : Mat) (x8 x9 : Vec) (x10 : Mat) (x11 : Vec) :
    val_main_v89 (F := Ideal) x0 x1 x2 x3 x4 x5 x6 x7 x8 x9 x10 x11
      = outOf (val_main_v59 (F := Ideal) x0 x1 x2 x3 x4 x5 x6 x7) (meanOf (sumOf (val_main_v59 (F := Ideal) x0 x1 x2 x3 x4 x5 x6 x7)))
          (varOf (val_main_v59 (F := Ideal) x0 x1 x2 x3 x4 x5 x6 x7)) x8 x9 x10 x11 := rfl

/-! ## The stages are the index formulas -/

theorem first_eq (x0 : Arr) (x1 : Edges) (x2 : Mat) (x3 : Vec) (x4 : Mat) :
    val_main_v31 (F := Ideal) x0 x1 x2 x3 x4 = layer (agg x0 x1) x0 x2 x3 x4 := by
  rw [first_struct, layerOf_eq, aggOf_msg]

theorem second_eq (x0 : Arr) (x1 : Edges) (x2 : Mat) (x3 : Vec) (x4 x5 : Mat) (x6 : Vec) (x7 : Mat) :
    val_main_v59 (F := Ideal) x0 x1 x2 x3 x4 x5 x6 x7
      = layer (agg (layer (agg x0 x1) x0 x2 x3 x4) x1) (layer (agg x0 x1) x0 x2 x3 x4) x5 x6 x7 := by
  rw [second_struct, layerOf_eq, aggOf_msg, first_eq]

theorem mean_read (H : Arr) : (fun k : Fin 128 => meanOf (sumOf H) (ix1 k)) = colMean H := by
  funext k
  rw [meanOf_apply, sumOf_apply]
  exact rfl

theorem var_read (H : Arr) : (fun k : Fin 128 => varOf H (ix1 k)) = colVar H := by
  funext k
  unfold varOf
  rw [meanOf_apply, sumOf_apply]
  simp only [devSq_apply]
  rw [meanOf_apply, sumOf_apply]
  exact rfl

theorem out_eq (H : Arr) (gamma beta : Vec) (W : Mat) (fb : Vec) :
    outOf H (meanOf (sumOf H)) (varOf H) gamma beta W fb = out H gamma beta W fb := by
  funext i
  obtain ⟨p, q, rfl⟩ : ∃ (p : Fin 100000) (q : Fin 128), i = ix2 p q := ⟨i 0, i 1, eq_ix2 i⟩
  rw [outOf_apply, mean_read, var_read]
  exact rfl

/-! ## The run's result -/

/-- The reference program's result buffer after its run is G of the twelve argument arrays. -/
theorem run_eq (m : (ℓ : Loc nD τ sig) → Buf (Elt Ideal) ℓ) (c : Dev nD) :
    Cert.ReferenceIdeal.Value.res_main_v89 (F := Ideal) m c = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [val_main_v89_eq, out_struct, second_eq, out_eq]
  exact rfl

end Cert.Ref

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.LibVariance.lean ====
/-
  The variance identity on the extended reals, in the shape the two programs compute it.

  For a family f of N finite values, with every sum started from the zero word Z and every quotient the extended
  reals' division by the count word C = N, and μ = (Z + ∑ f) / C the mean:
      (Z + ∑ (f − μ)²) / C  =  (Z + ∑ f²) / C  −  μ²
  — the mean of the squared deviations from the mean on the left (what a variance over the whole array computes), the
  mean of the squares less the square of the mean on the right (what is computed from column sums and column sums of
  squares). Both sides are then reals, the common value is nonnegative, so adding a positive real leaves a positive real
  and the reciprocal square root of that is a real. Finiteness of every f r is needed: at an infinite entry the left
  side is +∞ and the right side is +∞ − +∞.

  Also here: the words that occur (zero, one, the count 100000, the stabiliser 1e-5) read as reals.
-/
import Idealize.ShloMosaic.PureOps.Ideal
import proofs.«171674_j35588099015580_1_alg».proof.Proof.LibMoments

noncomputable section

namespace Moments

open Finset Idealize.ShloMosaic

/-! ## The words as reals -/

/-- The single-precision word of all zeros is the number 0. -/
theorem zero_word : Ideal.ofBits .f32 0x00000000#32 = 0 := by simp [Ideal.ofBits, Ideal.ieee]

/-- The word 0x47C35000 is the number 100000 = (2^23 + 4411392) · 2^(143 − 127 − 23). -/
theorem count100000_word : Ideal.ofBits .f32 0x47C35000#32 = ((100000 : ℝ) : EReal) := by
  simp [Ideal.ofBits, Ideal.ieee]
  rw [← EReal.coe_mul]
  norm_num

/-- The word 0x3F800000 is the number 1. -/
theorem one_word : Ideal.ofBits .f32 0x3F800000#32 = 1 := by
  simp [Ideal.ofBits, Ideal.ieee, -EReal.coe_mul]; norm_num

/-- The stabiliser word 0x3727C5AC (about 1e-5) is a positive real. -/
theorem eps_word : ∃ e : ℝ, 0 < e ∧ Ideal.ofBits .f32 0x3727C5AC#32 = (e : EReal) := by
  refine ⟨_, ?_, by simp [Ideal.ofBits, Ideal.ieee]; rfl⟩
  positivity

/-! ## The reciprocal square root of a positive real -/

/-- At a positive real the reciprocal square root is the real 1 / √x. -/
theorem rsqrt_coe_pos {x : ℝ} (hx : 0 < x) : Ideal.rsqrt ((x : ℝ) : EReal) = (((Real.sqrt x)⁻¹ : ℝ) : EReal) := by
  rw [Ideal.rsqrt_coe, if_neg (not_lt.2 hx.le), if_neg hx.ne']

/-- The reciprocal square root of a positive real is finite. -/
theorem rsqrt_fin {x : ℝ} (hx : 0 < x) : Fin' (Ideal.rsqrt ((x : ℝ) : EReal)) := ⟨_, rsqrt_coe_pos hx⟩

/-- The reciprocal square root of a positive real is a positive real. -/
theorem rsqrt_pos {x : ℝ} (hx : 0 < x) : ∃ y : ℝ, 0 < y ∧ Ideal.rsqrt ((x : ℝ) : EReal) = (y : EReal) :=
  ⟨_, inv_pos.2 (Real.sqrt_pos.2 hx), rsqrt_coe_pos hx⟩

/-! ## The identity for a family of reals -/

/-- The two-moment identity on the extended reals for a family of reals: every quotient the extended reals'
    division by the count N, every sum started from 0. -/
theorem var_coe {ι : Type*} (s : Finset ι) (x : ι → ℝ) (N : ℝ) (hN : (s.card : ℝ) = N) (h0 : N ≠ 0) :
    Ideal.div (0 + ∑ i ∈ s, ((x i : EReal) - Ideal.div (0 + ∑ j ∈ s, (x j : EReal)) (N : EReal))
        * ((x i : EReal) - Ideal.div (0 + ∑ j ∈ s, (x j : EReal)) (N : EReal))) (N : EReal)
      = Ideal.div (0 + ∑ i ∈ s, (x i : EReal) * (x i : EReal)) (N : EReal)
        - Ideal.div (0 + ∑ j ∈ s, (x j : EReal)) (N : EReal) * Ideal.div (0 + ∑ j ∈ s, (x j : EReal)) (N : EReal) := by
  have hμ : Ideal.div (0 + ∑ j ∈ s, (x j : EReal)) (N : EReal) = (((∑ j ∈ s, x j) / N : ℝ) : EReal) := by
    rw [zero_add, ← coe_sum, div_coe_coe _ h0]
  rw [hμ]
  have h1 : ∀ i, ((x i : EReal) - (((∑ j ∈ s, x j) / N : ℝ) : EReal)) * ((x i : EReal) - (((∑ j ∈ s, x j) / N : ℝ) : EReal))
      = (((x i - (∑ j ∈ s, x j) / N) * (x i - (∑ j ∈ s, x j) / N) : ℝ) : EReal) := fun i => by
    rw [← EReal.coe_sub, ← EReal.coe_mul]
  have h2 : ∀ i, (x i : EReal) * (x i : EReal) = ((x i * x i : ℝ) : EReal) := fun i => (EReal.coe_mul _ _).symm
  simp only [h1, h2]
  rw [zero_add, zero_add, ← coe_sum, ← coe_sum, div_coe_coe _ h0, div_coe_coe _ h0, ← EReal.coe_mul, ← EReal.coe_sub,
    var_real s x N hN h0]

/-- The mean of squared deviations of a family of reals from any real m, over a positive count, is a nonnegative real. -/
theorem dev_coe_nonneg {ι : Type*} (s : Finset ι) (x : ι → ℝ) (m : ℝ) (N : ℝ) (hpos : 0 < N) :
    ∃ v : ℝ, 0 ≤ v ∧ Ideal.div (0 + ∑ i ∈ s, ((x i : EReal) - (m : EReal)) * ((x i : EReal) - (m : EReal))) (N : EReal) = (v : EReal) := by
  have h1 : ∀ i, ((x i : EReal) - (m : EReal)) * ((x i : EReal) - (m : EReal)) = (((x i - m) * (x i - m) : ℝ) : EReal) := fun i => by
    rw [← EReal.coe_sub, ← EReal.coe_mul]
  refine ⟨(∑ i ∈ s, (x i - m) * (x i - m)) / N, div_nonneg (Finset.sum_nonneg fun i _ => mul_self_nonneg _) hpos.le, ?_⟩
  simp only [h1]
  rw [zero_add, ← coe_sum, div_coe_coe _ hpos.ne']

/-! ## The identity for a finite family over a finite index type

  Z is the zero word, C the count word: hZ and hC say what numbers they are. -/

section Family

variable {ι : Type*} [Fintype ι] (N : ℝ) (Z C : EReal) (f : ι → EReal)

/-- The mean of a finite family is finite. -/
theorem mean_fin (h0 : N ≠ 0) (hZ : Z = 0) (hC : C = (N : EReal)) (hf : ∀ r, Fin' (f r)) :
    Fin' (Ideal.div (Z + ∑ j, f j) C) := by
  subst hZ hC
  exact (Fin'.zero.add (Fin'.sum _ _ fun i _ => hf i)).div h0

/-- The mean of the squares of a finite family is finite. -/
theorem meansq_fin (h0 : N ≠ 0) (hZ : Z = 0) (hC : C = (N : EReal)) (hf : ∀ r, Fin' (f r)) :
    Fin' (Ideal.div (Z + ∑ r, f r * f r) C) := by
  subst hZ hC
  exact (Fin'.zero.add (Fin'.sum _ _ fun i _ => (hf i).mul (hf i))).div h0

/-- The variance identity: the mean of the squared deviations from the mean is the mean of the squares less the square
    of the mean. -/
theorem var_fin (hN : (Fintype.card ι : ℝ) = N) (h0 : N ≠ 0) (hZ : Z = 0) (hC : C = (N : EReal)) (hf : ∀ r, Fin' (f r)) :
    Ideal.div (Z + ∑ r, (f r - Ideal.div (Z + ∑ j, f j) C) * (f r - Ideal.div (Z + ∑ j, f j) C)) C
      = Ideal.div (Z + ∑ r, f r * f r) C - Ideal.div (Z + ∑ j, f j) C * Ideal.div (Z + ∑ j, f j) C := by
  subst hZ hC
  choose x hx using hf
  obtain rfl : f = fun r => (x r : EReal) := funext hx
  exact var_coe Finset.univ x N (by rw [Finset.card_univ]; exact hN) h0

/-- The left side is a nonnegative real. -/
theorem var_nonneg (hpos : 0 < N) (hZ : Z = 0) (hC : C = (N : EReal)) (hf : ∀ r, Fin' (f r)) :
    ∃ v : ℝ, 0 ≤ v ∧
      Ideal.div (Z + ∑ r, (f r - Ideal.div (Z + ∑ j, f j) C) * (f r - Ideal.div (Z + ∑ j, f j) C)) C = (v : EReal) := by
  obtain ⟨m, hm⟩ := mean_fin N Z C f hpos.ne' hZ hC hf
  rw [hm]
  subst hZ hC
  choose x hx using hf
  obtain rfl : f = fun r => (x r : EReal) := funext hx
  exact dev_coe_nonneg Finset.univ x m N hpos

/-- The right side is the same nonnegative real. -/
theorem var2_nonneg (hN : (Fintype.card ι : ℝ) = N) (hpos : 0 < N) (hZ : Z = 0) (hC : C = (N : EReal)) (hf : ∀ r, Fin' (f r)) :
    ∃ v : ℝ, 0 ≤ v ∧
      Ideal.div (Z + ∑ r, f r * f r) C - Ideal.div (Z + ∑ j, f j) C * Ideal.div (Z + ∑ j, f j) C = (v : EReal) := by
  rw [← var_fin N Z C f hN hpos.ne' hZ hC hf]
  exact var_nonneg N Z C f hpos hZ hC hf

/-- Both sides are finite. -/
theorem var_fin' (hpos : 0 < N) (hZ : Z = 0) (hC : C = (N : EReal)) (hf : ∀ r, Fin' (f r)) :
    Fin' (Ideal.div (Z + ∑ r, (f r - Ideal.div (Z + ∑ j, f j) C) * (f r - Ideal.div (Z + ∑ j, f j) C)) C) := by
  obtain ⟨v, _, hv⟩ := var_nonneg N Z C f hpos hZ hC hf
  exact ⟨v, hv⟩

theorem var2_fin' (hN : (Fintype.card ι : ℝ) = N) (hpos : 0 < N) (hZ : Z = 0) (hC : C = (N : EReal)) (hf : ∀ r, Fin' (f r)) :
    Fin' (Ideal.div (Z + ∑ r, f r * f r) C - Ideal.div (Z + ∑ j, f j) C * Ideal.div (Z + ∑ j, f j) C) := by
  obtain ⟨v, _, hv⟩ := var2_nonneg N Z C f hN hpos hZ hC hf
  exact ⟨v, hv⟩

/-- The left side plus a positive real E is a positive real. -/
theorem var_add_pos (hpos : 0 < N) (hZ : Z = 0) (hC : C = (N : EReal)) (hf : ∀ r, Fin' (f r))
    (E : EReal) (hE : ∃ e : ℝ, 0 < e ∧ E = (e : EReal)) :
    ∃ y : ℝ, 0 < y ∧
      Ideal.div (Z + ∑ r, (f r - Ideal.div (Z + ∑ j, f j) C) * (f r - Ideal.div (Z + ∑ j, f j) C)) C + E = (y : EReal) := by
  obtain ⟨v, hv0, hv⟩ := var_nonneg N Z C f hpos hZ hC hf
  obtain ⟨e, he0, rfl⟩ := hE
  exact ⟨v + e, by linarith, by rw [hv, EReal.coe_add]⟩

/-- The reciprocal square root of the left side plus a positive real is finite. -/
theorem rsqrt_var_fin (hpos : 0 < N) (hZ : Z = 0) (hC : C = (N : EReal)) (hf : ∀ r, Fin' (f r))
    (E : EReal) (hE : ∃ e : ℝ, 0 < e ∧ E = (e : EReal)) :
    Fin' (Ideal.rsqrt
      (Ideal.div (Z + ∑ r, (f r - Ideal.div (Z + ∑ j, f j) C) * (f r - Ideal.div (Z + ∑ j, f j) C)) C + E)) := by
  obtain ⟨y, hy0, hy⟩ := var_add_pos N Z C f hpos hZ hC hf E hE
  rw [hy]
  exact rsqrt_fin hy0

end Family

/-! ## The instance: 100000 rows, with the words as the programs carry them -/

/-- 100000 rows. -/
theorem var100000 (f : Fin 100000 → EReal) (hf : ∀ r, Fin' (f r)) :
    Ideal.div (Ideal.ofBits .f32 0x00000000#32 + ∑ r, (f r - Ideal.div (Ideal.ofBits .f32 0x00000000#32 + ∑ j, f j) (Ideal.ofBits .f32 0x47C35000#32))
        * (f r - Ideal.div (Ideal.ofBits .f32 0x00000000#32 + ∑ j, f j) (Ideal.ofBits .f32 0x47C35000#32))) (Ideal.ofBits .f32 0x47C35000#32)
      = Ideal.div (Ideal.ofBits .f32 0x00000000#32 + ∑ r, f r * f r) (Ideal.ofBits .f32 0x47C35000#32)
        - Ideal.div (Ideal.ofBits .f32 0x00000000#32 + ∑ j, f j) (Ideal.ofBits .f32 0x47C35000#32)
          * Ideal.div (Ideal.ofBits .f32 0x00000000#32 + ∑ j, f j) (Ideal.ofBits .f32 0x47C35000#32) :=
  var_fin 100000 _ _ f (by rw [Fintype.card_fin]; norm_num) (by norm_num) zero_word count100000_word hf

theorem mean100000_fin (f : Fin 100000 → EReal) (hf : ∀ r, Fin' (f r)) :
    Fin' (Ideal.div (Ideal.ofBits .f32 0x00000000#32 + ∑ j, f j) (Ideal.ofBits .f32 0x47C35000#32)) :=
  mean_fin 100000 _ _ f (by norm_num) zero_word count100000_word hf

/-- 100000 rows: the variance plus the stabiliser is a positive real. -/
theorem var100000_add_eps_pos (f : Fin 100000 → EReal) (hf : ∀ r, Fin' (f r)) :
    ∃ y : ℝ, 0 < y ∧
      Ideal.div (Ideal.ofBits .f32 0x00000000#32 + ∑ r, (f r - Ideal.div (Ideal.ofBits .f32 0x00000000#32 + ∑ j, f j) (Ideal.ofBits .f32 0x47C35000#32))
        * (f r - Ideal.div (Ideal.ofBits .f32 0x00000000#32 + ∑ j, f j) (Ideal.ofBits .f32 0x47C35000#32))) (Ideal.ofBits .f32 0x47C35000#32)
        + Ideal.ofBits .f32 0x3727C5AC#32 = (y : EReal) :=
  var_add_pos 100000 _ _ f (by norm_num) zero_word count100000_word hf _ eps_word

end Moments

end
-- ==== Proof.RefFinite.lean ====
/- The reference's intermediate arrays have real entries when its float arguments have. A scatter-add leaves at every
   index the operand's entry plus a finite sum of update entries, so it has real entries when the operand and the updates
   have; the summed messages start from the zero word and add gathered entries of the features; the raised in-degree is
   the maximum of a sum of ones and one, a real number at least 1; the mean aggregation divides by it; a graph layer is
   a maximum of a sum of products, a bias entry and another sum of products with the zero word; a column's mean and its
   mean of squared deviations divide finite sums by the count 100000, and the latter plus the stabiliser is positive. -/
import proofs.«171674_j35588099015580_1_alg».proof.Proof.RefSpec
import proofs.«171674_j35588099015580_1_alg».proof.Proof.LibMoments
import proofs.«171674_j35588099015580_1_alg».proof.Proof.LibStraightThrough
import proofs.«171674_j35588099015580_1_alg».proof.Proof.LibVariance

noncomputable section

namespace Cert.Ref

open Moments
open Cert.ReferenceIdeal Cert.ReferenceIdeal.Gen Cert.ReferenceIdeal.Read Idealize.ShloMosaic Idealize.ShloMosaic.TcCoe Idealize.ShloMosaic.ValueIdx

/-- The single-precision word of zero is the number 0. -/
theorem zero_word_fin : Fin' (Ideal.ofBits .f32 0x00000000#32) := by rw [Ideal.ofBits_zero_f32]; exact Fin'.zero

/-- The single-precision word of one is the number 1. -/
theorem one_word_eq : Ideal.ofBits .f32 0x3F800000#32 = ((1 : ℝ) : EReal) := by
  rw [Cert.LibStraightThrough.one_f32]; rfl

/-- A scatter-add of real update entries into real operand entries has real entries: each is the operand's entry plus
    the sum of the updates landing there. -/
theorem scatterAdd_fin {s si su : Shape} {w : Nat} (d : ScatterDims s si su) (x : FVec Ideal s .f32) (idx : IVec si w)
    (upd : FVec Ideal su .f32) (hx : ∀ i, Fin' (x i)) (hu : ∀ j, Fin' (upd j)) (i : s.Idx) :
    Fin' (Host.scatterAdd (F := Ideal) (φ := .f32) d x idx upd i) := by
  unfold Host.scatterAdd
  rw [Ideal.hostScatterAdd_def]
  unfold Ideal.hostScatterAdd
  exact (hx i).add (Fin'.sum _ _ fun j _ => hu j)

/-- The summed messages of real features are real. -/
theorem msg_fin (h : Arr) (ei : Edges) (hh : ∀ j, ∃ r : ℝ, h j = (r : EReal)) : ∀ i, ∃ r : ℝ, msg h ei i = (r : EReal) := by
  intro i
  unfold msg
  refine scatterAdd_fin _ _ _ _ (fun i' => ?_) (fun j => ?_) i
  · rw [val_main_v11_apply, val_main_cst_apply]; exact zero_word_fin
  · exact hh _

/-- The raised in-degree of a row is a real number at least 1: the maximum of a finite sum of ones and one. -/
theorem degMax_real (ei : Edges) (j : S100000.Idx) : ∃ d : ℝ, 1 ≤ d ∧ degMax ei j = (d : EReal) := by
  have hs : Fin' (val_main_v17 (F := Ideal) ei j) := by
    unfold val_main_v17
    refine scatterAdd_fin _ _ _ _ (fun i' => ?_) (fun k => ?_) j
    · rw [val_main_v15_apply, val_main_cst_2_apply]; exact zero_word_fin
    · rw [val_main_v14_apply, val_main_cst_1_apply]; exact ⟨1, one_word_eq⟩
  obtain ⟨s, hs⟩ := hs
  have e : degMax ei j = max ((s : ℝ) : EReal) ((1 : ℝ) : EReal) := by
    unfold degMax
    rw [val_main_v19_apply, val_main_v18_apply, val_main_cst_3_apply, hs]
    show max ((s : ℝ) : EReal) (Ideal.ofBits .f32 0x3F800000#32) = _
    rw [one_word_eq]
  rcases le_total s 1 with h1 | h1
  · exact ⟨1, le_refl 1, by rw [e, max_eq_right (EReal.coe_le_coe_iff.2 h1)]⟩
  · exact ⟨s, h1, by rw [e, max_eq_left (EReal.coe_le_coe_iff.2 h1)]⟩

/-- The mean aggregation of real features is real: real summed messages divided by a real number at least 1. -/
theorem agg_fin (h : Arr) (ei : Edges) (hh : ∀ j, ∃ r : ℝ, h j = (r : EReal)) : ∀ i, ∃ r : ℝ, agg h ei i = (r : EReal) := by
  intro i
  obtain ⟨d, hd1, hd⟩ := degMax_real ei (ix1 (i 0))
  have hd0 : d ≠ 0 := ne_of_gt (lt_of_lt_of_le one_pos hd1)
  obtain ⟨x, hx⟩ := msg_fin h ei hh i
  unfold agg
  dsimp only
  rw [hd, hx]
  exact Fin'.div (Fin'.coe x) hd0

/-- A graph layer of real arrays is real. -/
theorem layer_fin (a h : Arr) (wl : Mat) (bl : Vec) (wr : Mat)
    (ha : ∀ i, ∃ r : ℝ, a i = (r : EReal)) (hh : ∀ i, ∃ r : ℝ, h i = (r : EReal))
    (hwl : ∀ i, ∃ r : ℝ, wl i = (r : EReal)) (hbl : ∀ i, ∃ r : ℝ, bl i = (r : EReal))
    (hwr : ∀ i, ∃ r : ℝ, wr i = (r : EReal)) : ∀ i, ∃ r : ℝ, layer a h wl bl wr i = (r : EReal) := by
  intro i
  show Fin' (layerAt a h wl bl wr (i 0) (i 1))
  unfold layerAt
  exact Fin'.max
    (Fin'.add (Fin'.add (Fin'.sum _ _ fun k _ => Fin'.mul (ha _) (hwl _)) (hbl _)) (Fin'.sum _ _ fun k _ => Fin'.mul (hh _) (hwr _)))
    zero_word_fin

/-- The mean of a column of real entries is real. -/
theorem colMean_fin (h : Arr) (hh : ∀ i, ∃ r : ℝ, h i = (r : EReal)) (c : Fin 128) : ∃ r : ℝ, colMean h c = (r : EReal) := by
  unfold colMean
  exact mean100000_fin (fun r => h (ix2 r c)) (fun r => hh _)

/-- The mean of the squared deviations of a column of real entries is real. -/
theorem colVar_fin (h : Arr) (hh : ∀ i, ∃ r : ℝ, h i = (r : EReal)) (c : Fin 128) : ∃ r : ℝ, colVar h c = (r : EReal) := by
  unfold colVar colMean
  exact var_fin' 100000 _ _ (fun r => h (ix2 r c)) (by norm_num) zero_word count100000_word (fun r => hh _)

/-- The mean of the squared deviations of a column of real entries, plus the stabiliser word, is a positive real. -/
theorem colVar_add_eps_pos (h : Arr) (hh : ∀ i, ∃ r : ℝ, h i = (r : EReal)) (c : Fin 128) :
    ∃ y : ℝ, 0 < y ∧ colVar h c + Ideal.ofBits .f32 0x3727C5AC#32 = (y : EReal) := by
  unfold colVar colMean
  exact var100000_add_eps_pos (fun r => h (ix2 r c)) (fun r => hh _)

end Cert.Ref

end
-- ==== Proof.BridgeParts.lean ====
/- The kernel program's pieces against the reference's, on the extended reals. A graph layer: the kernel multiplies by
   the transposed weight matrices and adds the bias last, the reference reads the matrices transposed in place and adds
   the bias between the two sums; addition is commutative. The column mean: the kernel divides the column sum by the
   count, the reference starts its sum at the zero word. The column variance: the kernel takes the mean of squares less
   the squared mean, the reference the mean of squared deviations; for real entries the two agree. The last map: the
   same normalisation, scale, shift and linear layer entry by entry. -/
import proofs.«171674_j35588099015580_1_alg».proof.Proof.KerHost
import proofs.«171674_j35588099015580_1_alg».proof.Proof.RefSpec
import proofs.«171674_j35588099015580_1_alg».proof.Proof.RefFinite
import proofs.«171674_j35588099015580_1_alg».proof.Proof.LibVariance

noncomputable section

namespace Cert.Bridge

open Cert.Spec Cert.KerHost Idealize.ShloMosaic Idealize.ShloMosaic.ValueIdx Moments

/-- The column sums at (0, k): the sum of column k over the rows. -/
theorem colSum_at (h : SN.Idx → EReal) (k : Fin 128) : colSum h (ix2 (0 : Fin 1) k) = ∑ r : Fin 100000, h (ix2 r k) := rfl

/-- The column sums of squares at (0, k). -/
theorem colSumSq_at (h : SN.Idx → EReal) (k : Fin 128) :
    colSumSq h (ix2 (0 : Fin 1) k) = ∑ r : Fin 100000, h (ix2 r k) * h (ix2 r k) := rfl

/-- A graph layer: the kernel's form with transposed weights and the bias row is the reference's layer. -/
theorem sage_eq (a h : Cert.Ref.Arr) (wl : Cert.Ref.Mat) (bl : Cert.Ref.Vec) (wr : Cert.Ref.Mat) :
    sage a h (kT (F := Ideal) wl) (kT (F := Ideal) wr) (kRow (F := Ideal) bl) = Cert.Ref.layer a h wl bl wr := by
  funext i
  obtain ⟨r, c, rfl⟩ : ∃ (r : Fin 100000) (c : Fin 128), i = ix2 r c := ⟨i 0, i 1, eq_ix2 i⟩
  show sageAt a h (kT (F := Ideal) wl) (kT (F := Ideal) wr) (kRow (F := Ideal) bl) r c = Cert.Ref.layerAt a h wl bl wr r c
  unfold sageAt Cert.Ref.layerAt
  simp only [kT_apply, kRow_apply]
  rw [add_right_comm]

/-- The column mean: the kernel's row of means at (0, k) is the reference's mean of column k. -/
theorem mean_eq (h : Cert.Ref.Arr) (k : Fin 128) :
    kRow (F := Ideal) (kMu (F := Ideal) (colSum h)) (ix2 (0 : Fin 1) k) = Cert.Ref.colMean h k := by
  rw [kRow_apply, kMu_apply, colSum_at]
  unfold Cert.Ref.colMean
  rw [Moments.zero_word, zero_add]

/-- The column variance, for real entries: the mean of squares less the squared mean is the mean of squared deviations. -/
theorem var_eq (h : Cert.Ref.Arr) (hh : ∀ i, ∃ x : ℝ, h i = (x : EReal)) (k : Fin 128) :
    kRow (F := Ideal) (kVar (F := Ideal) (colSum h) (colSumSq h)) (ix2 (0 : Fin 1) k) = Cert.Ref.colVar h k := by
  rw [kRow_apply, kVar_apply, colSum_at, colSumSq_at]
  unfold Cert.Ref.colVar Cert.Ref.colMean
  have e := Moments.var100000 (fun r => h (ix2 r k)) (fun r => hh _)
  beta_reduce at e
  rw [e]
  simp only [Moments.zero_word, zero_add]

/-- The last map at (r, c): the kernel's form over rows and the transposed matrix is the reference's entry. -/
theorem final_eq (h : Cert.Ref.Arr) (mu var : SR.Idx → EReal) (gamma beta : Cert.Ref.Vec) (fcW : Cert.Ref.Mat) (fcb : Cert.Ref.Vec)
    (r : Fin 100000) (c : Fin 128) :
    final h mu var (kRow (F := Ideal) gamma) (kRow (F := Ideal) beta) (kT (F := Ideal) fcW) (kRow (F := Ideal) fcb) (ix2 r c)
      = Cert.Ref.outAt h (fun k => mu (ix2 (0 : Fin 1) k)) (fun k => var (ix2 (0 : Fin 1) k)) gamma beta fcW fcb r c := by
  rw [final_apply]
  simp only [kRow_apply, kT_apply]
  exact rfl

/-- The last region's result from a second-layer output with real entries is the reference's. -/
theorem finalOf_eq (h : Cert.Ref.Arr) (hh : ∀ i, ∃ x : ℝ, h i = (x : EReal)) (gamma beta : Cert.Ref.Vec) (fcW : Cert.Ref.Mat)
    (fcb : Cert.Ref.Vec) : Cert.KerHost.finalOf h gamma beta fcW fcb = Cert.Ref.out h gamma beta fcW fcb := by
  funext i
  obtain ⟨r, c, rfl⟩ : ∃ (r : Fin 100000) (c : Fin 128), i = ix2 r c := ⟨i 0, i 1, eq_ix2 i⟩
  unfold Cert.KerHost.finalOf Cert.Ref.out
  refine (final_eq h _ _ gamma beta fcW fcb r c).trans ?_
  have em : (fun k : Fin 128 => kRow (F := Ideal) (kMu (F := Ideal) (colSum h)) (ix2 (0 : Fin 1) k)) = Cert.Ref.colMean h :=
    funext (mean_eq h)
  have ev : (fun k : Fin 128 => kRow (F := Ideal) (kVar (F := Ideal) (colSum h) (colSumSq h)) (ix2 (0 : Fin 1) k)) = Cert.Ref.colVar h :=
    funext (var_eq h hh)
  rw [em, ev]

end Cert.Bridge

end
-- ==== Proof.Bridge.lean ====
import proofs.«171674_j35588099015580_1_alg».proof.Proof.KerHost
import proofs.«171674_j35588099015580_1_alg».proof.Proof.RefSpec
import proofs.«171674_j35588099015580_1_alg».proof.Proof.RefFinite
import proofs.«171674_j35588099015580_1_alg».proof.Proof.LibVariance
import proofs.«171674_j35588099015580_1_alg».proof.Proof.BridgeParts

/-!
  The two programs compute the same function of the twelve arguments when the eleven float arguments have real entries.

  The mean aggregation: the program with the regions multiplies the summed messages by 1/d, computed once, where the
  reference divides them by d; d = max(in-degree, 1) is a real number ≥ 1, in particular not zero, and for d ≠ 0 both
  are x · d⁻¹. The summed messages and the raised in-degree themselves are the same terms in both programs (their shape
  records are stated twice, once per program, with the same content).
-/

noncomputable section

namespace Cert.Bridge

open Cert.Spec Cert.KerHost Idealize.ShloMosaic Idealize.ShloMosaic.StableHlo Idealize.ShloMosaic.ValueIdx Moments
open Cert.KernelIdeal in
/-- The quotient of two [100000] columns at an index. -/
theorem divf_col (A D : (⟨S100000, .f32⟩ : BufTy).Contents (Elt Ideal)) (j : S100000.Idx) :
    Host.divf (F := Ideal) (φ := .f32) A D j = Ideal.div (A j) (D j) := rfl

open Cert.KernelIdeal Cert.KernelIdeal.Gen in
/-- The reciprocal column at (r, 0): the word of one divided by the raised in-degree of row r. -/
theorem kDegInv_apply (dst : (⟨S1600000, .i32⟩ : BufTy).Contents (Elt Ideal)) (r : Fin 100000) (u : Fin 1) :
    kDegInv (F := Ideal) dst (ix2 r u) = Ideal.div (Ideal.ofBits .f32 0x3F800000#32) (kDegMax (F := Ideal) dst (ix1 r)) := by
  unfold kDegInv
  generalize kDegMax (F := Ideal) dst = D
  rw [bcastCol_apply, divf_col]
  exact congrArg (fun z => Ideal.div z (D (ix1 r)))
    ((broadcastInDim_apply _ bcast_S_S100000 (constant (F := Ideal) S_ .f32 0x3F800000#32) (ix1 r) (fun a => a.elim0)
      (fun a => a.elim0)).trans (constant_apply _ _))

open Cert.KernelIdeal Cert.KernelIdeal.Gen in
/-- The mean aggregation at (r, c): the summed messages there times the reciprocal column at (r, 0). -/
theorem kAggOf_apply (h : (⟨S100000x128, .f32⟩ : BufTy).Contents (Elt Ideal)) (src dst : (⟨S1600000, .i32⟩ : BufTy).Contents (Elt Ideal)) (dinv : (⟨S100000x1, .f32⟩ : BufTy).Contents (Elt Ideal))
    (r : Fin 100000) (c : Fin 128) :
    kAggOf (F := Ideal) h src dst dinv (ix2 r c) = kMsg (F := Ideal) h src dst (ix2 r c) * dinv (ix2 r (0 : Fin 1)) := by
  unfold kAggOf
  generalize kMsg (F := Ideal) h src dst = M
  rw [mulf_apply, bcastRows_apply]

open Cert.KernelIdeal Cert.KernelIdeal.Gen in
/-- The mean aggregation at (r, c): the summed messages times one over the raised in-degree of row r. -/
theorem kAgg_apply (h : (⟨S100000x128, .f32⟩ : BufTy).Contents (Elt Ideal)) (ei : (⟨S2x1600000, .i32⟩ : BufTy).Contents (Elt Ideal)) (r : Fin 100000) (c : Fin 128) :
    kAgg (F := Ideal) h ei (ix2 r c)
      = kMsg (F := Ideal) h (kSrc (F := Ideal) ei) (kDst (F := Ideal) ei) (ix2 r c)
        * Ideal.div (Ideal.ofBits .f32 0x3F800000#32) (kDegMax (F := Ideal) (kDst (F := Ideal) ei) (ix1 r)) := by
  unfold kAgg
  rw [kAggOf_apply, kDegInv_apply]

/-- The two programs' summed messages are one term. -/
theorem msg_same (h : Ref.Arr) (ei : Ref.Edges) :
    kMsg (F := Ideal) h (kSrc (F := Ideal) ei) (kDst (F := Ideal) ei) = Ref.msg h ei := rfl

/-- The two programs' raised in-degrees are one term. -/
theorem deg_same (ei : Ref.Edges) : kDegMax (F := Ideal) (kDst (F := Ideal) ei) = Ref.degMax ei := rfl

/-- For d ≠ 0, x times (one over d) is x over d: both are x · d⁻¹. -/
theorem mul_one_div (x d : EReal) (hd : d ≠ 0) :
    x * Ideal.div (Ideal.ofBits .f32 0x3F800000#32) d = Ideal.div x d := by
  rw [one_word, Ideal.div, if_neg hd, Ideal.div, if_neg hd, one_mul]

/-- The mean aggregation of the program with the regions is the reference's. -/
theorem kAgg_eq (h : Ref.Arr) (ei : Ref.Edges) : kAgg (F := Ideal) h ei = Ref.agg h ei := by
  funext i
  obtain ⟨r, c, rfl⟩ : ∃ (r : Fin 100000) (c : Fin 128), i = ix2 r c := ⟨i 0, i 1, eq_ix2 i⟩
  rw [kAgg_apply, msg_same, deg_same]
  unfold Ref.agg
  have hne : ∀ j, Ref.degMax ei j ≠ 0 := fun j => by
    obtain ⟨d, hd1, hd⟩ := Ref.degMax_real ei j
    rw [hd]
    exact EReal.coe_ne_zero.2 (by linarith)
  generalize Ref.degMax ei = D at hne ⊢
  generalize Ref.msg h ei = M
  exact mul_one_div _ _ (hne _)

/-! ## The whole programs -/

/-- The two programs' results agree when the float arguments have real entries. Only the real entries of the second
    layer's output are used (for the variance identity); they follow from those of the features and of the two layers'
    weights and biases. -/
theorem total_eq (x : Ref.Arr) (ei : Ref.Edges) (wl1 : Ref.Mat) (bl1 : Ref.Vec) (wr1 wl2 : Ref.Mat) (bl2 : Ref.Vec) (wr2 : Ref.Mat)
    (gamma beta : Ref.Vec) (fcW : Ref.Mat) (fcb : Ref.Vec)
    (hx : ∀ i, ∃ r : ℝ, x i = (r : EReal)) (hwl1 : ∀ i, ∃ r : ℝ, wl1 i = (r : EReal)) (hbl1 : ∀ i, ∃ r : ℝ, bl1 i = (r : EReal)) (hwr1 : ∀ i, ∃ r : ℝ, wr1 i = (r : EReal))
    (hwl2 : ∀ i, ∃ r : ℝ, wl2 i = (r : EReal)) (hbl2 : ∀ i, ∃ r : ℝ, bl2 i = (r : EReal)) (hwr2 : ∀ i, ∃ r : ℝ, wr2 i = (r : EReal))
    (hgamma : ∀ i, ∃ r : ℝ, gamma i = (r : EReal)) (hbeta : ∀ i, ∃ r : ℝ, beta i = (r : EReal)) (hfcW : ∀ i, ∃ r : ℝ, fcW i = (r : EReal)) (hfcb : ∀ i, ∃ r : ℝ, fcb i = (r : EReal)) :
    KerHost.total x ei wl1 bl1 wr1 wl2 bl2 wr2 gamma beta fcW fcb = Ref.G x ei wl1 bl1 wr1 wl2 bl2 wr2 gamma beta fcW fcb := by
  have e1 : KerHost.h1 x ei wl1 bl1 wr1 = Ref.layer (Ref.agg x ei) x wl1 bl1 wr1 := by
    unfold KerHost.h1
    rw [kAgg_eq, sage_eq]
  have e2 : KerHost.h2 x ei wl1 bl1 wr1 wl2 bl2 wr2
      = Ref.layer (Ref.agg (Ref.layer (Ref.agg x ei) x wl1 bl1 wr1) ei) (Ref.layer (Ref.agg x ei) x wl1 bl1 wr1) wl2 bl2 wr2 := by
    unfold KerHost.h2
    rw [e1, kAgg_eq, sage_eq]
  have f1 := Ref.layer_fin (Ref.agg x ei) x wl1 bl1 wr1 (Ref.agg_fin x ei hx) hx hwl1 hbl1 hwr1
  have f2 := Ref.layer_fin (Ref.agg (Ref.layer (Ref.agg x ei) x wl1 bl1 wr1) ei) (Ref.layer (Ref.agg x ei) x wl1 bl1 wr1) wl2 bl2 wr2
    (Ref.agg_fin _ ei f1) f1 hwl2 hbl2 hwr2
  unfold KerHost.total Ref.G
  rw [e2]
  exact finalOf_eq _ f2 gamma beta fcW fcb

end Cert.Bridge

end
-- ==== Proof.lean ====
/-
  The certificate of a two-layer mean-aggregating graph network followed by a batch normalisation and a linear map, as a Pallas program of
  four kernel launches among host operations, against its plain reference.

  What both programs compute, on the extended reals: with src and dst the two rows of the edge list, deg(i) the number of edges into node i,
  and agg(h)(i,·) the sum of h(src(e),·) over the edges e into i divided by max(deg(i), 1), one layer is
  relu(agg(h)·Wlᵀ + bl + h·Wrᵀ); h₂ is two layers applied to x; μ and σ² are the column mean and the column variance of h₂ over its
  100000 rows; the result is ((h₂ − μ)·rsqrt(σ² + ε)·γ + β)·fcWᵀ + fcb.

  Where the two programs differ, and the law that joins them:
  * the kernel program multiplies the summed messages by 1/max(deg,1) where the reference divides by max(deg,1): max(deg,1) is a real
    number ≥ 1, and dividing an extended real by a nonzero real is multiplying by its inverse;
  * the kernel adds the bias after both matrix products, the reference between them: addition of extended reals is commutative and associative;
  * the kernel accumulates the column sums over twenty blocks of 5000 rows, the reference sums 100000 rows at once: a finite sum regrouped;
  * the kernel's variance is Σh²/N − μ², the reference's Σ(h − μ)²/N: equal when every entry of h₂ is a real number, which holds because
    every float input is finite (the precondition) and sums, products, maxima and quotients by reals ≥ 1 of reals are reals — the one place
    the precondition is used.
  The frames (each program runs to the end, faults nowhere and leaves its arguments unchanged) come from the run of the kernel program's
  seven items in a row (the run modules) and from the reference's run read back; the ideal pass rewrote nothing, so the preservation
  conjunct is trivial.
-/
import proofs.«171674_j35588099015580_1_alg».proof.Defs
import proofs.«171674_j35588099015580_1_alg».proof.Proof.Gen.Kernel
import proofs.«171674_j35588099015580_1_alg».proof.Proof.Gen.KernelIdeal
import proofs.«171674_j35588099015580_1_alg».proof.Proof.Gen.ReferenceIdeal
import proofs.«171674_j35588099015580_1_alg».proof.Proof.Gen.Pre_finite_inputs
import proofs.«171674_j35588099015580_1_alg».proof.Proof.Gen.ReferenceIdeal.Run
import proofs.«171674_j35588099015580_1_alg».proof.Proof.KRun
import proofs.«171674_j35588099015580_1_alg».proof.Proof.KIRun
import proofs.«171674_j35588099015580_1_alg».proof.Proof.KIChain2
import proofs.«171674_j35588099015580_1_alg».proof.Proof.Finite
import proofs.«171674_j35588099015580_1_alg».proof.Proof.Ref
import proofs.«171674_j35588099015580_1_alg».proof.Proof.Bridge

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run read back, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the same result array: the kernel program's last region leaves the function `KerHost.total` of the
    arguments (the chain through the seven items), the reference's run leaves `Ref.G` of them, and the two are one function of finite
    arguments (the bridge). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Ref.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨?_, (h c).2⟩) (Cert.KernelIdeal.Hand.result (F := Ideal) m ρ)
    obtain ⟨f0, f2, f3, f4, f5, f6, f7, f8, f9, f10, f11⟩ := Cert.Finite.of_pre m hpre c
    rw [(h c).1, Cert.KernelIdeal.HandValue.chain m ρ c]
    exact Cert.Bridge.total_eq _ _ _ _ _ _ _ _ _ _ _ _ f0 f2 f3 f4 f5 f6 f7 f8 f9 f10 f11
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11⟩ := hagree c
    rw [(h c).1, Cert.Ref.run_eq m' c, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
